-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S8x64x512 : Shape := ⟨3, ![8, 64, 512]⟩
abbrev S8x64 : Shape := ⟨2, ![8, 64]⟩
abbrev S512x512 : Shape := ⟨2, ![512, 512]⟩
abbrev S512 : Shape := ⟨1, ![512]⟩
abbrev S200x512 : Shape := ⟨2, ![200, 512]⟩
abbrev S200 : Shape := ⟨1, ![200]⟩
abbrev S200x200 : Shape := ⟨2, ![200, 200]⟩
abbrev S512x200 : Shape := ⟨2, ![512, 200]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S8x64 : S_.BroadcastsInDim S8x64 (![] : Fin 0 → Fin S8x64.rank)
  reducesTo_S8x64_S_d0_1 : S8x64.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S200x512 : S_.BroadcastsInDim S200x512 (![] : Fin 0 → Fin S200x512.rank)
  reducesTo_S200x512_S_d0_1 : S200x512.ReducesTo [0, 1] S_
  bcast_S_S200 : S_.BroadcastsInDim S200 (![] : Fin 0 → Fin S200.rank)
  reducesTo_S200_S_d0 : S200.ReducesTo [0] S_
  bcast_S_S200x200 : S_.BroadcastsInDim S200x200 (![] : Fin 0 → Fin S200x200.rank)
  reducesTo_S200x200_S_d0_1 : S200x200.ReducesTo [0, 1] S_
  bcast_S_S512x200 : S_.BroadcastsInDim S512x200 (![] : Fin 0 → Fin S512x200.rank)
  reducesTo_S512x200_S_d0_1 : S512x200.ReducesTo [0, 1] S_

variable [Facts]

def fn_part4 {F : FTy → Type} [FloatOps F] (main_arg14 : FVec F S512 .f32) (main_arg15 : FVec F S512x512 .f32) (main_arg16 : FVec F S512x512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  main_v83

def fn_part3 {F : FTy → Type} [FloatOps F] (main_arg11 : FVec F S200x200 .f32) (main_arg12 : FVec F S200 .f32) (main_arg13 : FVec F S512x200 .f32) (main_arg14 : FVec F S512 .f32) (main_arg15 : FVec F S512x512 .f32) (main_arg16 : FVec F S512x512 .f32) (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  let main_v54 : FVec F S200x200 .f32 := Host.absf main_arg11
  let main_cst_20 : FVec F S_ .f32 := constant S_ .f32 0x7F800000#32
  let main_v55 : FVec F S200x200 .f32 := broadcastInDim S200x200 ![] bcast_S_S200x200 main_cst_20
  let main_v56 : IVec S200x200 1 := cmpf .olt main_v54 main_v55
  let main_c_21 : IVec S_ 1 := constantI S_ 1 1#1
  let main_v57 : IVec S_ 1 := (fun x v => Host.reduce IntOp.andi x v reducesTo_S200x200_S_d0_1 h_S_) main_v56 main_c_21
  let main_v58 : IVec S_ 1 := andi main_v53 main_v57
  let main_v59 : FVec F S200 .f32 := Host.absf main_arg12
  let main_cst_22 : FVec F S_ .f32 := constant S_ .f32 0x7F800000#32
  let main_v60 : FVec F S200 .f32 := broadcastInDim S200 ![] bcast_S_S200 main_cst_22
  let main_v61 : IVec S200 1 := cmpf .olt main_v59 main_v60
  let main_c_23 : IVec S_ 1 := constantI S_ 1 1#1
  let main_v62 : IVec S_ 1 := (fun x v => Host.reduce IntOp.andi x v reducesTo_S200_S_d0 h_S_) main_v61 main_c_23
  let main_v63 : IVec S_ 1 := andi main_v58 main_v62
  let main_v64 : FVec F S512x200 .f32 := Host.absf main_arg13
  let main_cst_24 : FVec F S_ .f32 := constant S_ .f32 0x7F800000#32
  let main_v65 : FVec F S512x200 .f32 := broadcastInDim S512x200 ![] bcast_S_S512x200 main_cst_24
  let main_v66 : IVec S512x200 1 := cmpf .olt main_v64 main_v65
  let main_c_25 : IVec S_ 1 := constantI S_ 1 1#1
  let main_v67 : IVec S_ 1 := (fun x v => Host.reduce IntOp.andi x v reducesTo_S512x200_S_d0_1 h_S_) main_v66 main_c_25
  fn_part4 (F := F) main_arg14 main_arg15 main_arg16 main_v63 main_v67

def fn_part2 {F : FTy → Type} [FloatOps F] (main_arg7 : FVec F S512x512 .f32) (main_arg8 : FVec F S512 .f32) (main_arg9 : FVec F S200x512 .f32) (main_arg10 : FVec F S200 .f32) (main_arg11 : FVec F S200x200 .f32) (main_arg12 : FVec F S200 .f32) (main_arg13 : FVec F S512x200 .f32) (main_arg14 : FVec F S512 .f32) (main_arg15 : FVec F S512x512 .f32) (main_arg16 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S200x512 .f32 := Host.absf main_arg9
  let main_cst_16 : FVec F S_ .f32 := constant S_ .f32 0x7F800000#32
  let main_v45 : FVec F S200x512 .f32 := broadcastInDim S200x512 ![] bcast_S_S200x512 main_cst_16
  let main_v46 : IVec S200x512 1 := cmpf .olt main_v44 main_v45
  let main_c_17 : IVec S_ 1 := constantI S_ 1 1#1
  let main_v47 : IVec S_ 1 := (fun x v => Host.reduce IntOp.andi x v reducesTo_S200x512_S_d0_1 h_S_) main_v46 main_c_17
  let main_v48 : IVec S_ 1 := andi main_v43 main_v47
  let main_v49 : FVec F S200 .f32 := Host.absf main_arg10
  let main_cst_18 : FVec F S_ .f32 := constant S_ .f32 0x7F800000#32
  let main_v50 : FVec F S200 .f32 := broadcastInDim S200 ![] bcast_S_S200 main_cst_18
  fn_part3 (F := F) main_arg11 main_arg12 main_arg13 main_arg14 main_arg15 main_arg16 main_v48 main_v49 main_v50

def fn_part1 {F : FTy → Type} [FloatOps F] (main_arg4 : FVec F S8x64 .f32) (main_arg5 : FVec F S8x64x512 .f32) (main_arg6 : FVec F S8x64 .f32) (main_arg7 : FVec F S512x512 .f32) (main_arg8 : FVec F S512 .f32) (main_arg9 : FVec F S200x512 .f32) (main_arg10 : FVec F S200 .f32) (main_arg11 : FVec F S200x200 .f32) (main_arg12 : FVec F S200 .f32) (main_arg13 : FVec F S512x200 .f32) (main_arg14 : FVec F S512 .f32) (main_arg15 : FVec F S512x512 .f32) (main_arg16 : FVec F S512x512 .f32) (main_v13 : IVec S_ 1) (main_v16 : IVec S8x64x512 1) : IVec S_ 1 :=
  let main_c_5 : IVec S_ 1 := constantI S_ 1 1#1
  let main_v17 : IVec S_ 1 := (fun x v => Host.reduce IntOp.andi x v reducesTo_S8x64x512_S_d0_1_2 h_S_) main_v16 main_c_5
  let main_v18 : IVec S_ 1 := andi main_v13 main_v17
  let main_v19 : FVec F S8x64 .f32 := Host.absf main_arg4
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S8x64x512 .f32 := Host.absf main_arg5
  let main_cst_8 : FVec F S_ .f32 := constant S_ .f32 0x7F800000#32
  let main_v25 : FVec F S8x64x512 .f32 := broadcastInDim S8x64x512 ![] bcast_S_S8x64x512 main_cst_8
  let main_v26 : IVec S8x64x512 1 := cmpf .olt main_v24 main_v25
  let main_c_9 : IVec S_ 1 := constantI S_ 1 1#1
  let main_v27 : IVec S_ 1 := (fun x v => Host.reduce IntOp.andi x v reducesTo_S8x64x512_S_d0_1_2 h_S_) main_v26 main_c_9
  let main_v28 : IVec S_ 1 := andi main_v23 main_v27
  let main_v29 : FVec F S8x64 .f32 := Host.absf main_arg6
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S32x512x512 .f32) (main_arg1 : FVec F S8x64x512 .f32) (main_arg2 : FVec F S8x64 .f32) (main_arg3 : FVec F S8x64x512 .f32) (main_arg4 : FVec F S8x64 .f32) (main_arg5 : FVec F S8x64x512 .f32) (main_arg6 : FVec F S8x64 .f32) (main_arg7 : FVec F S512x512 .f32) (main_arg8 : FVec F S512 .f32) (main_arg9 : FVec F S200x512 .f32) (main_arg10 : FVec F S200 .f32) (main_arg11 : FVec F S200x200 .f32) (main_arg12 : FVec F S200 .f32) (main_arg13 : FVec F S512x200 .f32) (main_arg14 : FVec F S512 .f32) (main_arg15 : FVec F S512x512 .f32) (main_arg16 : FVec F S512x512 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S8x64x512 .f32 := Host.absf main_arg3
  let main_cst_4 : FVec F S_ .f32 := constant S_ .f32 0x7F800000#32
  let main_v15 : FVec F S8x64x512 .f32 := broadcastInDim S8x64x512 ![] bcast_S_S8x64x512 main_cst_4
  let main_v16 : IVec S8x64x512 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S32x512x512 : Shape := ⟨3, ![32, 512, 512]⟩
abbrev S8x64x512 : Shape := ⟨3, ![8, 64, 512]⟩
abbrev S8x64 : Shape := ⟨2, ![8, 64]⟩
abbrev S512x512 : Shape := ⟨2, ![512, 512]⟩
abbrev S512 : Shape := ⟨1, ![512]⟩
abbrev S200x512 : Shape := ⟨2, ![200, 512]⟩
abbrev S200 : Shape := ⟨1, ![200]⟩
abbrev S200x200 : Shape := ⟨2, ![200, 200]⟩
abbrev S512x200 : Shape := ⟨2, ![512, 200]⟩
abbrev S_ : Shape := ⟨0, ![]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S1x512x512 : Shape := ⟨3, ![1, 512, 512]⟩
abbrev S1x512 : Shape := ⟨2, ![1, 512]⟩
abbrev S512x64 : Shape := ⟨2, ![512, 64]⟩
abbrev S512x1 : Shape := ⟨2, ![512, 1]⟩
abbrev S1 : Shape := ⟨1, ![1]⟩
abbrev S1x1 : Shape := ⟨2, ![1, 1]⟩
abbrev S1x256 : Shape := ⟨2, ![1, 256]⟩

abbrev nBuf : Space → Nat
  | .hbm => 46
  | .vmem => 20
  | .smem => 0
  | _ => 0

abbrev bufTy : (tb : Table) → Fin (tcTables nBuf tb) → BufTy
  | .hbm, ⟨0, _⟩ => ⟨S32x512x512, .f32⟩
  | .hbm, ⟨1, _⟩ => ⟨S8x64x512, .f32⟩
  | .hbm, ⟨2, _⟩ => ⟨S8x64, .f32⟩
  | .hbm, ⟨3, _⟩ => ⟨S8x64x512, .f32⟩
  | .hbm, ⟨4, _⟩ => ⟨S8x64, .f32⟩
  | .hbm, ⟨5, _⟩ => ⟨S8x64x512, .f32⟩
  | .hbm, ⟨6, _⟩ => ⟨S8x64, .f32⟩
  | .hbm, ⟨7, _⟩ => ⟨S512x512, .f32⟩
  | .hbm, ⟨8, _⟩ => ⟨S512, .f32⟩
  | .hbm, ⟨9, _⟩ => ⟨S200x512, .f32⟩
  | .hbm, ⟨10, _⟩ => ⟨S200, .f32⟩
  | .hbm, ⟨11, _⟩ => ⟨S200x200, .f32⟩
  | .hbm, ⟨12, _⟩ => ⟨S200, .f32⟩
  | .hbm, ⟨13, _⟩ => ⟨S512x200, .f32⟩
  | .hbm, ⟨14, _⟩ => ⟨S512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S512x512, .f32⟩
  | .hbm, ⟨27, _⟩ => ⟨S_, .i32⟩
  | .hbm, ⟨28, _⟩ => ⟨S_, .f32⟩
  | .hbm, ⟨29, _⟩ => ⟨S256x512, .f32⟩
  | .hbm, ⟨30, _⟩ => ⟨S_, .i32⟩
  | .hbm, ⟨31, _⟩ => ⟨S_, .f32⟩
  | .hbm, ⟨32, _⟩ => ⟨S256, .f32⟩
  | .hbm, ⟨33, _⟩ => ⟨S_, .i32⟩
  | .hbm, ⟨34, _⟩ => ⟨S_, .f32⟩
  | .hbm, ⟨35, _⟩ => ⟨S256x256, .f32⟩
  | .hbm, ⟨36, _⟩ => ⟨S_, .i32⟩
  | .hbm, ⟨37, _⟩ => ⟨S_, .f32⟩
  | .hbm, ⟨38, _⟩ => ⟨S256, .f32⟩
  | .hbm, ⟨39, _⟩ => ⟨S_, .i32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S256x256, .f32⟩
  | .hbm, ⟨44, _⟩ => ⟨S256x512, .f32⟩
  | .hbm, ⟨45, _⟩ => ⟨S32x512x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S512x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x512, .f32⟩
  | .local _ .vmem, ⟨15, _⟩ => ⟨S512, .f32⟩
  | .local _ .vmem, ⟨16, _⟩ => ⟨S512x512, .f32⟩
  | .local _ .vmem, ⟨17, _⟩ => ⟨S512x512, .f32⟩
  | .local _ .vmem, ⟨18, _⟩ => ⟨S1x512x512, .f32⟩
  | .local _ .vmem, ⟨19, _⟩ => ⟨S1x512x512, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_call0_v0 : Ref sig .tc := ⟨.hbm, 28, rfl⟩
abbrev main_v10 : Ref sig .tc := ⟨.hbm, 29, rfl⟩
abbrev main_c_0 : Ref sig .tc := ⟨.hbm, 30, rfl⟩
abbrev main_call1_v0 : Ref sig .tc := ⟨.hbm, 31, rfl⟩
abbrev main_v11 : Ref sig .tc := ⟨.hbm, 32, rfl⟩
abbrev main_c_1 : Ref sig .tc := ⟨.hbm, 33, rfl⟩
abbrev main_call2_v0 : Ref sig .tc := ⟨.hbm, 34, rfl⟩
abbrev main_v12 : Ref sig .tc := ⟨.hbm, 35, rfl⟩
abbrev main_c_2 : Ref sig .tc := ⟨.hbm, 36, rfl⟩
abbrev main_call3_v0 : Ref sig .tc := ⟨.hbm, 37, rfl⟩
abbrev main_v13 : Ref sig .tc := ⟨.hbm, 38, rfl⟩
abbrev main_c_3 : Ref sig .tc := ⟨.hbm, 39, rfl⟩
abbrev main_call4_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S8x64x512_S512x512 : S8x64x512.ShapeCasts S512x512
  transposes_S512x512_S512x512_1_0 : S512x512.Transposes [1, 0] S512x512
  shapeCasts_S8x64_S512 : S8x64.ShapeCasts S512
  pads_S200x512_S256x512_0560_000 : S200x512.Pads (![0, 0] : Fin 2 → Nat) ![56, 0] ![0, 0] S256x512
  h_S_ : 0 < S_.numel
  pads_S200_S256_0560 : S200.Pads (![0] : Fin 1 → Nat) ![56] ![0] S256
  pads_S200x200_S256x256_0560_0560 : S200x200.Pads (![0, 0] : Fin 2 → Nat) ![56, 56] ![0, 0] S256x256
  pads_S512x200_S512x256_000_0560 : S512x200.Pads (![0, 0] : Fin 2 → Nat) ![0, 56] ![0, 0] S512x256
  transposes_S256x512_S512x256_1_0 : S256x512.Transposes [1, 0] S512x256
  transposes_S256x256_S256x256_1_0 : S256x256.Transposes [1, 0] S256x256
  transposes_S512x256_S256x512_1_0 : S512x256.Transposes [1, 0] S256x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S512x512 : S1x512.Broadcasts S512x512
  slices_S512x512_o0_0_S512x64 : S512x512.Slices ![0, 0] S512x64
  reduces_S512x512_S512 : S512x512.Reduces [1] S512
  shapeCasts_S512_S512x1 : S512.ShapeCasts S512x1
  broadcasts_S512x1_S512x512 : S512x1.Broadcasts S512x512
  slices_S512x512_o0_64_S512x64 : S512x512.Slices ![0, 64] S512x64
  slices_S512x512_o0_128_S512x64 : S512x512.Slices ![0, 128] S512x64
  slices_S512x512_o0_192_S512x64 : S512x512.Slices ![0, 192] S512x64
  slices_S512x512_o0_256_S512x64 : S512x512.Slices ![0, 256] S512x64
  slices_S512x512_o0_320_S512x64 : S512x512.Slices ![0, 320] S512x64
  slices_S512x512_o0_384_S512x64 : S512x512.Slices ![0, 384] S512x64
  slices_S512x512_o0_448_S512x64 : S512x512.Slices ![0, 448] S512x64
  concatenates_S512x64_S512x64_S512x64_S512x64_S512x64_S512x64_S512x64_S512x64_S512x512_d1 : Shape.Concatenates [S512x64, S512x64, S512x64, S512x64, S512x64, S512x64, S512x64, S512x64] S512x512 1
  reduces_S512x1_S1 : S512x1.Reduces [0] S1
  shapeCasts_S1_S1x1 : S1.ShapeCasts S1x1
  broadcasts_S1x1_S512x512 : S1x1.Broadcasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S512x512_S1x512x512 : S512x512.ShapeCasts S1x512x512
  dot_S512x512_S512x512_S512x512_1_0_0_1_n_n_wf : DotDims.WF S512x512 S512x512 S512x512 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .f32 = 32 ∨ (Rect.block (s := S512x256) S512x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x512.size a ≤ S256x512.size a
  hwx0_13 : ∀ i : grid0.Coords, EltTy.bits .f32 = 32 ∨ (Rect.block (s := S256x512) S256x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S512x512.size a
  hwx0_15 : ∀ i : grid0.Coords, EltTy.bits .f32 = 32 ∨ (Rect.block (s := S512x512) S512x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .f32 = 32 ∨ (Rect.block (s := S512x512) S512x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x512x512.size a ≤ S32x512x512.size a
  hwx0_17 : ∀ i : grid0.Coords, EltTy.bits .f32 = 32 ∨ (Rect.block (s := S32x512x512) S1x512x512.size (cc0_transform_17 i) (hinb0_17 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S512x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S256x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S512x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v18) S1x512x512.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S8x64x512 : Shape := ⟨3, ![8, 64, 512]⟩
abbrev S8x64 : Shape := ⟨2, ![8, 64]⟩
abbrev S512x512 : Shape := ⟨2, ![512, 512]⟩
abbrev S512 : Shape := ⟨1, ![512]⟩
abbrev S200x512 : Shape := ⟨2, ![200, 512]⟩
abbrev S200 : Shape := ⟨1, ![200]⟩
abbrev S200x200 : Shape := ⟨2, ![200, 200]⟩
abbrev S512x200 : Shape := ⟨2, ![512, 200]⟩
abbrev S8x64x32x512 : Shape := ⟨4, ![8, 64, 32, 512]⟩
abbrev S32x8x512x64 : Shape := ⟨4, ![32, 8, 512, 64]⟩
abbrev S1x8x1x64 : Shape := ⟨4, ![1, 8, 1, 64]⟩
abbrev S32x8x512x512 : Shape := ⟨4, ![32, 8, 512, 512]⟩
abbrev S_ : Shape := ⟨0, ![]⟩
abbrev S32x8x512 : Shape := ⟨3, ![32, 8, 512]⟩
abbrev S32x8x512x1 : Shape := ⟨4, ![32, 8, 512, 1]⟩
abbrev S32x512x8x64 : Shape := ⟨4, ![32, 512, 8, 64]⟩
abbrev S1x1x512 : Shape := ⟨3, ![1, 1, 512]⟩
abbrev S32 : Shape := ⟨1, ![32]⟩
abbrev S32x1x1 : Shape := ⟨3, ![32, 1, 1]⟩
abbrev S1x512x512 : Shape := ⟨3, ![1, 512, 512]⟩
abbrev S32x512x200 : Shape := ⟨3, ![32, 512, 200]⟩
abbrev S1x1x200 : Shape := ⟨3, ![1, 1, 200]⟩

abbrev nBuf : Space → Nat
  | .hbm => 165
  | .vmem => 0
  | .smem => 0
  | _ => 0

abbrev hbmTy0_0 (i : Nat) : BufTy := match i % 128 with
  | 0 => ⟨S32x512x512, .f32⟩
  | 1 => ⟨S8x64x512, .f32⟩
  | 2 => ⟨S8x64, .f32⟩
  | 3 => ⟨S8x64x512, .f32⟩
  | 4 => ⟨S8x64, .f32⟩
  | 5 => ⟨S8x64x512, .f32⟩
  | 6 => ⟨S8x64, .f32⟩
  | 7 => ⟨S512x512, .f32⟩
  | 8 => ⟨S512, .f32⟩
  | 9 => ⟨S200x512, .f32⟩
  | 10 => ⟨S200, .f32⟩
  | 11 => ⟨S200x200, .f32⟩
  | 12 => ⟨S200, .f32⟩
  | 13 => ⟨S512x200, .f32⟩
  | 14 => ⟨S512, .f32⟩
  | 15 => ⟨S512x512, .f32⟩
  | 16 => ⟨S512x512, .f32⟩
  | 17 => ⟨S8x64x32x512, .f32⟩
  | 18 => ⟨S32x8x512x64, .f32⟩
  | 19 => ⟨S1x8x1x64, .f32⟩
  | 20 => ⟨S32x8x512x64, .f32⟩
  | 21 => ⟨S32x8x512x64, .f32⟩
  | 22 => ⟨S8x64x32x512, .f32⟩
  | 23 => ⟨S32x8x512x64, .f32⟩
  | 24 => ⟨S1x8x1x64, .f32⟩
  | 25 => ⟨S32x8x512x64, .f32⟩
  | 26 => ⟨S32x8x512x64, .f32⟩
  | 27 => ⟨S8x64x32x512, .f32⟩
  | 28 => ⟨S32x8x512x64, .f32⟩
  | 29 => ⟨S1x8x1x64, .f32⟩
  | 30 => ⟨S32x8x512x64, .f32⟩
  | 31 => ⟨S32x8x512x64, .f32⟩
  | 32 => ⟨S32x8x512x512, .f32⟩
  | 33 => ⟨S_, .f32⟩
  | 34 => ⟨S_, .f32⟩
  | 35 => ⟨S32x8x512x512, .f32⟩
  | 36 => ⟨S32x8x512x512, .f32⟩
  | 37 => ⟨S_, .f32⟩
  | 38 => ⟨S32x8x512, .f32⟩
  | 39 => ⟨S_, .f32⟩
  | 40 => ⟨S32x8x512, .f32⟩
  | 41 => ⟨S32x8x512, .f32⟩
  | 42 => ⟨S32x8x512x1, .f32⟩
  | 43 => ⟨S32x8x512x512, .f32⟩
  | 44 => ⟨S32x8x512x512, .f32⟩
  | 45 => ⟨S32x8x512x512, .f32⟩
  | 46 => ⟨S_, .f32⟩
  | 47 => ⟨S32x8x512, .f32⟩
  | 48 => ⟨S32x8x512x1, .f32⟩
  | 49 => ⟨S32x8x512x512, .f32⟩
  | 50 => ⟨S32x8x512x512, .f32⟩
  | 51 => ⟨S32x8x512x64, .f32⟩
  | 52 => ⟨S32x512x8x64, .f32⟩
  | 53 => ⟨S32x512x512, .f32⟩
  | 54 => ⟨S32x512x512, .f32⟩
  | 55 => ⟨S1x1x512, .f32⟩
  | 56 => ⟨S32x512x512, .f32⟩
  | 57 => ⟨S32x512x512, .f32⟩
  | 58 => ⟨S32x512x512, .f32⟩
  | 59 => ⟨S_, .f32⟩
  | 60 => ⟨S32, .f32⟩
  | 61 => ⟨S32x1x1, .f32⟩
  | 62 => ⟨S_, .f32⟩
  | 63 => ⟨S32x1x1, .f32⟩
  | 64 => ⟨S32x1x1, .f32⟩
  | 65 => ⟨S32x512x512, .f32⟩
  | 66 => ⟨S32x512x512, .f32⟩
  | 67 => ⟨S32x512x512, .f32⟩
  | 68 => ⟨S_, .f32⟩
  | 69 => ⟨S32, .f32⟩
  | 70 => ⟨S32x1x1, .f32⟩
  | 71 => ⟨S_, .f32⟩
  | 72 => ⟨S32x1x1, .f32⟩
  | 73 => ⟨S32x1x1, .f32⟩
  | 74 => ⟨S32x512x512, .f32⟩
  | 75 => ⟨S32x512x512, .f32⟩
  | 76 => ⟨S_, .f32⟩
  | 77 => ⟨S32x1x1, .f32⟩
  | 78 => ⟨S32x1x1, .f32⟩
  | 79 => ⟨S32x1x1, .f32⟩
  | 80 => ⟨S32x512x512, .f32⟩
  | 81 => ⟨S32x512x512, .f32⟩
  | 82 => ⟨S1x512x512, .f32⟩
  | 83 => ⟨S32x512x512, .f32⟩
  | 84 => ⟨S32x512x512, .f32⟩
  | 85 => ⟨S1x512x512, .f32⟩
  | 86 => ⟨S32x512x512, .f32⟩
  | 87 => ⟨S32x512x512, .f32⟩
  | 88 => ⟨S32x512x200, .f32⟩
  | 89 => ⟨S1x1x200, .f32⟩
  | 90 => ⟨S32x512x200, .f32⟩
  | 91 => ⟨S32x512x200, .f32⟩
  | 92 => ⟨S_, .f32⟩
  | 93 => ⟨S32x512x200, .f32⟩
  | 94 => ⟨S32x512x200, .f32⟩
  | 95 => ⟨S32x512x200, .f32⟩
  | 96 => ⟨S1x1x200, .f32⟩
  | 97 => ⟨S32x512x200, .f32⟩
  | 98 => ⟨S32x512x200, .f32⟩
  | 99 => ⟨S_, .f32⟩
  | 100 => ⟨S32x512x200, .f32⟩
  | 101 => ⟨S32x512x200, .f32⟩
  | 102 => ⟨S32x512x512, .f32⟩
  | 103 => ⟨S1x1x512, .f32⟩
  | 104 => ⟨S32x512x512, .f32⟩
  | 105 => ⟨S32x512x512, .f32⟩
  | 106 => ⟨S32x512x512, .f32⟩
  | 107 => ⟨S_, .f32⟩
  | 108 => ⟨S32, .f32⟩
  | 109 => ⟨S32x1x1, .f32⟩
  | 110 => ⟨S_, .f32⟩
  | 111 => ⟨S32x1x1, .f32⟩
  | 112 => ⟨S32x1x1, .f32⟩
  | 113 => ⟨S32x512x512, .f32⟩
  | 114 => ⟨S32x512x512, .f32⟩
  | 115 => ⟨S32x512x512, .f32⟩
  | 116 => ⟨S_, .f32⟩
  | 117 => ⟨S32, .f32⟩
  | 118 => ⟨S32x1x1, .f32⟩
  | 119 => ⟨S_, .f32⟩
  | 120 => ⟨S32x1x1, .f32⟩
  | 121 => ⟨S32x1x1, .f32⟩
  | 122 => ⟨S32x512x512, .f32⟩
  | 123 => ⟨S32x512x512, .f32⟩
  | 124 => ⟨S_, .f32⟩
  | 125 => ⟨S32x1x1, .f32⟩
  | 126 => ⟨S32x1x1, .f32⟩
  | 127 => ⟨S32x1x1, .f32⟩
  | _ => ⟨S32x512x512, .f32⟩

abbrev hbmTy0_1 (i : Nat) : BufTy := match i % 128 with
  | 0 => ⟨S32x512x512, .f32⟩
  | 1 => ⟨S32x512x512, .f32⟩
  | 2 => ⟨S1x512x512, .f32⟩
  | 3 => ⟨S32x512x512, .f32⟩
  | 4 => ⟨S32x512x512, .f32⟩
  | 5 => ⟨S1x512x512, .f32⟩
  | 6 => ⟨S32x512x512, .f32⟩
  | 7 => ⟨S32x512x512, .f32⟩
  | 8 => ⟨S_, .f32⟩
  | 9 => ⟨S32, .f32⟩
  | 10 => ⟨S32x1x1, .f32⟩
  | 11 => ⟨S_, .f32⟩
  | 12 => ⟨S32x1x1, .f32⟩
  | 13 => ⟨S32x1x1, .f32⟩
  | 14 => ⟨S32x512x512, .f32⟩
  | 15 => ⟨S32x512x512, .f32⟩
  | 16 => ⟨S32x512x512, .f32⟩
  | 17 => ⟨S_, .f32⟩
  | 18 => ⟨S32, .f32⟩
  | 19 => ⟨S32x1x1, .f32⟩
  | 20 => ⟨S_, .f32⟩
  | 21 => ⟨S32x1x1, .f32⟩
  | 22 => ⟨S32x1x1, .f32⟩
  | 23 => ⟨S32x512x512, .f32⟩
  | 24 => ⟨S32x512x512, .f32⟩
  | 25 => ⟨S_, .f32⟩
  | 26 => ⟨S32x1x1, .f32⟩
  | 27 => ⟨S32x1x1, .f32⟩
  | 28 => ⟨S32x1x1, .f32⟩
  | 29 => ⟨S32x512x512, .f32⟩
  | 30 => ⟨S32x512x512, .f32⟩
  | 31 => ⟨S1x512x512, .f32⟩
  | 32 => ⟨S32x512x512, .f32⟩
  | 33 => ⟨S32x512x512, .f32⟩
  | 34 => ⟨S1x512x512, .f32⟩
  | 35 => ⟨S32x512x512, .f32⟩
  | 36 => ⟨S32x512x512, .f32⟩
  | _ => ⟨S32x512x512, .f32⟩

abbrev hbmTy (i : Nat) : BufTy := match i / 128 with
  | 0 => hbmTy0_0 i
  | 1 => hbmTy0_1 i
  | _ => ⟨S32x512x512, .f32⟩

abbrev bufTy : (tb : Table) → Fin (tcTables nBuf tb) → BufTy
  | .hbm, ⟨i, _⟩ => hbmTy i
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call0_cst : Ref sig .tc := ⟨.hbm, 92, rfl⟩
abbrev main_call0_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call1_cst : Ref sig .tc := ⟨.hbm, 99, rfl⟩
abbrev main_call1_v0 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_8 : Ref sig .tc := ⟨.hbm, 107, rfl⟩
abbrev main_v77 : Ref sig .tc := ⟨.hbm, 108, rfl⟩
abbrev main_v78 : Ref sig .tc := ⟨.hbm, 109, rfl⟩
abbrev main_cst_9 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_10 : Ref sig .tc := ⟨.hbm, 116, rfl⟩
abbrev main_v84 : Ref sig .tc := ⟨.hbm, 117, rfl⟩
abbrev main_v85 : Ref sig .tc := ⟨.hbm, 118, rfl⟩
abbrev main_cst_11 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_12 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_13 : Ref sig .tc := ⟨.hbm, 136, rfl⟩
abbrev main_v101 : Ref sig .tc := ⟨.hbm, 137, rfl⟩
abbrev main_v102 : Ref sig .tc := ⟨.hbm, 138, rfl⟩
abbrev main_cst_14 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_15 : Ref sig .tc := ⟨.hbm, 145, rfl⟩
abbrev main_v108 : Ref sig .tc := ⟨.hbm, 146, rfl⟩
abbrev main_v109 : Ref sig .tc := ⟨.hbm, 147, rfl⟩
abbrev main_cst_16 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_17 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩

abbrev nD : Nat := 1
abbrev τ : Topo := Topo.v7x

variable {F : FTy → Type} [FloatOps F]

class Facts₀ : Prop where
  transposes_S8x64x32x512_S32x8x512x64_2_0_3_1 : S8x64x32x512.Transposes [2, 0, 3, 1] S32x8x512x64
  bcast_S8x64_S1x8x1x64_1_3 : S8x64.BroadcastsInDim S1x8x1x64 (![1, 3] : Fin 2 → Fin S1x8x1x64.rank)
  bcast_S1x8x1x64_S32x8x512x64_0_1_2_3 : S1x8x1x64.BroadcastsInDim S32x8x512x64 (![0, 1, 2, 3] : Fin 4 → Fin S32x8x512x64.rank)
  bcast_S_S32x8x512x512 : S_.BroadcastsInDim S32x8x512x512 (![] : Fin 0 → Fin S32x8x512x512.rank)
  reducesTo_S32x8x512x512_S32x8x512_d3 : S32x8x512x512.ReducesTo [3] S32x8x512
  h_S_ : 0 < S_.numel
  bcast_S_S32x8x512 : S_.BroadcastsInDim S32x8x512 (![] : Fin 0 → Fin S32x8x512.rank)
  bcast_S32x8x512_S32x8x512x1_0_1_2 : S32x8x512.BroadcastsInDim S32x8x512x1 (![0, 1, 2] : Fin 3 → Fin S32x8x512x1.rank)
  bcast_S32x8x512x1_S32x8x512x512_0_1_2_3 : S32x8x512x1.BroadcastsInDim S32x8x512x512 (![0, 1, 2, 3] : Fin 4 → Fin S32x8x512x512.rank)
  transposes_S32x8x512x64_S32x512x8x64_0_2_1_3 : S32x8x512x64.Transposes [0, 2, 1, 3] S32x512x8x64
  shapeCasts_S32x512x8x64_S32x512x512 : S32x512x8x64.ShapeCasts S32x512x512
  bcast_S512_S1x1x512_2 : S512.BroadcastsInDim S1x1x512 (![2] : Fin 1 → Fin S1x1x512.rank)
  bcast_S1x1x512_S32x512x512_0_1_2 : S1x1x512.BroadcastsInDim S32x512x512 (![0, 1, 2] : Fin 3 → Fin S32x512x512.rank)
  reducesTo_S32x512x512_S32_d1_2 : S32x512x512.ReducesTo [1, 2] S32
  bcast_S32_S32x1x1_0 : S32.BroadcastsInDim S32x1x1 (![0] : Fin 1 → Fin S32x1x1.rank)
  bcast_S_S32x1x1 : S_.BroadcastsInDim S32x1x1 (![] : Fin 0 → Fin S32x1x1.rank)
  bcast_S32x1x1_S32x512x512_0_1_2 : S32x1x1.BroadcastsInDim S32x512x512 (![0, 1, 2] : Fin 3 → Fin S32x512x512.rank)
  bcast_S512x512_S1x512x512_1_2 : S512x512.BroadcastsInDim S1x512x512 (![1, 2] : Fin 2 → Fin S1x512x512.rank)
  bcast_S1x512x512_S32x512x512_0_1_2 : S1x512x512.BroadcastsInDim S32x512x512 (![0, 1, 2] : Fin 3 → Fin S32x512x512.rank)
  bcast_S200_S1x1x200_2 : S200.BroadcastsInDim S1x1x200 (![2] : Fin 1 → Fin S1x1x200.rank)
  bcast_S1x1x200_S32x512x200_0_1_2 : S1x1x200.BroadcastsInDim S32x512x200 (![0, 1, 2] : Fin 3 → Fin S32x512x200.rank)
  bcast_S_S32x512x200 : S_.BroadcastsInDim S32x512x200 (![] : Fin 0 → Fin S32x512x200.rank)
  dot_S8x64x512_S32x512x512_S8x64x32x512_2_2_01_01_n_n_wf : DotDims.WF S8x64x512 S32x512x512 S8x64x32x512 [2] [2] [0, 1] [0, 1] [] []
  dot_S32x8x512x64_S32x8x512x64_S32x8x512x512_3_3_2_2_01_01_wf : DotDims.WF S32x8x512x64 S32x8x512x64 S32x8x512x512 [3] [3] [2] [2] [0, 1] [0, 1]
  dot_S32x8x512x512_S32x8x512x64_S32x8x512x64_3_2_2_3_01_01_wf : DotDims.WF S32x8x512x512 S32x8x512x64 S32x8x512x64 [3] [2] [2] [3] [0, 1] [0, 1]
  dot_S32x512x512_S512x512_S32x512x512_2_1_01_0_n_n_wf : DotDims.WF S32x512x512 S512x512 S32x512x512 [2] [1] [0, 1] [0] [] []
  dot_S32x512x512_S200x512_S32x512x200_2_1_01_0_n_n_wf : DotDims.WF S32x512x512 S200x512 S32x512x200 [2] [1] [0, 1] [0] [] []
  dot_S32x512x200_S200x200_S32x512x200_2_1_01_0_n_n_wf : DotDims.WF S32x512x200 S200x200 S32x512x200 [2] [1] [0, 1] [0] [] []
  dot_S32x512x200_S512x200_S32x512x512_2_1_01_0_n_n_wf : DotDims.WF S32x512x200 S512x200 S32x512x512 [2] [1] [0, 1] [0] [] []

variable [Facts₀]

def dot_S8x64x512_S32x512x512_S8x64x32x512_2_2_01_01_n_n : DotDims S8x64x512 S32x512x512 S8x64x32x512 where
  lhsContracting := [2]
  rhsContracting := [2]
  lhsNonContracting := [0, 1]
  rhsNonContracting := [0, 1]
  lhsBatch := []
  rhsBatch := []
  wf := dot_S8x64x512_S32x512x512_S8x64x32x512_2_2_01_01_n_n_wf
def dot_S32x8x512x64_S32x8x512x64_S32x8x512x512_3_3_2_2_01_01 : DotDims S32x8x512x64 S32x8x512x64 S32x8x512x512 where
  lhsContracting := [3]
  rhsContracting := [3]
  lhsNonContracting := [2]
  rhsNonContracting := [2]
  lhsBatch := [0, 1]
  rhsBatch := [0, 1]
  wf := dot_S32x8x512x64_S32x8x512x64_S32x8x512x512_3_3_2_2_01_01_wf
def dot_S32x8x512x512_S32x8x512x64_S32x8x512x64_3_2_2_3_01_01 : DotDims S32x8x512x512 S32x8x512x64 S32x8x512x64 where
  lhsContracting := [3]
  rhsContracting := [2]
  lhsNonContracting := [2]
  rhsNonContracting := [3]
  lhsBatch := [0, 1]
  rhsBatch := [0, 1]
  wf := dot_S32x8x512x512_S32x8x512x64_S32x8x512x64_3_2_2_3_01_01_wf
def dot_S32x512x512_S512x512_S32x512x512_2_1_01_0_n_n : DotDims S32x512x512 S512x512 S32x512x512 where
  lhsContracting := [2]
  rhsContracting := [1]
  lhsNonContracting := [0, 1]
  rhsNonContracting := [0]
  lhsBatch := []
  rhsBatch := []
  wf := dot_S32x512x512_S512x512_S32x512x512_2_1_01_0_n_n_wf
def dot_S32x512x512_S200x512_S32x512x200_2_1_01_0_n_n : DotDims S32x512x512 S200x512 S32x512x200 where
  lhsContracting := [2]
  rhsContracting := [1]
  lhsNonContracting := [0, 1]
  rhsNonContracting := [0]
  lhsBatch := []
  rhsBatch := []
  wf := dot_S32x512x512_S200x512_S32x512x200_2_1_01_0_n_n_wf
def dot_S32x512x200_S200x200_S32x512x200_2_1_01_0_n_n : DotDims S32x512x200 S200x200 S32x512x200 where
  lhsContracting := [2]
  rhsContracting := [1]
  lhsNonContracting := [0, 1]
  rhsNonContracting := [0]
  lhsBatch := []
  rhsBatch := []
  wf := dot_S32x512x200_S200x200_S32x512x200_2_1_01_0_n_n_wf
def dot_S32x512x200_S512x200_S32x512x512_2_1_01_0_n_n : DotDims S32x512x200 S512x200 S32x512x512 where
  lhsContracting := [2]
  rhsContracting := [1]
  lhsNonContracting := [0, 1]
  rhsNonContracting := [0]
  lhsBatch := []
  rhsBatch := []
  wf := dot_S32x512x200_S512x200_S32x512x512_2_1_01_0_n_n_wf

class Facts : Prop extends Facts₀ where

variable [Facts]
-- ==== Proof.Spec.lean ====
/-
  One sample of a transformer encoder layer over the extended reals, entry by entry.

  A sample is a 512 × 512 matrix `x` (512 positions, 512 features).  Eight heads each project it to 64 queries,
  keys and values per position; a head's attention weights are the softmax, along the key position, of the scaled
  query–key products; the heads' weighted values, side by side, are projected back, the sample is added, and the sum
  is normalised over ALL of its 512 · 512 entries (one mean, one variance, an elementwise gain and shift).  A
  feed-forward network of widths 512 → 200 → 200 → 512 with a residual follows, normalised twice more.
  Every function here takes and returns entries indexed by plain coordinates.
-/
import Idealize.ShloMosaic.PureOps.Ideal
import Idealize.ShloMosaic.PureOps.Ideal.Laws
import Idealize.ShloMosaic.Lib.ValueIdx

noncomputable section

namespace Cert.Encoder

open Idealize.ShloMosaic Idealize.ShloMosaic.ValueIdx

/-- The attention scale 1/8 = 1/√64, as the binary32 word both programs are compared through. -/
abbrev c8 : EReal := Ideal.ofBits .f32 0x3E000000#32
/-- 2⁻¹⁸ = 1 / (512 · 512): the reciprocal of the number of entries a normalisation averages over. -/
abbrev c18 : EReal := Ideal.ofBits .f32 0x36800000#32
/-- The variance offset of the normalisation. -/
abbrev eps : EReal := Ideal.ofBits .f32 0x3727C5AC#32
/-- −∞, the value a running maximum starts from. -/
abbrev ninf : EReal := Ideal.ofBits .f32 0xFF800000#32

abbrev Mat (a b : ℕ) : Type := Fin a → Fin b → EReal
/-- Per position, per head, per lane. -/
abbrev Heads : Type := Fin 512 → Fin 8 → Fin 64 → EReal

/-- Feature `64 h + k`: lane `k` of head `h` when the heads lie side by side. -/
def hk (h : Fin 8) (k : Fin 64) : Fin 512 := ⟨64 * h.val + k.val, by have := h.isLt; have := k.isLt; omega⟩
/-- The head a feature belongs to, and its lane there. -/
def hd (j : Fin 512) : Fin 8 := ⟨j.val / 64, by have := j.isLt; omega⟩
def ln (j : Fin 512) : Fin 64 := ⟨j.val % 64, Nat.mod_lt _ (by norm_num)⟩

theorem hd_hk (h : Fin 8) (k : Fin 64) : hd (hk h k) = h := by
  apply Fin.ext; show (64 * h.val + k.val) / 64 = h.val; have := k.isLt; omega
theorem ln_hk (h : Fin 8) (k : Fin 64) : ln (hk h k) = k := by
  apply Fin.ext; show (64 * h.val + k.val) % 64 = k.val; have := k.isLt; omega
theorem hk_hd_ln (j : Fin 512) : hk (hd j) (ln j) = j := by
  apply Fin.ext; show 64 * (j.val / 64) + j.val % 64 = j.val; omega

/-- A head's projection of the sample: `x · Wᵀ + b`, one weight row per head and lane. -/
def proj (x : Mat 512 512) (W : Fin 8 → Fin 64 → Fin 512 → EReal) (b : Fin 8 → Fin 64 → EReal) : Heads :=
  fun s h k => (∑ d : Fin 512, x s d * W h k d) + b h k

/-- The scaled product of query position `s` with key position `t` in head `h`. -/
def score (q kk : Heads) : Fin 8 → Fin 512 → Fin 512 → EReal :=
  fun h s t => (∑ k : Fin 64, q s h k * kk t h k) * c8

/-- The largest entry of a row, from −∞. -/
def rowMax (r : Fin 512 → EReal) : EReal := (Finset.univ : Finset (Fin 512)).fold max ninf r

/-- The softmax of a row: exponentials of the entries less the row's maximum, over their sum. -/
def softmax (r : Fin 512 → EReal) : Fin 512 → EReal :=
  fun t => Ideal.div (Ideal.exp (r t - rowMax r)) (∑ u : Fin 512, Ideal.exp (r u - rowMax r))

/-- Each head's values averaged with its attention weights. -/
def mix (sc : Fin 8 → Fin 512 → Fin 512 → EReal) (v : Heads) : Heads :=
  fun s h k => ∑ t : Fin 512, softmax (sc h s) t * v t h k

/-- The heads side by side. -/
def cat (o : Heads) : Mat 512 512 := fun s j => o s (hd j) (ln j)

/-- The output projection with its bias and the residual. -/
def outProj (c Wo : Mat 512 512) (bo : Fin 512 → EReal) (x : Mat 512 512) : Mat 512 512 :=
  fun s e => (∑ j : Fin 512, c s j * Wo e j) + bo e + x s e

/-- The sum of all entries, row by row. -/
def total (y : Mat 512 512) : EReal := ∑ s : Fin 512, ∑ e : Fin 512, y s e

/-- An entry less the mean of all entries. -/
def centred (y : Mat 512 512) : Mat 512 512 := fun s e => y s e - total y * c18

/-- Normalisation over the whole sample, then the elementwise gain and shift. -/
def norm (y g b : Mat 512 512) : Mat 512 512 :=
  fun s e => centred y s e * Ideal.rsqrt (total (fun s e => centred y s e * centred y s e) * c18 + eps) * g s e + b s e

/-- A dense layer `y · Wᵀ + b`. -/
def dense {n m : ℕ} (y : Mat 512 n) (W : Fin m → Fin n → EReal) (b : Fin m → EReal) : Mat 512 m :=
  fun s f => (∑ d : Fin n, y s d * W f d) + b f

def relu {m : ℕ} (z : Mat 512 m) : Mat 512 m := fun s f => max (z s f) 0

/-- The attention half: heads, output projection, residual, normalisation. -/
def attnHalf (x : Mat 512 512) (Wq : Fin 8 → Fin 64 → Fin 512 → EReal) (bq : Fin 8 → Fin 64 → EReal)
    (Wk : Fin 8 → Fin 64 → Fin 512 → EReal) (bk : Fin 8 → Fin 64 → EReal)
    (Wv : Fin 8 → Fin 64 → Fin 512 → EReal) (bv : Fin 8 → Fin 64 → EReal)
    (Wo : Mat 512 512) (bo : Fin 512 → EReal) (g b : Mat 512 512) : Mat 512 512 :=
  norm (outProj (cat (mix (score (proj x Wq bq) (proj x Wk bk)) (proj x Wv bv))) Wo bo x) g b

/-- The feed-forward half on the attention half's result `y`: three dense layers, residual, two normalisations. -/
def ffnHalf (y : Mat 512 512) (W1 : Mat 200 512) (b1 : Fin 200 → EReal) (W2 : Mat 200 200) (b2 : Fin 200 → EReal)
    (W3 : Mat 512 200) (b3 : Fin 512 → EReal) (g b : Mat 512 512) : Mat 512 512 :=
  norm (norm (fun s e => dense (relu (dense (relu (dense y W1 b1)) W2 b2)) W3 b3 s e + y s e) g b) g b

/-! ### Arrays as coordinate functions -/

/-- Sample `b` of a batch of 32. -/
def sample (X : (⟨3, ![32, 512, 512]⟩ : Shape).Idx → EReal) (b : Fin 32) : Mat 512 512 := fun s d => X (ix3 b s d)
/-- A rank-3 array by its three coordinates. -/
def arr3 {a b c : ℕ} (W : (⟨3, ![a, b, c]⟩ : Shape).Idx → EReal) : Fin a → Fin b → Fin c → EReal := fun h k d => W (ix3 h k d)
/-- A matrix by its two coordinates. -/
def arr2 {a b : ℕ} (M : (⟨2, ![a, b]⟩ : Shape).Idx → EReal) : Fin a → Fin b → EReal := fun i j => M (ix2 i j)
/-- A vector by its coordinate. -/
def arr1 {a : ℕ} (v : (⟨1, ![a]⟩ : Shape).Idx → EReal) : Fin a → EReal := fun i => v (ix1 i)

/-- The whole layer on sample `i 0` of the batch, at position `i 1` and feature `i 2`. -/
def layer (X : (⟨3, ![32, 512, 512]⟩ : Shape).Idx → EReal)
    (Wq : (⟨3, ![8, 64, 512]⟩ : Shape).Idx → EReal) (bq : (⟨2, ![8, 64]⟩ : Shape).Idx → EReal)
    (Wk : (⟨3, ![8, 64, 512]⟩ : Shape).Idx → EReal) (bk : (⟨2, ![8, 64]⟩ : Shape).Idx → EReal)
    (Wv : (⟨3, ![8, 64, 512]⟩ : Shape).Idx → EReal) (bv : (⟨2, ![8, 64]⟩ : Shape).Idx → EReal)
    (Wo : (⟨2, ![512, 512]⟩ : Shape).Idx → EReal) (bo : (⟨1, ![512]⟩ : Shape).Idx → EReal)
    (W1 : (⟨2, ![200, 512]⟩ : Shape).Idx → EReal) (b1 : (⟨1, ![200]⟩ : Shape).Idx → EReal)
    (W2 : (⟨2, ![200, 200]⟩ : Shape).Idx → EReal) (b2 : (⟨1, ![200]⟩ : Shape).Idx → EReal)
    (W3 : (⟨2, ![512, 200]⟩ : Shape).Idx → EReal) (b3 : (⟨1, ![512]⟩ : Shape).Idx → EReal)
    (g b : (⟨2, ![512, 512]⟩ : Shape).Idx → EReal) : (⟨3, ![32, 512, 512]⟩ : Shape).Idx → EReal :=
  fun i => ffnHalf (attnHalf (sample X (i 0)) (arr3 Wq) (arr2 bq) (arr3 Wk) (arr2 bk) (arr3 Wv) (arr2 bv) (arr2 Wo) (arr1 bo)
      (arr2 g) (arr2 b)) (arr2 W1) (arr1 b1) (arr2 W2) (arr1 b2) (arr2 W3) (arr1 b3) (arr2 g) (arr2 b) (i 1) (i 2)

end Cert.Encoder

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibColumnSum.lean ====
/-
  The sum of each COLUMN of a rank-2 vector over the extended reals: reducing an [a, b] vector along axis 0 leaves a
  length-`b` vector whose entry `l` is the sum of the `a` entries of column `l`.
-/
import Idealize.ShloMosaic.Lib.ValueIdx
import Idealize.ShloMosaic.PureOps.Ideal.Laws

noncomputable section

namespace Cert.LibColumnSum

open Idealize.ShloMosaic Idealize.ShloMosaic.ValueIdx

variable {a b : ℕ} {φ : FTy}

/-- The reduced index `l` of a column reduction with the row `k` put back is `(k, l)`. -/
theorem lift_col (h : (⟨2, ![a, b]⟩ : Shape).Reduces [0] ⟨1, ![b]⟩) (l : Fin b) (k : Fin a) :
    h.lift (ix1 l) k = ix2 k l := by
  funext c; apply Fin.ext
  fin_cases c <;> rfl

/-- A column sum at column `l` is the sum of that column's entries. -/
theorem colsum_apply (src : FVec Ideal ⟨2, ![a, b]⟩ φ) (acc : BitVec φ.bits)
    (h : (⟨2, ![a, b]⟩ : Shape).Reduces [0] ⟨1, ![b]⟩)
    (hφ : FKind.Formats φ) (hacc : acc = FKind.add.neutral φ hφ) (l : Fin b) :
    multiReduction .add [0] ⟨1, ![b]⟩ src acc h hφ hacc (ix1 l) = ∑ k : Fin a, src (ix2 k l) :=
  (Ideal.multiReduction_add_single src acc h hφ hacc (ix1 l)).trans
    (Finset.sum_congr rfl fun k _ => congrArg src (lift_col h l k))

end Cert.LibColumnSum

end
-- ==== Proof.KNorm.lean ====
/-
  The normalisation over a whole 512 × 512 sample as the kernel body spells it, read entry by entry.

  The body sums each row, casts the row sums to a column, sums the column, and casts the one number to a 1 × 1
  vector: that is the sum of all entries.  The mean is that sum times 2⁻¹⁸; the centred entries' squares are summed
  the same way for the variance; the entry is the centred entry times the reciprocal square root of the variance plus
  the offset, times the gain, plus the shift.
-/
import proofs.«106087_j22016002360042_1_alg».proof.Proof.Gen.KernelIdeal.Skeleton
import proofs.«106087_j22016002360042_1_alg».proof.Proof.Spec
import proofs.«106087_j22016002360042_1_alg».proof.Proof.LibKeepdims
import proofs.«106087_j22016002360042_1_alg».proof.Proof.LibColumnSum

noncomputable section

namespace Cert.KNorm

open Idealize.ShloMosaic Idealize.ShloMosaic.ValueIdx Cert.KernelIdeal Cert.KernelIdeal.Facts₀ Cert.Encoder

/-- The sum of all entries as a 1 × 1 vector: row sums, their column, the column's sum. -/
def totalVec (v : FVec Ideal S512x512 .f32) : FVec Ideal S1x1 .f32 :=
  shapeCast S1x1 (multiReduction .add [0] S1 (shapeCast S512x1 (multiReduction .add [1] S512 v 0x00000000#32 reduces_S512x512_S512 (.inl rfl) rfl) shapeCasts_S512_S512x1) 0x00000000#32 reduces_S512x1_S1 (.inl rfl) rfl) shapeCasts_S1_S1x1

/-- Every entry less the mean. -/
def centredVec (v : FVec Ideal S512x512 .f32) : FVec Ideal S512x512 .f32 :=
  subf v (broadcastTo S512x512 (mulf (totalVec v) (broadcast S1x1 (Scalar.ofBits .f32 0x36800000#32))) broadcasts_S1x1_S512x512)

/-- The reciprocal standard deviation as a 1 × 1 vector, from the row sums (as a column) of the centred entries' squares. -/
def rstdOfRowSq (rowSq : FVec Ideal S512x1 .f32) : FVec Ideal S1x1 .f32 :=
  rsqrt (addf (mulf (shapeCast S1x1 (multiReduction .add [0] S1 rowSq 0x00000000#32 reduces_S512x1_S1 (.inl rfl) rfl) shapeCasts_S1_S1x1)
    (broadcast S1x1 (Scalar.ofBits .f32 0x36800000#32))) (broadcast S1x1 (Scalar.ofBits .f32 0x3727C5AC#32)))

/-- The row sums, as a column, of a vector's squares. -/
def rowSqOf (c : FVec Ideal S512x512 .f32) : FVec Ideal S512x1 .f32 :=
  shapeCast S512x1 (multiReduction .add [1] S512 (mulf c c) 0x00000000#32 reduces_S512x512_S512 (.inl rfl) rfl) shapeCasts_S512_S512x1

/-- Centred entries scaled by the reciprocal standard deviation, times the gain, plus the shift. -/
def scaleShift (c : FVec Ideal S512x512 .f32) (rstd : FVec Ideal S1x1 .f32) (g b : FVec Ideal S512x512 .f32) :
    FVec Ideal S512x512 .f32 :=
  addf (mulf (mulf c (broadcastTo S512x512 rstd broadcasts_S1x1_S512x512)) g) b

/-- The whole normalisation. -/
def normVec (v g b : FVec Ideal S512x512 .f32) : FVec Ideal S512x512 .f32 :=
  scaleShift (centredVec v) (rstdOfRowSq (rowSqOf (centredVec v))) g b

/-- The column sum of a column of row sums, as a 1 × 1 vector, is the sum of the column. -/
theorem colTotal_apply (col : FVec Ideal S512x1 .f32) :
    shapeCast S1x1 (multiReduction .add [0] S1 col 0x00000000#32 reduces_S512x1_S1 (.inl rfl) rfl) shapeCasts_S1_S1x1
        (ix2 (0 : Fin 1) (0 : Fin 1))
      = ∑ s : Fin 512, col (ix2 s (0 : Fin 1)) := by
  rw [Cert.LibKeepdims.shapeCast_col_apply _ shapeCasts_S1_S1x1 (0 : Fin 1)]
  exact Cert.LibColumnSum.colsum_apply col 0x00000000#32 reduces_S512x1_S1 (.inl rfl) rfl (0 : Fin 1)

/-- Row `s` of the column of row sums of squares. -/
theorem rowSqOf_apply (c : FVec Ideal S512x512 .f32) (s : Fin 512) :
    rowSqOf c (ix2 s (0 : Fin 1)) = ∑ e : Fin 512, c (ix2 s e) * c (ix2 s e) := by
  unfold rowSqOf
  rw [Cert.LibKeepdims.shapeCast_col_apply _ shapeCasts_S512_S512x1 s]
  exact Cert.LibKeepdims.rowsum_apply (mulf c c) 0x00000000#32 reduces_S512x512_S512 (.inl rfl) rfl s

/-- The 1 × 1 total is the sum over rows of the sum over columns. -/
theorem totalVec_apply (v : FVec Ideal S512x512 .f32) (y : Mat 512 512) (hv : ∀ s e, v (ix2 s e) = y s e) :
    totalVec v (ix2 (0 : Fin 1) (0 : Fin 1)) = total y := by
  unfold totalVec
  rw [colTotal_apply]
  unfold total
  refine Finset.sum_congr rfl fun s _ => ?_
  rw [Cert.LibKeepdims.shapeCast_col_apply _ shapeCasts_S512_S512x1 s,
    Cert.LibKeepdims.rowsum_apply v 0x00000000#32 reduces_S512x512_S512 (.inl rfl) rfl s]
  exact Finset.sum_congr rfl fun e _ => hv s e

/-- A 1 × 1 vector spread over the sample reads its one entry everywhere. -/
theorem spread_apply (z : FVec Ideal S1x1 .f32) (s e : Fin 512) :
    broadcastTo S512x512 z broadcasts_S1x1_S512x512 (ix2 s e) = z (ix2 (0 : Fin 1) (0 : Fin 1)) :=
  broadcastTo_apply z broadcasts_S1x1_S512x512 (ix2 s e) (ix2 (0 : Fin 1) (0 : Fin 1)) (fun a => by
    match a with
    | ⟨0, _⟩ => rfl
    | ⟨1, _⟩ => rfl)

theorem centredVec_apply (v : FVec Ideal S512x512 .f32) (y : Mat 512 512) (hv : ∀ s e, v (ix2 s e) = y s e)
    (s e : Fin 512) : centredVec v (ix2 s e) = centred y s e := by
  unfold centredVec centred
  rw [subf_apply, spread_apply, mulf_apply, totalVec_apply v y hv, hv s e]
  rfl

theorem rstd_apply (c : FVec Ideal S512x512 .f32) (z : Mat 512 512) (hc : ∀ s e, c (ix2 s e) = z s e) :
    rstdOfRowSq (rowSqOf c) (ix2 (0 : Fin 1) (0 : Fin 1))
      = Ideal.rsqrt (total (fun s e => z s e * z s e) * c18 + eps) := by
  unfold rstdOfRowSq
  show Ideal.rsqrt (shapeCast S1x1 (multiReduction .add [0] S1 (rowSqOf c) 0x00000000#32 reduces_S512x1_S1 (.inl rfl) rfl)
      shapeCasts_S1_S1x1 (ix2 (0 : Fin 1) (0 : Fin 1)) * c18 + eps) = _
  rw [colTotal_apply]
  unfold total
  refine congrArg (fun t => Ideal.rsqrt (t * c18 + eps)) (Finset.sum_congr rfl fun s _ => ?_)
  rw [rowSqOf_apply]
  exact Finset.sum_congr rfl fun e _ => by rw [hc s e]

/-- Entry (s, e) of the normalisation, from what the three operands hold. -/
theorem normVec_apply (v g b : FVec Ideal S512x512 .f32) (y gg bb : Mat 512 512)
    (hv : ∀ s e, v (ix2 s e) = y s e) (hg : ∀ s e, g (ix2 s e) = gg s e) (hb : ∀ s e, b (ix2 s e) = bb s e)
    (s e : Fin 512) : normVec v g b (ix2 s e) = Encoder.norm y gg bb s e := by
  unfold normVec scaleShift Encoder.norm
  rw [addf_apply, mulf_apply, mulf_apply, spread_apply,
    rstd_apply (centredVec v) (centred y) (centredVec_apply v y hv), centredVec_apply v y hv, hg s e, hb s e]

end Cert.KNorm

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.KAttnHead.lean ====
/-
  One attention head of the kernel body, read entry by entry.  A head takes its queries, keys and values (three
  [512, 64] vectors), forms the scaled query–key products [512, 512], takes the softmax of each row (the row's maximum
  and the row's sum are kept as columns and spread back along the row) and multiplies the weights by the values.
-/
import proofs.«106087_j22016002360042_1_alg».proof.Proof.Gen.KernelIdeal.Skeleton
import proofs.«106087_j22016002360042_1_alg».proof.Proof.Spec
import proofs.«106087_j22016002360042_1_alg».proof.Proof.LibKeepdims
import proofs.«106087_j22016002360042_1_alg».proof.Proof.LibRowOps

noncomputable section

namespace Cert.KAttn

open Idealize.ShloMosaic Idealize.ShloMosaic.ValueIdx Cert.KernelIdeal Cert.KernelIdeal.Facts₀ Cert.Encoder

/-- The product of an m×k matrix by the TRANSPOSE of an n×k matrix (contracting axis 1 of both operands) accumulated
    into the zero splat, read at `(r, c)`: the sum over the contracted coordinate of row `r` of the left operand times
    row `c` of the right operand. -/
theorem matmul_tr_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (c : Fin n) :
    matmul (⟨[1], [1], [0], [0], [], [], w⟩ : DotDims _ _ _) prec A B
        (constant (F := Ideal) ⟨2, ![m, n]⟩ .f32 0x00000000#32) (ix2 r c)
      = ∑ i : Fin k, A (ix2 r i) * B (ix2 c i) := by
  show FloatOps.matmul _ prec A B (constant (F := Ideal) ⟨2, ![m, n]⟩ .f32 0x00000000#32) (ix2 r c) = _
  rw [Ideal.matmul_constant_zero_apply,
    ← Equiv.sum_comp (contrEquiv1 (⟨[1], [1], [0], [0], [], [], w⟩ : DotDims _ _ _) k rfl rfl).symm]
  refine Finset.sum_congr rfl fun i _ => ?_
  have c2 := contrEquiv1_symm_val
    (⟨[1], [1], [0], [0], [], [], w⟩ : DotDims ⟨2, ![m, k]⟩ ⟨2, ![n, k]⟩ ⟨2, ![m, n]⟩) k rfl rfl i
  have l2 : (⟨[1], [1], [0], [0], [], [], w⟩ : DotDims ⟨2, ![m, k]⟩ ⟨2, ![n, k]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 r c)
      ((contrEquiv1 _ k rfl rfl).symm i) = ix2 c i := by
    funext ax; apply Fin.ext
    match ax with
    | ⟨0, _⟩ => simp [DotDims.rhsIdx]; rfl
    | ⟨1, _⟩ => simp [DotDims.rhsIdx]; exact c2
  rw [l2, r2]

/-- The maximum of each row, kept as a column and spread back along the row. -/
def keepMax (x : FVec Ideal S512x512 .f32) : FVec Ideal S512x512 .f32 :=
  broadcastTo S512x512
    (shapeCast S512x1 (multiReduction .maximumf [1] S512 x 0xFF800000#32 reduces_S512x512_S512 (.inl rfl) rfl)
      shapeCasts_S512_S512x1) broadcasts_S512x1_S512x512

/-- The sum of each row, kept as a column and spread back along the row. -/
def keepSum (x : FVec Ideal S512x512 .f32) : FVec Ideal S512x512 .f32 :=
  broadcastTo S512x512
    (shapeCast S512x1 (multiReduction .add [1] S512 x 0x00000000#32 reduces_S512x512_S512 (.inl rfl) rfl)
      shapeCasts_S512_S512x1) broadcasts_S512x1_S512x512

theorem keepMax_apply (x : FVec Ideal S512x512 .f32) (s t : Fin 512) :
    keepMax x (ix2 s t) = rowMax (fun u => x (ix2 s u)) := by
  unfold keepMax
  rw [LibKeepdims.broadcastTo_col_apply, LibKeepdims.shapeCast_col_apply]
  exact LibKeepdims.rowmax_apply x 0xFF800000#32 reduces_S512x512_S512 (.inl rfl) rfl s

theorem keepSum_apply (x : FVec Ideal S512x512 .f32) (s t : Fin 512) :
    keepSum x (ix2 s t) = ∑ u : Fin 512, x (ix2 s u) := by
  unfold keepSum
  rw [LibKeepdims.broadcastTo_col_apply, LibKeepdims.shapeCast_col_apply]
  exact LibKeepdims.rowsum_apply x 0x00000000#32 reduces_S512x512_S512 (.inl rfl) rfl s

/-- The scaled products of every query row with every key row. -/
def scoreVec (q k : FVec Ideal S512x64 .f32) : FVec Ideal S512x512 .f32 :=
  mulf (matmul dot_S512x64_S512x64_S512x512_1_1_0_0_n_n none (truncf .bf16 q bitsLt_bf16_f32)
      (truncf .bf16 k bitsLt_bf16_f32) (constant S512x512 .f32 0x00000000#32))
    (broadcast S512x512 (Scalar.ofBits .f32 0x3E000000#32))

theorem scoreVec_apply (q k : FVec Ideal S512x64 .f32) (s t : Fin 512) :
    scoreVec q k (ix2 s t) = (∑ j : Fin 64, q (ix2 s j) * k (ix2 t j)) * c8 := by
  show matmul dot_S512x64_S512x64_S512x512_1_1_0_0_n_n none (truncf .bf16 q bitsLt_bf16_f32)
      (truncf .bf16 k bitsLt_bf16_f32) (constant S512x512 .f32 0x00000000#32) (ix2 s t) * c8 = _
  rw [show matmul dot_S512x64_S512x64_S512x512_1_1_0_0_n_n none (truncf .bf16 q bitsLt_bf16_f32)
      (truncf .bf16 k bitsLt_bf16_f32) (constant S512x512 .f32 0x00000000#32) (ix2 s t)
        = ∑ j : Fin 64, q (ix2 s j) * k (ix2 t j) from
      matmul_tr_zero_apply dot_S512x64_S512x64_S512x512_1_1_0_0_n_n_wf none _ _ s t]

/-- The exponential of a vector, entry by entry. -/
theorem exp_apply {sh : Shape} {φ : FTy} (a : FVec Ideal sh φ) (i : sh.Idx) : exp a i = Ideal.exp (a i) := rfl

/-- The softmax of every row: exponentials of the entries less the row's maximum, over their row sums. -/
def softVec (sc : FVec Ideal S512x512 .f32) : FVec Ideal S512x512 .f32 :=
  divf (exp (subf sc (keepMax sc))) (keepSum (exp (subf sc (keepMax sc))))

theorem softVec_apply (sc : FVec Ideal S512x512 .f32) (s t : Fin 512) :
    softVec sc (ix2 s t) = softmax (fun u => sc (ix2 s u)) t := by
  unfold softVec softmax
  rw [divf_apply, keepSum_apply, exp_apply, subf_apply, keepMax_apply]
  refine congrArg (Ideal.div _) (Finset.sum_congr rfl fun u _ => ?_)
  rw [exp_apply, subf_apply, keepMax_apply]

/-- A head: the softmax weights of its queries against its keys, times its values. -/
def headChain (q k v : FVec Ideal S512x64 .f32) : FVec Ideal S512x64 .f32 :=
  matmul dot_S512x512_S512x64_S512x64_1_0_0_1_n_n none (truncf .bf16 (softVec (scoreVec q k)) bitsLt_bf16_f32)
    (truncf .bf16 v bitsLt_bf16_f32) (constant S512x64 .f32 0x00000000#32)

/-- Entry `(s, l)` of a head whose operands hold `Q`, `K`, `V`: the values' lane `l` averaged over the key positions
    with the softmax weights of query position `s`. -/
theorem headChain_apply (q k v : FVec Ideal S512x64 .f32) (Q K V : Fin 512 → Fin 64 → EReal)
    (hq : ∀ s j, q (ix2 s j) = Q s j) (hk : ∀ s j, k (ix2 s j) = K s j) (hv : ∀ s j, v (ix2 s j) = V s j)
    (s : Fin 512) (l : Fin 64) :
    headChain q k v (ix2 s l)
      = ∑ t : Fin 512, softmax (fun u => (∑ j : Fin 64, Q s j * K u j) * c8) t * V t l := by
  unfold headChain
  rw [show matmul dot_S512x512_S512x64_S512x64_1_0_0_1_n_n none (truncf .bf16 (softVec (scoreVec q k)) bitsLt_bf16_f32)
      (truncf .bf16 v bitsLt_bf16_f32) (constant S512x64 .f32 0x00000000#32) (ix2 s l)
        = ∑ t : Fin 512, softVec (scoreVec q k) (ix2 s t) * v (ix2 t l) from
      Cert.KernelBody.matmul_plain_zero_apply dot_S512x512_S512x64_S512x64_1_0_0_1_n_n_wf none _ _ s l]
  refine Finset.sum_congr rfl fun t _ => ?_
  rw [softVec_apply, hv]
  congr 2
  funext u
  rw [scoreVec_apply]
  simp only [hq, hk]

end Cert.KAttn

end
-- ==== Proof.KAttnProj.lean ====
/-
  The kernel body's three projections and its head slices, read entry by entry.  A projection is the sample block
  (its unit leading axis dropped) times a [512, 512] weight block plus a bias row spread down the rows; a head's
  operand is 64 neighbouring columns of a projection.
-/
import proofs.«106087_j22016002360042_1_alg».proof.Proof.KAttnHead

noncomputable section

namespace Cert.KAttn

open Idealize.ShloMosaic Idealize.ShloMosaic.ValueIdx Cert.KernelIdeal Cert.KernelIdeal.Facts₀ Cert.Encoder
open Cert.KernelIdeal.Gen (k0_pay2 k0_pay3 k0_pay4 k0_pay5 k0_pay6)

/-- The sample block without its unit leading axis: entry `(s, d)` is entry `(0, s, d)` of the block. -/
theorem pay2_apply (x0 : Vec Ideal S1x512x512 .f32) (s d : Fin 512) :
    k0_pay2 x0 (ix2 s d) = x0 (ix3 (0 : Fin 1) s d) := by
  unfold k0_pay2
  exact shapeCast_apply x0 shapeCasts_S1x512x512_S512x512 (ix2 s d) (ix3 (0 : Fin 1) s d) (by
    rw [Shape.rowMajor_val_three, Shape.rowMajor_val_two]
    show (0 * 512 + s.val) * 512 + d.val = s.val * 512 + d.val
    omega)

/-- A projection at `(s, j)`: row `s` of the sample against column `j` of the weight block, plus entry `j` of the bias. -/
theorem pay4_apply (x0 : Vec Ideal S1x512x512 .f32) (w : Vec Ideal S512x512 .f32) (bias : Vec Ideal S512 .f32)
    (s j : Fin 512) :
    k0_pay4 x0 w bias (ix2 s j) = (∑ d : Fin 512, x0 (ix3 (0 : Fin 1) s d) * w (ix2 d j)) + bias (ix1 j) := by
  show addf (matmul dot_S512x512_S512x512_S512x512_1_0_0_1_n_n none (truncf .bf16 (k0_pay2 x0) bitsLt_bf16_f32)
        (truncf .bf16 (shapeCast S512x512 w shapeCasts_S512x512_S512x512) bitsLt_bf16_f32)
        (constant S512x512 .f32 0x00000000#32))
      (broadcastTo S512x512 (shapeCast S1x512 (shapeCast S512 bias shapeCasts_S512_S512) shapeCasts_S512_S1x512)
        broadcasts_S1x512_S512x512) (ix2 s j) = _
  rw [addf_apply, Cert.KernelBody.broadcastTo_row_apply, Cert.KernelBody.shapeCast_row_apply, shapeCast_self,
    shapeCast_self]
  rw [show matmul dot_S512x512_S512x512_S512x512_1_0_0_1_n_n none (truncf .bf16 (k0_pay2 x0) bitsLt_bf16_f32)
        (truncf .bf16 w bitsLt_bf16_f32) (constant S512x512 .f32 0x00000000#32) (ix2 s j)
        = ∑ d : Fin 512, k0_pay2 x0 (ix2 s d) * w (ix2 d j) from
      Cert.KernelBody.matmul_plain_zero_apply dot_S512x512_S512x512_S512x512_1_0_0_1_n_n_wf none _ _ s j]
  simp only [pay2_apply]

/-- The three projections are one term at three weight blocks. -/
theorem pay5_eq (x0 : Vec Ideal S1x512x512 .f32) (w : Vec Ideal S512x512 .f32) (bias : Vec Ideal S512 .f32) :
    k0_pay5 x0 w bias = k0_pay4 x0 w bias := rfl
theorem pay6_eq (x0 : Vec Ideal S1x512x512 .f32) (w : Vec Ideal S512x512 .f32) (bias : Vec Ideal S512 .f32) :
    k0_pay6 x0 w bias = k0_pay4 x0 w bias := rfl

/-- A projection whose weight block holds head `h`'s lane `k` in column `64 h + k`, read at that column. -/
theorem pay4_heads (x0 : Vec Ideal S1x512x512 .f32) (w : Vec Ideal S512x512 .f32) (bias : Vec Ideal S512 .f32)
    (xs : Mat 512 512) (W : Fin 8 → Fin 64 → Fin 512 → EReal) (bb : Fin 8 → Fin 64 → EReal)
    (h0 : ∀ (s d : Fin 512), x0 (ix3 (0 : Fin 1) s d) = xs s d)
    (hw : ∀ (h : Fin 8) (k : Fin 64) (d : Fin 512), w (ix2 d (hk h k)) = W h k d)
    (hb : ∀ (h : Fin 8) (k : Fin 64), bias (ix1 (hk h k)) = bb h k)
    (s : Fin 512) (h : Fin 8) (k : Fin 64) :
    k0_pay4 x0 w bias (ix2 s (hk h k)) = proj xs W bb s h k := by
  rw [pay4_apply, hb]
  simp only [h0, hw]
  rfl

/-- 64 neighbouring columns of a [512, 512] vector: entry `(s, k)` of the slice at column offset `off` is entry
    `(s, off + k)`. -/
theorem slice_apply (off : Nat) (X : FVec Ideal S512x512 .f32) (hs : S512x512.Slices ![0, off] S512x64)
    (s : Fin 512) (k : Fin 64) (j : Fin 512) (hj : j.val = off + k.val) :
    extractStridedSlice S512x64 ![0, off] X hs (ix2 s k) = X (ix2 s j) :=
  extractStridedSlice_apply ![0, off] X hs (ix2 s k) (ix2 s j) (fun a => by
    match a with
    | ⟨0, _⟩ => show s.val = 0 + s.val; omega
    | ⟨1, _⟩ => exact hj)

/-- Head `h` of the layer, computed from the three projections' columns `64 h … 64 h + 63`. -/
theorem head_apply (Qv Kv Vv : FVec Ideal S512x512 .f32) (Q K V : Heads)
    (hQ : ∀ (s : Fin 512) (h : Fin 8) (k : Fin 64), Qv (ix2 s (hk h k)) = Q s h k)
    (hK : ∀ (s : Fin 512) (h : Fin 8) (k : Fin 64), Kv (ix2 s (hk h k)) = K s h k)
    (hV : ∀ (s : Fin 512) (h : Fin 8) (k : Fin 64), Vv (ix2 s (hk h k)) = V s h k)
    (h : Fin 8) (off : Nat) (hoff : off = 64 * h.val) (hs : S512x512.Slices ![0, off] S512x64)
    (s : Fin 512) (l : Fin 64) :
    headChain (extractStridedSlice S512x64 ![0, off] Qv hs) (extractStridedSlice S512x64 ![0, off] Kv hs)
        (extractStridedSlice S512x64 ![0, off] Vv hs) (ix2 s l) = mix (score Q K) V s h l := by
  have hj : ∀ k : Fin 64, (hk h k).val = off + k.val := fun k => by rw [hoff]; rfl
  rw [headChain_apply _ _ _ (fun s j => Q s h j) (fun s j => K s h j) (fun s j => V s h j)
    (fun s j => (slice_apply off Qv hs s j (hk h j) (hj j)).trans (hQ s h j))
    (fun s j => (slice_apply off Kv hs s j (hk h j) (hj j)).trans (hK s h j))
    (fun s j => (slice_apply off Vv hs s j (hk h j) (hj j)).trans (hV s h j)) s l]
  rfl

end Cert.KAttn

end
-- ==== Proof.KAttnPieces.lean ====
/-
  The kernel body's eight heads are one chain of operations at eight column offsets of the three projections, and
  what follows them is the output projection with its bias and the residual, then the normalisation.  Each equation
  here holds by unfolding: the two sides are the same operations applied to the same operands.
-/
import proofs.«106087_j22016002360042_1_alg».proof.Proof.KAttnProj
import proofs.«106087_j22016002360042_1_alg».proof.Proof.KNorm

noncomputable section

namespace Cert.KAttn

open Idealize.ShloMosaic Idealize.ShloMosaic.ValueIdx Cert.KernelIdeal Cert.KernelIdeal.Facts₀ Cert.Encoder
open Cert.KernelIdeal.Gen (k0_pay2 k0_pay4 k0_pay5 k0_pay6 k0_pay7 k0_pay8 k0_pay9 k0_pay10 k0_pay11 k0_pay12 k0_pay13
  k0_pay14 k0_pay15 k0_pay16 k0_pay17 k0_pay18 k0_pay19 k0_pay20 k0_pay21 k0_pay22 k0_pay23 k0_pay24)

/-- The head that reads columns `off … off + 63` of the three projections. -/
def headAt (off : Nat) (hs : S512x512.Slices ![0, off] S512x64) (Qv Kv Vv : FVec Ideal S512x512 .f32) :
    FVec Ideal S512x64 .f32 :=
  headChain (extractStridedSlice S512x64 ![0, off] Qv hs) (extractStridedSlice S512x64 ![0, off] Kv hs)
    (extractStridedSlice S512x64 ![0, off] Vv hs)

/-- Head `h` of the layer, from the projections' columns `64 h … 64 h + 63`. -/
theorem headAt_apply (Qv Kv Vv : FVec Ideal S512x512 .f32) (Q K V : Heads)
    (hQ : ∀ (s : Fin 512) (h : Fin 8) (k : Fin 64), Qv (ix2 s (hk h k)) = Q s h k)
    (hK : ∀ (s : Fin 512) (h : Fin 8) (k : Fin 64), Kv (ix2 s (hk h k)) = K s h k)
    (hV : ∀ (s : Fin 512) (h : Fin 8) (k : Fin 64), Vv (ix2 s (hk h k)) = V s h k)
    (h : Fin 8) (off : Nat) (hoff : off = 64 * h.val) (hs : S512x512.Slices ![0, off] S512x64)
    (s : Fin 512) (l : Fin 64) :
    headAt off hs Qv Kv Vv (ix2 s l) = mix (score Q K) V s h l :=
  head_apply Qv Kv Vv Q K V hQ hK hV h off hoff hs s l

section Pieces
variable (x0 : Vec Ideal S1x512x512 .f32) (x1 x3 x5 : Vec Ideal S512x512 .f32) (x2 x4 x6 : Vec Ideal S512 .f32)
  (Qv Kv Vv : FVec Ideal S512x512 .f32)

theorem piece0_eq :
    k0_pay10 (k0_pay7 x0 x5 x6) (k0_pay8 x0 x1 x2 x3 x4) (k0_pay9 x0 x1 x2 x3 x4)
      = headAt 0 slices_S512x512_o0_0_S512x64 (k0_pay4 x0 x1 x2) (k0_pay5 x0 x3 x4) (k0_pay6 x0 x5 x6) := rfl
theorem piece1_eq : k0_pay11 Qv Kv Vv = headAt 64 slices_S512x512_o0_64_S512x64 Qv Kv Vv := rfl
theorem piece2_eq :
    k0_pay14 (k0_pay12 Vv) (k0_pay13 Qv Kv) (constant S512x64 .f32 0x00000000#32)
      = headAt 128 slices_S512x512_o0_128_S512x64 Qv Kv Vv := rfl
theorem piece3_eq : k0_pay15 Qv Kv Vv = headAt 192 slices_S512x512_o0_192_S512x64 Qv Kv Vv := rfl
theorem piece4_eq : k0_pay16 Qv Kv Vv = headAt 256 slices_S512x512_o0_256_S512x64 Qv Kv Vv := rfl
theorem piece5_eq :
    k0_pay19 (k0_pay17 Vv) (k0_pay18 Qv Kv) (Scalar.ofBits .f32 0x3E000000#32)
      = headAt 320 slices_S512x512_o0_320_S512x64 Qv Kv Vv := rfl
theorem piece6_eq : k0_pay20 Qv Kv Vv = headAt 384 slices_S512x512_o0_384_S512x64 Qv Kv Vv := rfl

end Pieces

/-- The eight heads side by side, through the output projection, plus its bias row and the residual. -/
def outVec (v1 : FVec Ideal S512x512 .f32) (p0 p1 p2 p3 p4 p5 p6 p7 : FVec Ideal S512x64 .f32)
    (x7 : Vec Ideal S512x512 .f32) (x8 : Vec Ideal S512 .f32) : FVec Ideal S512x512 .f32 :=
  addf (addf (matmul dot_S512x512_S512x512_S512x512_1_0_0_1_n_n none
      (truncf .bf16 (concatenate S512x512 1 [⟨S512x64, p0⟩, ⟨S512x64, p1⟩, ⟨S512x64, p2⟩, ⟨S512x64, p3⟩,
          ⟨S512x64, p4⟩, ⟨S512x64, p5⟩, ⟨S512x64, p6⟩, ⟨S512x64, p7⟩]
        concatenates_S512x64_S512x64_S512x64_S512x64_S512x64_S512x64_S512x64_S512x64_S512x512_d1) bitsLt_bf16_f32)
      (truncf .bf16 (shapeCast S512x512 x7 shapeCasts_S512x512_S512x512) bitsLt_bf16_f32)
      (constant S512x512 .f32 0x00000000#32))
    (broadcastTo S512x512 (shapeCast S1x512 x8 shapeCasts_S512_S1x512) broadcasts_S1x512_S512x512)) v1

/-- The body's last attention value: the last head is finished, the heads are joined and projected, and the sum is
    normalised. -/
theorem pay24_eq (v1 : FVec Ideal S512x512 .f32) (p0 p1 p2 p3 p4 p5 p6 : FVec Ideal S512x64 .f32)
    (Qv Kv Vv : FVec Ideal S512x512 .f32) (x7 : Vec Ideal S512x512 .f32) (x8 : Vec Ideal S512 .f32)
    (x15 x16 : Vec Ideal S512x512 .f32) :
    k0_pay24 v1 p0 p1 p2 p3 p4 p5 p6 (k0_pay21 Vv) (k0_pay22 Qv Kv) (k0_pay23 Qv Kv) x7 x8 x15 x16
      = Cert.KNorm.normVec (outVec v1 p0 p1 p2 p3 p4 p5 p6 (headAt 448 slices_S512x512_o0_448_S512x64 Qv Kv Vv) x7 x8) x15 x16 := rfl

end Cert.KAttn

end
-- ==== Proof.KAttnOut.lean ====
/-
  The eight heads' outputs side by side, and the output projection with its bias and the residual, read entry by
  entry: column `j` of the joined heads is lane `j mod 64` of head `j / 64`.
-/
import proofs.«106087_j22016002360042_1_alg».proof.Proof.KAttnPieces

noncomputable section

namespace Cert.KAttn

open Idealize.ShloMosaic Idealize.ShloMosaic.ValueIdx Cert.KernelIdeal Cert.KernelIdeal.Facts₀ Cert.Encoder

/-- Eight [512, 64] vectors joined along the columns, read at `(s, j)`: piece `j / 64` at `(s, j mod 64)`. -/
theorem concat8_apply (p0 p1 p2 p3 p4 p5 p6 p7 : FVec Ideal S512x64 .f32) (O : Heads)
    (h0 : ∀ (s : Fin 512) (l : Fin 64), p0 (ix2 s l) = O s 0 l)
    (h1 : ∀ (s : Fin 512) (l : Fin 64), p1 (ix2 s l) = O s 1 l)
    (h2 : ∀ (s : Fin 512) (l : Fin 64), p2 (ix2 s l) = O s 2 l)
    (h3 : ∀ (s : Fin 512) (l : Fin 64), p3 (ix2 s l) = O s 3 l)
    (h4 : ∀ (s : Fin 512) (l : Fin 64), p4 (ix2 s l) = O s 4 l)
    (h5 : ∀ (s : Fin 512) (l : Fin 64), p5 (ix2 s l) = O s 5 l)
    (h6 : ∀ (s : Fin 512) (l : Fin 64), p6 (ix2 s l) = O s 6 l)
    (h7 : ∀ (s : Fin 512) (l : Fin 64), p7 (ix2 s l) = O s 7 l)
    (s j : Fin 512) :
    concatenate S512x512 1 [⟨S512x64, p0⟩, ⟨S512x64, p1⟩, ⟨S512x64, p2⟩, ⟨S512x64, p3⟩,
        ⟨S512x64, p4⟩, ⟨S512x64, p5⟩, ⟨S512x64, p6⟩, ⟨S512x64, p7⟩]
      concatenates_S512x64_S512x64_S512x64_S512x64_S512x64_S512x64_S512x64_S512x64_S512x512_d1 (ix2 s j) = cat O s j := by
  have hj := j.isLt
  unfold cat
  rcases (by omega : j.val / 64 = 0 ∨ j.val / 64 = 1 ∨ j.val / 64 = 2 ∨ j.val / 64 = 3 ∨ j.val / 64 = 4 ∨
      j.val / 64 = 5 ∨ j.val / 64 = 6 ∨ j.val / 64 = 7) with c | c | c | c | c | c | c | c
  · have hh : hd j = 0 := Fin.ext c
    rw [hh, ← h0 s (ln j)]
    exact concatenate_apply_piece _ _ _ (ix2 s j) 0 (by show 0 < 8; decide) S512x64 p0 rfl rfl 0 rfl (ix2 s (ln j))
      (fun b hb => by
        match b with
        | ⟨0, _⟩ => rfl
        | ⟨1, _⟩ => exact absurd rfl hb)
      (by show 0 + j.val % 64 = j.val; omega)
  · have hh : hd j = 1 := Fin.ext c
    rw [hh, ← h1 s (ln j)]
    exact concatenate_apply_piece _ _ _ (ix2 s j) 1 (by show 1 < 8; decide) S512x64 p1 rfl rfl 64 rfl (ix2 s (ln j))
      (fun b hb => by
        match b with
        | ⟨0, _⟩ => rfl
        | ⟨1, _⟩ => exact absurd rfl hb)
      (by show 64 + j.val % 64 = j.val; omega)
  · have hh : hd j = 2 := Fin.ext c
    rw [hh, ← h2 s (ln j)]
    exact concatenate_apply_piece _ _ _ (ix2 s j) 2 (by show 2 < 8; decide) S512x64 p2 rfl rfl 128 rfl (ix2 s (ln j))
      (fun b hb => by
        match b with
        | ⟨0, _⟩ => rfl
        | ⟨1, _⟩ => exact absurd rfl hb)
      (by show 128 + j.val % 64 = j.val; omega)
  · have hh : hd j = 3 := Fin.ext c
    rw [hh, ← h3 s (ln j)]
    exact concatenate_apply_piece _ _ _ (ix2 s j) 3 (by show 3 < 8; decide) S512x64 p3 rfl rfl 192 rfl (ix2 s (ln j))
      (fun b hb => by
        match b with
        | ⟨0, _⟩ => rfl
        | ⟨1, _⟩ => exact absurd rfl hb)
      (by show 192 + j.val % 64 = j.val; omega)
  · have hh : hd j = 4 := Fin.ext c
    rw [hh, ← h4 s (ln j)]
    exact concatenate_apply_piece _ _ _ (ix2 s j) 4 (by show 4 < 8; decide) S512x64 p4 rfl rfl 256 rfl (ix2 s (ln j))
      (fun b hb => by
        match b with
        | ⟨0, _⟩ => rfl
        | ⟨1, _⟩ => exact absurd rfl hb)
      (by show 256 + j.val % 64 = j.val; omega)
  · have hh : hd j = 5 := Fin.ext c
    rw [hh, ← h5 s (ln j)]
    exact concatenate_apply_piece _ _ _ (ix2 s j) 5 (by show 5 < 8; decide) S512x64 p5 rfl rfl 320 rfl (ix2 s (ln j))
      (fun b hb => by
        match b with
        | ⟨0, _⟩ => rfl
        | ⟨1, _⟩ => exact absurd rfl hb)
      (by show 320 + j.val % 64 = j.val; omega)
  · have hh : hd j = 6 := Fin.ext c
    rw [hh, ← h6 s (ln j)]
    exact concatenate_apply_piece _ _ _ (ix2 s j) 6 (by show 6 < 8; decide) S512x64 p6 rfl rfl 384 rfl (ix2 s (ln j))
      (fun b hb => by
        match b with
        | ⟨0, _⟩ => rfl
        | ⟨1, _⟩ => exact absurd rfl hb)
      (by show 384 + j.val % 64 = j.val; omega)
  · have hh : hd j = 7 := Fin.ext c
    rw [hh, ← h7 s (ln j)]
    exact concatenate_apply_piece _ _ _ (ix2 s j) 7 (by show 7 < 8; decide) S512x64 p7 rfl rfl 448 rfl (ix2 s (ln j))
      (fun b hb => by
        match b with
        | ⟨0, _⟩ => rfl
        | ⟨1, _⟩ => exact absurd rfl hb)
      (by show 448 + j.val % 64 = j.val; omega)

/-- The joined heads through the output projection, plus the bias and the residual, at `(s, e)`. -/
theorem outVec_apply (v1 : FVec Ideal S512x512 .f32) (p0 p1 p2 p3 p4 p5 p6 p7 : FVec Ideal S512x64 .f32)
    (x7 : Vec Ideal S512x512 .f32) (x8 : Vec Ideal S512 .f32) (O : Heads) (xs Wo : Mat 512 512) (bo : Fin 512 → EReal)
    (hv1 : ∀ (s e : Fin 512), v1 (ix2 s e) = xs s e)
    (h0 : ∀ (s : Fin 512) (l : Fin 64), p0 (ix2 s l) = O s 0 l)
    (h1 : ∀ (s : Fin 512) (l : Fin 64), p1 (ix2 s l) = O s 1 l)
    (h2 : ∀ (s : Fin 512) (l : Fin 64), p2 (ix2 s l) = O s 2 l)
    (h3 : ∀ (s : Fin 512) (l : Fin 64), p3 (ix2 s l) = O s 3 l)
    (h4 : ∀ (s : Fin 512) (l : Fin 64), p4 (ix2 s l) = O s 4 l)
    (h5 : ∀ (s : Fin 512) (l : Fin 64), p5 (ix2 s l) = O s 5 l)
    (h6 : ∀ (s : Fin 512) (l : Fin 64), p6 (ix2 s l) = O s 6 l)
    (h7 : ∀ (s : Fin 512) (l : Fin 64), p7 (ix2 s l) = O s 7 l)
    (hx7 : ∀ (j e : Fin 512), x7 (ix2 j e) = Wo e j) (hx8 : ∀ (e : Fin 512), x8 (ix1 e) = bo e)
    (s e : Fin 512) :
    outVec v1 p0 p1 p2 p3 p4 p5 p6 p7 x7 x8 (ix2 s e) = outProj (cat O) Wo bo xs s e := by
  unfold outVec outProj
  rw [addf_apply, addf_apply, Cert.KernelBody.broadcastTo_row_apply, Cert.KernelBody.shapeCast_row_apply,
    shapeCast_self, hv1, hx8]
  rw [show matmul dot_S512x512_S512x512_S512x512_1_0_0_1_n_n none
        (truncf .bf16 (concatenate S512x512 1 [⟨S512x64, p0⟩, ⟨S512x64, p1⟩, ⟨S512x64, p2⟩, ⟨S512x64, p3⟩,
        ⟨S512x64, p4⟩, ⟨S512x64, p5⟩, ⟨S512x64, p6⟩, ⟨S512x64, p7⟩]
          concatenates_S512x64_S512x64_S512x64_S512x64_S512x64_S512x64_S512x64_S512x64_S512x512_d1) bitsLt_bf16_f32)
        (truncf .bf16 x7 bitsLt_bf16_f32) (constant S512x512 .f32 0x00000000#32) (ix2 s e)
        = ∑ j : Fin 512, cat O s j * Wo e j from
      (Cert.KernelBody.matmul_plain_zero_apply dot_S512x512_S512x512_S512x512_1_0_0_1_n_n_wf none _ _ s e).trans
        (Finset.sum_congr rfl fun j _ => by
          rw [truncf_apply, truncf_apply, concat8_apply p0 p1 p2 p3 p4 p5 p6 p7 O h0 h1 h2 h3 h4 h5 h6 h7, hx7])]

end Cert.KAttn

end
-- ==== Proof.KAttn.lean ====
/-
  The kernel body's attention half at one grid point, read entry by entry from the blocks it loads.
-/
import proofs.«106087_j22016002360042_1_alg».proof.Proof.Gen.KernelIdeal.Skeleton
import proofs.«106087_j22016002360042_1_alg».proof.Proof.Spec
import proofs.«106087_j22016002360042_1_alg».proof.Proof.KNorm
import proofs.«106087_j22016002360042_1_alg».proof.Proof.KAttnOut

noncomputable section

namespace Cert.KAttn

open Idealize.ShloMosaic Idealize.ShloMosaic.ValueIdx Cert.KernelIdeal Cert.KernelIdeal.Gen Cert.Encoder

/-- The blocks: the sample (x0), the three projections' weights transposed with the heads side by side (x1, x3, x5:
    entry (d, 64h+k) is weight (h, k, d)) and their biases (x2, x4, x6), the output projection transposed (x7) and its
    bias (x8), the gain and the shift (x15, x16).  Entry (s, e) of the body's first normalised value is the attention
    half of the sample. -/
theorem attn_value (x0 : Vec Ideal S1x512x512 .f32) (x1 : Vec Ideal S512x512 .f32) (x2 : Vec Ideal S512 .f32)
    (x3 : Vec Ideal S512x512 .f32) (x4 : Vec Ideal S512 .f32) (x5 : Vec Ideal S512x512 .f32) (x6 : Vec Ideal S512 .f32)
    (x7 : Vec Ideal S512x512 .f32) (x8 : Vec Ideal S512 .f32) (x15 x16 : Vec Ideal S512x512 .f32)
    (xs : Mat 512 512) (Wq Wk Wv : Fin 8 → Fin 64 → Fin 512 → EReal) (bq bk bv : Fin 8 → Fin 64 → EReal)
    (Wo : Mat 512 512) (bo : Fin 512 → EReal) (g b : Mat 512 512)
    (h0 : ∀ (s d : Fin 512), x0 (ix3 (0 : Fin 1) s d) = xs s d)
    (h1 : ∀ (h : Fin 8) (k : Fin 64) (d : Fin 512), x1 (ix2 d (hk h k)) = Wq h k d)
    (h2 : ∀ (h : Fin 8) (k : Fin 64), x2 (ix1 (hk h k)) = bq h k)
    (h3 : ∀ (h : Fin 8) (k : Fin 64) (d : Fin 512), x3 (ix2 d (hk h k)) = Wk h k d)
    (h4 : ∀ (h : Fin 8) (k : Fin 64), x4 (ix1 (hk h k)) = bk h k)
    (h5 : ∀ (h : Fin 8) (k : Fin 64) (d : Fin 512), x5 (ix2 d (hk h k)) = Wv h k d)
    (h6 : ∀ (h : Fin 8) (k : Fin 64), x6 (ix1 (hk h k)) = bv h k)
    (h7 : ∀ (j e : Fin 512), x7 (ix2 j e) = Wo e j)
    (h8 : ∀ (e : Fin 512), x8 (ix1 e) = bo e)
    (h15 : ∀ (s e : Fin 512), x15 (ix2 s e) = g s e)
    (h16 : ∀ (s e : Fin 512), x16 (ix2 s e) = b s e)
    (s e : Fin 512) :
    (k0_pay24 (k0_pay2 x0) (k0_pay10 (k0_pay7 x0 x5 x6) (k0_pay8 x0 x1 x2 x3 x4) (k0_pay9 x0 x1 x2 x3 x4)) (k0_pay11 (k0_pay4 x0 x1 x2) (k0_pay5 x0 x3 x4) (k0_pay6 x0 x5 x6)) (k0_pay14 (k0_pay12 (k0_pay6 x0 x5 x6)) (k0_pay13 (k0_pay4 x0 x1 x2) (k0_pay5 x0 x3 x4)) (constant S512x64 .f32 0x00000000#32)) (k0_pay15 (k0_pay4 x0 x1 x2) (k0_pay5 x0 x3 x4) (k0_pay6 x0 x5 x6)) (k0_pay16 (k0_pay4 x0 x1 x2) (k0_pay5 x0 x3 x4) (k0_pay6 x0 x5 x6)) (k0_pay19 (k0_pay17 (k0_pay6 x0 x5 x6)) (k0_pay18 (k0_pay4 x0 x1 x2) (k0_pay5 x0 x3 x4)) (Scalar.ofBits .f32 0x3E000000#32)) (k0_pay20 (k0_pay4 x0 x1 x2) (k0_pay5 x0 x3 x4) (k0_pay6 x0 x5 x6)) (k0_pay21 (k0_pay6 x0 x5 x6)) (k0_pay22 (k0_pay4 x0 x1 x2) (k0_pay5 x0 x3 x4)) (k0_pay23 (k0_pay4 x0 x1 x2) (k0_pay5 x0 x3 x4)) x7 x8 x15 x16) (ix2 s e)
      = attnHalf xs Wq bq Wk bk Wv bv Wo bo g b s e := by
  -- the three projections hold the heads' queries, keys and values, head `h`'s lane `k` in column `64 h + k`
  have hQ : ∀ (s : Fin 512) (h : Fin 8) (k : Fin 64), k0_pay4 x0 x1 x2 (ix2 s (hk h k)) = proj xs Wq bq s h k :=
    fun s h k => pay4_heads x0 x1 x2 xs Wq bq h0 h1 h2 s h k
  have hK : ∀ (s : Fin 512) (h : Fin 8) (k : Fin 64), k0_pay5 x0 x3 x4 (ix2 s (hk h k)) = proj xs Wk bk s h k :=
    fun s h k => pay4_heads x0 x3 x4 xs Wk bk h0 h3 h4 s h k
  have hV : ∀ (s : Fin 512) (h : Fin 8) (k : Fin 64), k0_pay6 x0 x5 x6 (ix2 s (hk h k)) = proj xs Wv bv s h k :=
    fun s h k => pay4_heads x0 x5 x6 xs Wv bv h0 h5 h6 s h k
  -- every head is the one chain at its column offset
  have hh := headAt_apply (k0_pay4 x0 x1 x2) (k0_pay5 x0 x3 x4) (k0_pay6 x0 x5 x6)
    (proj xs Wq bq) (proj xs Wk bk) (proj xs Wv bv) hQ hK hV
  rw [piece0_eq, piece1_eq, piece2_eq, piece3_eq, piece4_eq, piece5_eq, piece6_eq, pay24_eq]
  -- the joined heads, projected, plus bias and residual; then the normalisation
  exact Cert.KNorm.normVec_apply _ x15 x16
    (outProj (cat (mix (score (proj xs Wq bq) (proj xs Wk bk)) (proj xs Wv bv))) Wo bo xs) g b
    (fun s e => outVec_apply _ _ _ _ _ _ _ _ _ x7 x8
      (mix (score (proj xs Wq bq) (proj xs Wk bk)) (proj xs Wv bv)) xs Wo bo
      (fun s d => (pay2_apply x0 s d).trans (h0 s d))
      (fun s l => hh 0 0 rfl _ s l)
      (fun s l => hh 1 64 rfl _ s l)
      (fun s l => hh 2 128 rfl _ s l)
      (fun s l => hh 3 192 rfl _ s l)
      (fun s l => hh 4 256 rfl _ s l)
      (fun s l => hh 5 320 rfl _ s l)
      (fun s l => hh 6 384 rfl _ s l)
      (fun s l => hh 7 448 rfl _ s l)
      h7 h8 s e)
    h15 h16 s e

end Cert.KAttn

end
-- ==== Proof.KFfn.lean ====
/-
  The kernel body's feed-forward half at one grid point, read entry by entry.

  The body pads the hidden width 200 to 256: the padded rows of the second and third weight matrices are zero, so the
  56 extra terms of each padded sum vanish whatever the padded hidden units hold, and the first 200 hidden units
  are the unpadded layer's.  Three dense layers (the first two followed by a maximum with zero), the residual, and two
  normalisations over the whole sample follow one another.
-/
import proofs.«106087_j22016002360042_1_alg».proof.Proof.Gen.KernelIdeal.Skeleton
import proofs.«106087_j22016002360042_1_alg».proof.Proof.Spec
import proofs.«106087_j22016002360042_1_alg».proof.Proof.LibRowOps
import proofs.«106087_j22016002360042_1_alg».proof.Proof.KNorm

noncomputable section

namespace Cert.KFfn

open Idealize.ShloMosaic Idealize.ShloMosaic.ValueIdx Cert.KernelIdeal Cert.KernelIdeal.Gen
open Cert.Encoder Cert.KNorm

/-! ### The padded sums -/

/-- Hidden unit `f` of the 200 real ones, among the 256 padded ones. -/
def lo (f : Fin 200) : Fin 256 := ⟨f.val, by have := f.isLt; omega⟩
/-- Padding unit `f` of the 56 added ones. -/
def hi (f : Fin 56) : Fin 256 := ⟨200 + f.val, by have := f.isLt; omega⟩

/-- A sum over 256 terms whose last 56 vanish is the sum of the first 200. -/
theorem sum_padded (P : Fin 256 → EReal) (p : Fin 200 → EReal) (h1 : ∀ f : Fin 200, P (lo f) = p f)
    (h2 : ∀ f : Fin 56, P (hi f) = 0) : ∑ f : Fin 256, P f = ∑ f : Fin 200, p f := by
  have e : ∑ f : Fin 256, P f = ∑ f : Fin (200 + 56), P f := rfl
  rw [e, Fin.sum_univ_add]
  have e1 : ∀ f : Fin 200, P (Fin.castAdd 56 f) = p f := fun f => by
    rw [show (Fin.castAdd 56 f : Fin 256) = lo f from Fin.ext rfl]; exact h1 f
  have e2 : ∀ f : Fin 56, P (Fin.natAdd 200 f) = 0 := fun f => by
    rw [show (Fin.natAdd 200 f : Fin 256) = hi f from Fin.ext rfl]; exact h2 f
  rw [Finset.sum_eq_zero (fun f _ => e2 f), add_zero]
  exact Finset.sum_congr rfl fun f _ => e1 f

/-! ### The three products into the zero accumulator, as plain sums -/

theorem mm1_apply (A : FVec Ideal S512x512 .bf16) (B : FVec Ideal S512x256 .bf16) (r : Fin 512) (c : Fin 256) :
    matmul dot_S512x512_S512x256_S512x256_1_0_0_1_n_n none A B (constant S512x256 .f32 0x00000000#32) (ix2 r c)
      = ∑ i : Fin 512, A (ix2 r i) * B (ix2 i c) :=
  Cert.KernelBody.matmul_plain_zero_apply dot_S512x512_S512x256_S512x256_1_0_0_1_n_n_wf none A B r c

theorem mm2_apply (A : FVec Ideal S512x256 .bf16) (B : FVec Ideal S256x256 .bf16) (r : Fin 512) (c : Fin 256) :
    matmul dot_S512x256_S256x256_S512x256_1_0_0_1_n_n none A B (constant S512x256 .f32 0x00000000#32) (ix2 r c)
      = ∑ i : Fin 256, A (ix2 r i) * B (ix2 i c) :=
  Cert.KernelBody.matmul_plain_zero_apply dot_S512x256_S256x256_S512x256_1_0_0_1_n_n_wf none A B r c

theorem mm3_apply (A : FVec Ideal S512x256 .bf16) (B : FVec Ideal S256x512 .bf16) (r : Fin 512) (c : Fin 512) :
    matmul dot_S512x256_S256x512_S512x512_1_0_0_1_n_n none A B (constant S512x512 .f32 0x00000000#32) (ix2 r c)
      = ∑ i : Fin 256, A (ix2 r i) * B (ix2 i c) :=
  Cert.KernelBody.matmul_plain_zero_apply dot_S512x256_S256x512_S512x512_1_0_0_1_n_n_wf none A B r c

/-- A bias vector spread down the rows of a 512-row matrix. -/
theorem biasRow256_apply (v : Vec Ideal S256 .f32) (r : Fin 512) (c : Fin 256) :
    broadcastTo S512x256 (shapeCast S1x256 (shapeCast S256 v shapeCasts_S256_S256) shapeCasts_S256_S1x256)
        broadcasts_S1x256_S512x256 (ix2 r c) = v (ix1 c) := by
  rw [Cert.KernelBody.broadcastTo_row_apply _ broadcasts_S1x256_S512x256 r c,
    Cert.KernelBody.shapeCast_row_apply _ shapeCasts_S256_S1x256 c, shapeCast_self]

theorem biasRow512_apply (v : Vec Ideal S512 .f32) (r : Fin 512) (c : Fin 512) :
    broadcastTo S512x512 (shapeCast S1x512 v shapeCasts_S512_S1x512) broadcasts_S1x512_S512x512 (ix2 r c) = v (ix1 c) := by
  rw [Cert.KernelBody.broadcastTo_row_apply _ broadcasts_S1x512_S512x512 r c,
    Cert.KernelBody.shapeCast_row_apply _ shapeCasts_S512_S1x512 c]

/-! ### The layers as the body spells them -/

/-- The first hidden layer, 256 wide. -/
def hidden1 (y : FVec Ideal S512x512 .f32) (w : FVec Ideal S512x256 .f32) (bias : Vec Ideal S256 .f32) :
    FVec Ideal S512x256 .f32 :=
  maximumf (addf (matmul dot_S512x512_S512x256_S512x256_1_0_0_1_n_n none (truncf .bf16 y bitsLt_bf16_f32)
      (truncf .bf16 w bitsLt_bf16_f32) (constant S512x256 .f32 0x00000000#32))
    (broadcastTo S512x256 (shapeCast S1x256 (shapeCast S256 bias shapeCasts_S256_S256) shapeCasts_S256_S1x256)
      broadcasts_S1x256_S512x256)) (broadcast S512x256 (Scalar.ofBits .f32 0x00000000#32))

/-- The second hidden layer, 256 wide. -/
def hidden2 (a : FVec Ideal S512x256 .f32) (w : Vec Ideal S256x256 .f32) (bias : Vec Ideal S256 .f32) :
    FVec Ideal S512x256 .f32 :=
  maximumf (addf (matmul dot_S512x256_S256x256_S512x256_1_0_0_1_n_n none (truncf .bf16 a bitsLt_bf16_f32)
      (truncf .bf16 (shapeCast S256x256 w shapeCasts_S256x256_S256x256) bitsLt_bf16_f32) (constant S512x256 .f32 0x00000000#32))
    (broadcastTo S512x256 (shapeCast S1x256 (shapeCast S256 bias shapeCasts_S256_S256) shapeCasts_S256_S1x256)
      broadcasts_S1x256_S512x256)) (broadcast S512x256 (Scalar.ofBits .f32 0x00000000#32))

/-- The output layer plus the residual. -/
def ffnSum (y : FVec Ideal S512x512 .f32) (a : FVec Ideal S512x256 .f32) (w : Vec Ideal S256x512 .f32)
    (bias : Vec Ideal S512 .f32) : FVec Ideal S512x512 .f32 :=
  addf (addf (matmul dot_S512x256_S256x512_S512x512_1_0_0_1_n_n none (truncf .bf16 a bitsLt_bf16_f32)
      (truncf .bf16 (shapeCast S256x512 w shapeCasts_S256x512_S256x512) bitsLt_bf16_f32) (constant S512x512 .f32 0x00000000#32))
    (broadcastTo S512x512 (shapeCast S1x512 bias shapeCasts_S512_S1x512) broadcasts_S1x512_S512x512)) y

/-- The body's centred feed-forward sum. -/
theorem centred_eq (y : FVec Ideal S512x512 .f32) (w : FVec Ideal S512x256 .f32) (x10 : Vec Ideal S256 .f32)
    (x11 : Vec Ideal S256x256 .f32) (x12 : Vec Ideal S256 .f32) (x13 : Vec Ideal S256x512 .f32) (x14 : Vec Ideal S512 .f32) :
    k0_pay26 y w x10 x11 x12 x13 x14 = centredVec (ffnSum y (hidden2 (hidden1 y w x10) x11 x12) x13 x14) := by
  unfold k0_pay26 centredVec totalVec ffnSum hidden2 hidden1
  rfl

/-- The row sums of its squares, as a column. -/
theorem rowSq_eq (y : FVec Ideal S512x512 .f32) (w : FVec Ideal S512x256 .f32) (x10 : Vec Ideal S256 .f32)
    (x11 : Vec Ideal S256x256 .f32) (x12 : Vec Ideal S256 .f32) (x13 : Vec Ideal S256x512 .f32) (x14 : Vec Ideal S512 .f32) :
    k0_pay27 y w x10 x11 x12 x13 x14 = rowSqOf (k0_pay26 y w x10 x11 x12 x13 x14) := by
  unfold k0_pay27 rowSqOf
  rfl

/-- From the centred values and that column: the first of the last two normalisations finished, the second whole,
    as a one-sample block. -/
theorem tail_eq (x15 x16 : Vec Ideal S512x512 .f32) (c : FVec Ideal S512x512 .f32) (q : FVec Ideal S512x1 .f32) :
    k0_pay1 x15 x16 c q
      = shapeCast S1x512x512 (normVec (scaleShift c (rstdOfRowSq q) x15 x16) x15 x16) shapeCasts_S512x512_S1x512x512 := by
  unfold k0_pay1 normVec scaleShift rstdOfRowSq rowSqOf centredVec totalVec
  rfl

/-- The body's stored value is the feed-forward sum normalised twice, as a one-sample block. -/
theorem stored_eq (y : FVec Ideal S512x512 .f32) (x9 : Vec Ideal S512x256 .f32) (x10 : Vec Ideal S256 .f32)
    (x11 : Vec Ideal S256x256 .f32) (x12 : Vec Ideal S256 .f32) (x13 : Vec Ideal S256x512 .f32) (x14 : Vec Ideal S512 .f32)
    (x15 x16 : Vec Ideal S512x512 .f32) :
    k0_pay1 x15 x16 (k0_pay26 y (k0_pay25 x9) x10 x11 x12 x13 x14) (k0_pay27 y (k0_pay25 x9) x10 x11 x12 x13 x14)
      = shapeCast S1x512x512 (normVec (normVec (ffnSum y (hidden2 (hidden1 y (k0_pay25 x9) x10) x11 x12) x13 x14) x15 x16) x15 x16)
          shapeCasts_S512x512_S1x512x512 := by
  rw [tail_eq, rowSq_eq, centred_eq]
  rfl

/-! ### The layers read at an entry -/

/-- The zero a hidden layer is compared with. -/
theorem zeroSplat_apply (r : Fin 512) (c : Fin 256) :
    broadcast S512x256 (Scalar.ofBits (F := Ideal) .f32 0x00000000#32) (ix2 r c) = (0 : EReal) :=
  Ideal.ofBits_zero_f32

/-- Real unit `f` of the first hidden layer. -/
theorem hidden1_apply (y : FVec Ideal S512x512 .f32) (w : FVec Ideal S512x256 .f32) (bias : Vec Ideal S256 .f32)
    (Y : Mat 512 512) (W1 : Mat 200 512) (b1 : Fin 200 → EReal)
    (hy : ∀ s d, y (ix2 s d) = Y s d) (hw : ∀ (d : Fin 512) (f : Fin 200), w (ix2 d (lo f)) = W1 f d)
    (hb : ∀ f : Fin 200, bias (ix1 (lo f)) = b1 f) (s : Fin 512) (f : Fin 200) :
    hidden1 y w bias (ix2 s (lo f)) = relu (dense Y W1 b1) s f := by
  unfold hidden1 relu dense
  rw [maximumf_apply, addf_apply, mm1_apply, biasRow256_apply, hb f, zeroSplat_apply]
  refine congrArg (fun t => max (t + b1 f) 0) (Finset.sum_congr rfl fun d _ => ?_)
  show y (ix2 s d) * w (ix2 d (lo f)) = _
  rw [hy, hw]

/-- Real unit `g` of the second hidden layer: the padded rows of its weights are zero. -/
theorem hidden2_apply (a : FVec Ideal S512x256 .f32) (w : Vec Ideal S256x256 .f32) (bias : Vec Ideal S256 .f32)
    (A : Mat 512 200) (W2 : Mat 200 200) (b2 : Fin 200 → EReal)
    (ha : ∀ (s : Fin 512) (f : Fin 200), a (ix2 s (lo f)) = A s f)
    (hw1 : ∀ f g : Fin 200, w (ix2 (lo f) (lo g)) = W2 g f)
    (hw2 : ∀ (f : Fin 56) (g : Fin 256), w (ix2 (hi f) g) = 0)
    (hb : ∀ g : Fin 200, bias (ix1 (lo g)) = b2 g) (s : Fin 512) (g : Fin 200) :
    hidden2 a w bias (ix2 s (lo g)) = relu (dense A W2 b2) s g := by
  unfold hidden2 relu dense
  rw [maximumf_apply, addf_apply, mm2_apply, biasRow256_apply, hb g, zeroSplat_apply]
  refine congrArg (fun t => max (t + b2 g) 0) (sum_padded _ _ (fun f => ?_) (fun f => ?_))
  · show a (ix2 s (lo f)) * shapeCast S256x256 w shapeCasts_S256x256_S256x256 (ix2 (lo f) (lo g)) = _
    rw [shapeCast_self, ha, hw1]
  · show a (ix2 s (hi f)) * shapeCast S256x256 w shapeCasts_S256x256_S256x256 (ix2 (hi f) (lo g)) = _
    rw [shapeCast_self, hw2, mul_zero]

/-- The output layer plus the residual. -/
theorem ffnSum_apply (y : FVec Ideal S512x512 .f32) (a : FVec Ideal S512x256 .f32) (w : Vec Ideal S256x512 .f32)
    (bias : Vec Ideal S512 .f32) (Y : Mat 512 512) (A : Mat 512 200) (W3 : Mat 512 200) (b3 : Fin 512 → EReal)
    (hy : ∀ s e, y (ix2 s e) = Y s e) (ha : ∀ (s : Fin 512) (f : Fin 200), a (ix2 s (lo f)) = A s f)
    (hw1 : ∀ (f : Fin 200) (e : Fin 512), w (ix2 (lo f) e) = W3 e f)
    (hw2 : ∀ (f : Fin 56) (e : Fin 512), w (ix2 (hi f) e) = 0)
    (hb : ∀ e : Fin 512, bias (ix1 e) = b3 e) (s e : Fin 512) :
    ffnSum y a w bias (ix2 s e) = dense A W3 b3 s e + Y s e := by
  unfold ffnSum dense
  rw [addf_apply, addf_apply, mm3_apply, biasRow512_apply, hb e, hy s e]
  refine congrArg (fun t => t + b3 e + Y s e) (sum_padded _ _ (fun f => ?_) (fun f => ?_))
  · show a (ix2 s (lo f)) * shapeCast S256x512 w shapeCasts_S256x512_S256x512 (ix2 (lo f) e) = _
    rw [shapeCast_self, ha, hw1]
  · show a (ix2 s (hi f)) * shapeCast S256x512 w shapeCasts_S256x512_S256x512 (ix2 (hi f) e) = _
    rw [shapeCast_self, hw2, mul_zero]

/-- A 512 × 512 vector as a one-sample block reads the same entries. -/
theorem asBlock_apply (v : FVec Ideal S512x512 .f32) (s e : Fin 512) :
    shapeCast S1x512x512 v shapeCasts_S512x512_S1x512x512 (ix3 (0 : Fin 1) s e) = v (ix2 s e) :=
  shapeCast_apply v shapeCasts_S512x512_S1x512x512 (ix3 (0 : Fin 1) s e) (ix2 s e) (by
    rw [Shape.rowMajor_val_two, Shape.rowMajor_val_three]
    show s.val * 512 + e.val = (0 * 512 + s.val) * 512 + e.val
    omega)

/-- Entry (0, s, e) of what the body stores is the feed-forward half of what its first normalisation left. -/
theorem ffn_value (y : FVec Ideal S512x512 .f32) (x9 : Vec Ideal S512x256 .f32) (x10 : Vec Ideal S256 .f32)
    (x11 : Vec Ideal S256x256 .f32) (x12 : Vec Ideal S256 .f32) (x13 : Vec Ideal S256x512 .f32) (x14 : Vec Ideal S512 .f32)
    (x15 x16 : Vec Ideal S512x512 .f32)
    (Y : Mat 512 512) (W1 : Mat 200 512) (b1 : Fin 200 → EReal) (W2 : Mat 200 200) (b2 : Fin 200 → EReal)
    (W3 : Mat 512 200) (b3 : Fin 512 → EReal) (g b : Mat 512 512)
    (hy : ∀ s e, y (ix2 s e) = Y s e)
    (h9 : ∀ (d : Fin 512) (f : Fin 200), x9 (ix2 d (lo f)) = W1 f d)
    (h10 : ∀ f : Fin 200, x10 (ix1 (lo f)) = b1 f)
    (h11 : ∀ f g : Fin 200, x11 (ix2 (lo f) (lo g)) = W2 g f)
    (h11z : ∀ (f : Fin 56) (g : Fin 256), x11 (ix2 (hi f) g) = 0)
    (h12 : ∀ g : Fin 200, x12 (ix1 (lo g)) = b2 g)
    (h13 : ∀ (f : Fin 200) (e : Fin 512), x13 (ix2 (lo f) e) = W3 e f)
    (h13z : ∀ (f : Fin 56) (e : Fin 512), x13 (ix2 (hi f) e) = 0)
    (h14 : ∀ e : Fin 512, x14 (ix1 e) = b3 e)
    (h15 : ∀ s e, x15 (ix2 s e) = g s e) (h16 : ∀ s e, x16 (ix2 s e) = b s e) (s e : Fin 512) :
    k0_pay1 x15 x16 (k0_pay26 y (k0_pay25 x9) x10 x11 x12 x13 x14) (k0_pay27 y (k0_pay25 x9) x10 x11 x12 x13 x14)
        (ix3 (0 : Fin 1) s e)
      = ffnHalf Y W1 b1 W2 b2 W3 b3 g b s e := by
  rw [stored_eq, asBlock_apply]
  unfold ffnHalf
  refine normVec_apply _ x15 x16 _ g b (fun s e => ?_) h15 h16 s e
  refine normVec_apply _ x15 x16 _ g b (fun s e => ?_) h15 h16 s e
  refine ffnSum_apply y _ x13 x14 Y _ W3 b3 hy (fun s f => ?_) h13 h13z h14 s e
  refine hidden2_apply _ x11 x12 _ W2 b2 (fun s f => ?_) h11 h11z h12 s f
  refine hidden1_apply y (k0_pay25 x9) x10 Y W1 b1 hy (fun d f => ?_) h10 s f
  show shapeCast S512x256 x9 shapeCasts_S512x256_S512x256 (ix2 d (lo f)) = _
  rw [shapeCast_self, h9]

end Cert.KFfn

end
-- ==== Proof.KHostWeights.lean ====
/-
  The arrays the kernel's windows read, as the host operations before the call leave them — the re-laid weights.

  Each projection's weights [8, 64, 512] are flattened to [512, 512] (row 64h + k is head h, lane k) and transposed,
  so entry (d, 64h + k) of the window's array is weight (h, k, d); each bias [8, 64] is flattened to [512]; the output
  projection's weights are transposed.
-/
import proofs.«106087_j22016002360042_1_alg».proof.Proof.Gen.KernelIdeal.Frame
import proofs.«106087_j22016002360042_1_alg».proof.Proof.Spec
import Idealize.ShloMosaic.Lib.StableHlo.Run
import Idealize.ShloMosaic.Lib.Pipeline.Value
import Idealize.ShloMosaic.Lib.ValueIdx
import Idealize.ShloMosaic.Lib.KernelVsHost

noncomputable section

namespace Cert.KHost

open Idealize.ShloMosaic Idealize.ShloMosaic.TcCoe Idealize.ShloMosaic.ValueIdx Idealize.SL.Sem Idealize.ShloMosaic.StableHlo
open Cert.KernelIdeal Cert.KernelIdeal.Gen Cert.Encoder

variable (m : (ℓ : Loc nD τ sig) → Buf (Elt Ideal) ℓ)

/-- Flattened weights transposed: entry (d, 64h + k) is entry (h, k, d) of the weights. -/
theorem flatT_apply (W : S8x64x512.Idx → EReal) (h : Fin 8) (k : Fin 64) (d : Fin 512) :
    transpose S512x512 [1, 0] (shapeCast S512x512 W shapeCasts_S8x64x512_S512x512) transposes_S512x512_S512x512_1_0
        (ix2 d (hk h k)) = W (ix3 h k d) := by
  rw [transpose_apply [1, 0] _ transposes_S512x512_S512x512_1_0 (ix2 d (hk h k)) (ix2 (hk h k) d) (fun b => by
    match b with
    | ⟨0, _⟩ => rfl
    | ⟨1, _⟩ => rfl)]
  exact shapeCast_apply W shapeCasts_S8x64x512_S512x512 (ix2 (hk h k) d) (ix3 h k d) (by
    rw [Shape.rowMajor_val_three, Shape.rowMajor_val_two]
    show (h.val * 64 + k.val) * 512 + d.val = (64 * h.val + k.val) * 512 + d.val
    omega)

/-- A flattened bias: entry 64h + k is entry (h, k). -/
theorem flat_apply (B : S8x64.Idx → EReal) (h : Fin 8) (k : Fin 64) :
    shapeCast S512 B shapeCasts_S8x64_S512 (ix1 (hk h k)) = B (ix2 h k) :=
  shapeCast_apply B shapeCasts_S8x64_S512 (ix1 (hk h k)) (ix2 h k) (by
    rw [Shape.rowMajor_val_two, Shape.rowMajor_val_one]
    show h.val * 64 + k.val = 64 * h.val + k.val
    omega)

set_option maxHeartbeats 2000000 in
theorem V_v1 (c : Dev nD) : @Eq (S512x512.Idx → EReal) (V m c main_v1)
    (transpose S512x512 [1, 0] (shapeCast S512x512 (m ((c : Thread nD τ).loc main_arg1)) shapeCasts_S8x64x512_S512x512)
      transposes_S512x512_S512x512_1_0) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v1_apply (c : Dev nD) (h : Fin 8) (k : Fin 64) (d : Fin 512) :
    (V m c main_v1 : S512x512.Idx → EReal) (ix2 d (hk h k)) = (m ((c : Thread nD τ).loc main_arg1)) (ix3 h k d) := by
  rw [V_v1]; exact flatT_apply _ h k d

set_option maxHeartbeats 2000000 in
theorem V_v3 (c : Dev nD) : @Eq (S512x512.Idx → EReal) (V m c main_v3)
    (transpose S512x512 [1, 0] (shapeCast S512x512 (m ((c : Thread nD τ).loc main_arg3)) shapeCasts_S8x64x512_S512x512)
      transposes_S512x512_S512x512_1_0) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v3_apply (c : Dev nD) (h : Fin 8) (k : Fin 64) (d : Fin 512) :
    (V m c main_v3 : S512x512.Idx → EReal) (ix2 d (hk h k)) = (m ((c : Thread nD τ).loc main_arg3)) (ix3 h k d) := by
  rw [V_v3]; exact flatT_apply _ h k d

set_option maxHeartbeats 2000000 in
theorem V_v5 (c : Dev nD) : @Eq (S512x512.Idx → EReal) (V m c main_v5)
    (transpose S512x512 [1, 0] (shapeCast S512x512 (m ((c : Thread nD τ).loc main_arg5)) shapeCasts_S8x64x512_S512x512)
      transposes_S512x512_S512x512_1_0) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v5_apply (c : Dev nD) (h : Fin 8) (k : Fin 64) (d : Fin 512) :
    (V m c main_v5 : S512x512.Idx → EReal) (ix2 d (hk h k)) = (m ((c : Thread nD τ).loc main_arg5)) (ix3 h k d) := by
  rw [V_v5]; exact flatT_apply _ h k d

set_option maxHeartbeats 2000000 in
theorem V_v6 (c : Dev nD) : @Eq (S512.Idx → EReal) (V m c main_v6)
    (shapeCast S512 (m ((c : Thread nD τ).loc main_arg2)) shapeCasts_S8x64_S512) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v6_apply (c : Dev nD) (h : Fin 8) (k : Fin 64) :
    (V m c main_v6 : S512.Idx → EReal) (ix1 (hk h k)) = (m ((c : Thread nD τ).loc main_arg2)) (ix2 h k) := by
  rw [V_v6]; exact flat_apply _ h k

set_option maxHeartbeats 2000000 in
theorem V_v7 (c : Dev nD) : @Eq (S512.Idx → EReal) (V m c main_v7)
    (shapeCast S512 (m ((c : Thread nD τ).loc main_arg4)) shapeCasts_S8x64_S512) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v7_apply (c : Dev nD) (h : Fin 8) (k : Fin 64) :
    (V m c main_v7 : S512.Idx → EReal) (ix1 (hk h k)) = (m ((c : Thread nD τ).loc main_arg4)) (ix2 h k) := by
  rw [V_v7]; exact flat_apply _ h k

set_option maxHeartbeats 2000000 in
theorem V_v8 (c : Dev nD) : @Eq (S512.Idx → EReal) (V m c main_v8)
    (shapeCast S512 (m ((c : Thread nD τ).loc main_arg6)) shapeCasts_S8x64_S512) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v8_apply (c : Dev nD) (h : Fin 8) (k : Fin 64) :
    (V m c main_v8 : S512.Idx → EReal) (ix1 (hk h k)) = (m ((c : Thread nD τ).loc main_arg6)) (ix2 h k) := by
  rw [V_v8]; exact flat_apply _ h k

set_option maxHeartbeats 2000000 in
theorem V_v9 (c : Dev nD) : @Eq (S512x512.Idx → EReal) (V m c main_v9)
    (transpose S512x512 [1, 0] (m ((c : Thread nD τ).loc main_arg7)) transposes_S512x512_S512x512_1_0) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

theorem V_v9_apply (c : Dev nD) (j e : Fin 512) :
    (V m c main_v9 : S512x512.Idx → EReal) (ix2 j e) = (m ((c : Thread nD τ).loc main_arg7)) (ix2 e j) := by
  rw [V_v9]
  exact transpose_apply [1, 0] _ transposes_S512x512_S512x512_1_0 (ix2 j e) (ix2 e j) (fun b => by
    match b with
    | ⟨0, _⟩ => rfl
    | ⟨1, _⟩ => rfl)

end Cert.KHost

end
-- ==== Proof.KHostPadded.lean ====
/-
  The arrays the kernel's windows read, as the host operations before the call leave them — the padded weights.

  The feed-forward weights are padded with zeros from width 200 to 256 and transposed; the biases are padded the same
  way.  An entry whose padded coordinate is below 200 is the unpadded entry; an entry whose padded coordinate is 200
  or more is the padding value, the integer 0 converted to a float, which is 0.
-/
import proofs.«106087_j22016002360042_1_alg».proof.Proof.Gen.KernelIdeal.Frame
import proofs.«106087_j22016002360042_1_alg».proof.Proof.Spec
import proofs.«106087_j22016002360042_1_alg».proof.Proof.KFfn
import Idealize.ShloMosaic.Lib.StableHlo.Run
import Idealize.ShloMosaic.Lib.Pipeline.Value
import Idealize.ShloMosaic.Lib.ValueIdx
import Idealize.ShloMosaic.Lib.KernelVsHost

noncomputable section

namespace Cert.KHost

open Idealize.ShloMosaic Idealize.ShloMosaic.TcCoe Idealize.ShloMosaic.ValueIdx Idealize.SL.Sem Idealize.ShloMosaic.StableHlo
open Cert.KernelIdeal Cert.KernelIdeal.Gen Cert.Encoder Cert.KFfn

variable (m : (ℓ : Loc nD τ sig) → Buf (Elt Ideal) ℓ)

/-- The padding value: the integer zero as a float. -/
abbrev padZero : S_.Idx → EReal := sitofp (F := Ideal) .f32 (constantI S_ 32 0#32)

theorem padZero_apply (i : S_.Idx) : padZero i = 0 := by
  show ((((0#32 : BitVec 32).toInt : ℝ)) : EReal) = 0
  simp

/-! ### Rows padded: [200, 512] → [256, 512], transposed to [512, 256] (the first layer's weights) -/

theorem padRowsT_apply (W : S200x512.Idx → EReal) (d : Fin 512) (f : Fin 200) :
    transpose S512x256 [1, 0] (pad S256x512 ![0, 0] ![56, 0] ![0, 0] W padZero pads_S200x512_S256x512_0560_000 h_S_)
        transposes_S256x512_S512x256_1_0 (ix2 d (lo f)) = W (ix2 f d) := by
  rw [transpose_apply [1, 0] _ transposes_S256x512_S512x256_1_0 (ix2 d (lo f)) (ix2 (lo f) d) (fun b => by
    match b with
    | ⟨0, _⟩ => rfl
    | ⟨1, _⟩ => rfl)]
  exact pad_apply_of_inside ![0, 0] ![56, 0] ![0, 0] W padZero pads_S200x512_S256x512_0560_000 h_S_ (ix2 (lo f) d) (ix2 f d)
    (fun a => by
      match a with
      | ⟨0, _⟩ => show f.val = 0 + f.val * (0 + 1); omega
      | ⟨1, _⟩ => show d.val = 0 + d.val * (0 + 1); omega)

/-! ### A bias padded: [200] → [256] -/

theorem padVec_apply (B : S200.Idx → EReal) (f : Fin 200) :
    pad S256 ![0] ![56] ![0] B padZero pads_S200_S256_0560 h_S_ (ix1 (lo f)) = B (ix1 f) :=
  pad_apply_of_inside ![0] ![56] ![0] B padZero pads_S200_S256_0560 h_S_ (ix1 (lo f)) (ix1 f)
    (fun a => by
      match a with
      | ⟨0, _⟩ => show f.val = 0 + f.val * (0 + 1); omega)

/-! ### Rows and columns padded: [200, 200] → [256, 256], transposed (the second layer's weights) -/

theorem padBothT_apply (W : S200x200.Idx → EReal) (f g : Fin 200) :
    transpose S256x256 [1, 0] (pad S256x256 ![0, 0] ![56, 56] ![0, 0] W padZero pads_S200x200_S256x256_0560_0560 h_S_)
        transposes_S256x256_S256x256_1_0 (ix2 (lo f) (lo g)) = W (ix2 g f) := by
  rw [transpose_apply [1, 0] _ transposes_S256x256_S256x256_1_0 (ix2 (lo f) (lo g)) (ix2 (lo g) (lo f)) (fun b => by
    match b with
    | ⟨0, _⟩ => rfl
    | ⟨1, _⟩ => rfl)]
  exact pad_apply_of_inside ![0, 0] ![56, 56] ![0, 0] W padZero pads_S200x200_S256x256_0560_0560 h_S_ (ix2 (lo g) (lo f))
    (ix2 g f) (fun a => by
      match a with
      | ⟨0, _⟩ => show g.val = 0 + g.val * (0 + 1); omega
      | ⟨1, _⟩ => show f.val = 0 + f.val * (0 + 1); omega)

theorem padBothT_zero (W : S200x200.Idx → EReal) (f : Fin 56) (g : Fin 256) :
    transpose S256x256 [1, 0] (pad S256x256 ![0, 0] ![56, 56] ![0, 0] W padZero pads_S200x200_S256x256_0560_0560 h_S_)
        transposes_S256x256_S256x256_1_0 (ix2 (hi f) g) = 0 := by
  rw [transpose_apply [1, 0] _ transposes_S256x256_S256x256_1_0 (ix2 (hi f) g) (ix2 g (hi f)) (fun b => by
    match b with
    | ⟨0, _⟩ => rfl
    | ⟨1, _⟩ => rfl)]
  rw [pad_apply_of_not_inside ![0, 0] ![56, 56] ![0, 0] W padZero pads_S200x200_S256x256_0560_0560 h_S_ (ix2 g (hi f))
    (1 : Fin 2) (by
      show ¬(0 ≤ 200 + f.val ∧ (200 + f.val - 0) % (0 + 1) = 0 ∧ (200 + f.val - 0) / (0 + 1) < 200)
      omega)]
  exact padZero_apply _

/-! ### Columns padded: [512, 200] → [512, 256], transposed to [256, 512] (the third layer's weights) -/

theorem padColsT_apply (W : S512x200.Idx → EReal) (f : Fin 200) (e : Fin 512) :
    transpose S256x512 [1, 0] (pad S512x256 ![0, 0] ![0, 56] ![0, 0] W padZero pads_S512x200_S512x256_000_0560 h_S_)
        transposes_S512x256_S256x512_1_0 (ix2 (lo f) e) = W (ix2 e f) := by
  rw [transpose_apply [1, 0] _ transposes_S512x256_S256x512_1_0 (ix2 (lo f) e) (ix2 e (lo f)) (fun b => by
    match b with
    | ⟨0, _⟩ => rfl
    | ⟨1, _⟩ => rfl)]
  exact pad_apply_of_inside ![0, 0] ![0, 56] ![0, 0] W padZero pads_S512x200_S512x256_000_0560 h_S_ (ix2 e (lo f)) (ix2 e f)
    (fun a => by
      match a with
      | ⟨0, _⟩ => show e.val = 0 + e.val * (0 + 1); omega
      | ⟨1, _⟩ => show f.val = 0 + f.val * (0 + 1); omega)

theorem padColsT_zero (W : S512x200.Idx → EReal) (f : Fin 56) (e : Fin 512) :
    transpose S256x512 [1, 0] (pad S512x256 ![0, 0] ![0, 56] ![0, 0] W padZero pads_S512x200_S512x256_000_0560 h_S_)
        transposes_S512x256_S256x512_1_0 (ix2 (hi f) e) = 0 := by
  rw [transpose_apply [1, 0] _ transposes_S512x256_S256x512_1_0 (ix2 (hi f) e) (ix2 e (hi f)) (fun b => by
    match b with
    | ⟨0, _⟩ => rfl
    | ⟨1, _⟩ => rfl)]
  rw [pad_apply_of_not_inside ![0, 0] ![0, 56] ![0, 0] W padZero pads_S512x200_S512x256_000_0560 h_S_ (ix2 e (hi f))
    (1 : Fin 2) (by
      show ¬(0 ≤ 200 + f.val ∧ (200 + f.val - 0) % (0 + 1) = 0 ∧ (200 + f.val - 0) / (0 + 1) < 200)
      omega)]
  exact padZero_apply _

/-! ### The five arrays -/

set_option maxHeartbeats 2000000 in
theorem V_v15 (c : Dev nD) : @Eq (S512x256.Idx → EReal) (V m c main_v15)
    (transpose S512x256 [1, 0] (pad S256x512 ![0, 0] ![56, 0] ![0, 0] (m ((c : Thread nD τ).loc main_arg9)) padZero pads_S200x512_S256x512_0560_000 h_S_)
      transposes_S256x512_S512x256_1_0) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

set_option maxHeartbeats 2000000 in
theorem V_v11 (c : Dev nD) : @Eq (S256.Idx → EReal) (V m c main_v11)
    (pad S256 ![0] ![56] ![0] (m ((c : Thread nD τ).loc main_arg10)) padZero pads_S200_S256_0560 h_S_) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

set_option maxHeartbeats 2000000 in
theorem V_v16 (c : Dev nD) : @Eq (S256x256.Idx → EReal) (V m c main_v16)
    (transpose S256x256 [1, 0] (pad S256x256 ![0, 0] ![56, 56] ![0, 0] (m ((c : Thread nD τ).loc main_arg11)) padZero pads_S200x200_S256x256_0560_0560 h_S_)
      transposes_S256x256_S256x256_1_0) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

set_option maxHeartbeats 2000000 in
theorem V_v13 (c : Dev nD) : @Eq (S256.Idx → EReal) (V m c main_v13)
    (pad S256 ![0] ![56] ![0] (m ((c : Thread nD τ).loc main_arg12)) padZero pads_S200_S256_0560 h_S_) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

set_option maxHeartbeats 2000000 in
theorem V_v17 (c : Dev nD) : @Eq (S256x512.Idx → EReal) (V m c main_v17)
    (transpose S256x512 [1, 0] (pad S512x256 ![0, 0] ![0, 56] ![0, 0] (m ((c : Thread nD τ).loc main_arg13)) padZero pads_S512x200_S512x256_000_0560 h_S_)
      transposes_S512x256_S256x512_1_0) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results <;> rfl

end Cert.KHost

end
-- ==== Proof.KBlocks.lean ====
/-
  From the kernel's blocks to its result array.

  The grid has 32 points; point t stages sample t of the batch (block (t, 0, 0) of the first argument) and every other
  operand whole, and writes sample t of the result back.  What the body stores at point t is the encoder layer of
  sample t; the 32 written blocks tile the result array, so after the run the array is the layer of every sample.
-/
import proofs.«106087_j22016002360042_1_alg».proof.Proof.Gen.KernelIdeal.Value
import proofs.«106087_j22016002360042_1_alg».proof.Proof.Spec
import proofs.«106087_j22016002360042_1_alg».proof.Proof.KAttn
import proofs.«106087_j22016002360042_1_alg».proof.Proof.KFfn
import proofs.«106087_j22016002360042_1_alg».proof.Proof.KHostWeights
import proofs.«106087_j22016002360042_1_alg».proof.Proof.KHostPadded

noncomputable section

namespace Cert.KBlocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.Encoder Cert.KFfn Cert.KHost

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the sample and the result move with the point along the batch
    axis, every other window stays at block zero. -/
theorem idx_facts : ∀ t : Fin cfg0.N, win0_0.index t (0 : Fin 3) = t.val
    ∧ win0_0.index t (1 : Fin 3) = 0
    ∧ win0_0.index t (2 : Fin 3) = 0
    ∧ win0_17.index t (0 : Fin 3) = t.val
    ∧ win0_17.index t (1 : Fin 3) = 0
    ∧ win0_17.index t (2 : Fin 3) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 2) = 0
    ∧ win0_15.index t (1 : Fin 2) = 0
    ∧ win0_16.index t (0 : Fin 2) = 0
    ∧ win0_16.index t (1 : Fin 2) = 0 :=
  (by decide +kernel : ∀ t : Fin grid0.N, _)

/-- The grid point as a sample number. -/
def bt (t : Fin cfg0.N) : Fin 32 := ⟨t.val, by have := t.isLt; have hN : cfg0.N = 32 := N_0; omega⟩

/-- The sample window's block at point t is sample t. -/
theorem iblk0_apply (c : Dev nD) (t : Fin cfg0.N) (s d : Fin 512) :
    (iblk m c 0 t : Vec Ideal S1x512x512 .f32) (ix3 (0 : Fin 1) s d) = (m ((c : Thread nD τ).loc main_arg0)) (ix3 (bt t) s d) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 0).blk t).view.emb (ix3 (0 : Fin 1) s d) = ix3 (bt t) s d := by
    funext a; apply Fin.ext
    match a with
    | ⟨0, _⟩ => show win0_0.index t (0 : Fin 3) * 1 + 1 * 0 = t.val; omega
    | ⟨1, _⟩ => show win0_0.index t (1 : Fin 3) * 512 + 1 * s.val = s.val; omega
    | ⟨2, _⟩ => show win0_0.index t (2 : Fin 3) * 512 + 1 * d.val = d.val; omega
  show V m c main_arg0 (((cfg0.win 0).blk t).view.emb (ix3 (0 : Fin 1) s d)) = _
  rw [h, V_main_arg0]

/-- Window 1's block at every point is its whole array. -/
theorem iblk1_apply (c : Dev nD) (t : Fin cfg0.N) (p : Fin 512) (q : Fin 512) :
    (iblk m c 1 t : Vec Ideal S512x512 .f32) (ix2 p q) = (V m c main_v1 : S512x512.Idx → EReal) (ix2 p q) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 1).blk t).view.emb (ix2 p q) = ix2 p q := by
    funext a; apply Fin.ext
    match a with
    | ⟨0, _⟩ => show win0_1.index t (0 : Fin 2) * 512 + 1 * p.val = p.val; omega
    | ⟨1, _⟩ => show win0_1.index t (1 : Fin 2) * 512 + 1 * q.val = q.val; omega
  show V m c main_v1 (((cfg0.win 1).blk t).view.emb (ix2 p q)) = V m c main_v1 (ix2 p q)
  rw [h]

/-- Window 2's block at every point is its whole array. -/
theorem iblk2_apply (c : Dev nD) (t : Fin cfg0.N) (p : Fin 512) :
    (iblk m c 2 t : Vec Ideal S512 .f32) (ix1 p) = (V m c main_v6 : S512.Idx → EReal) (ix1 p) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 2).blk t).view.emb (ix1 p) = ix1 p := by
    funext a; apply Fin.ext
    match a with
    | ⟨0, _⟩ => show win0_2.index t (0 : Fin 1) * 512 + 1 * p.val = p.val; omega
  show V m c main_v6 (((cfg0.win 2).blk t).view.emb (ix1 p)) = V m c main_v6 (ix1 p)
  rw [h]

/-- Window 3's block at every point is its whole array. -/
theorem iblk3_apply (c : Dev nD) (t : Fin cfg0.N) (p : Fin 512) (q : Fin 512) :
    (iblk m c 3 t : Vec Ideal S512x512 .f32) (ix2 p q) = (V m c main_v3 : S512x512.Idx → EReal) (ix2 p q) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 3).blk t).view.emb (ix2 p q) = ix2 p q := by
    funext a; apply Fin.ext
    match a with
    | ⟨0, _⟩ => show win0_3.index t (0 : Fin 2) * 512 + 1 * p.val = p.val; omega
    | ⟨1, _⟩ => show win0_3.index t (1 : Fin 2) * 512 + 1 * q.val = q.val; omega
  show V m c main_v3 (((cfg0.win 3).blk t).view.emb (ix2 p q)) = V m c main_v3 (ix2 p q)
  rw [h]

/-- Window 4's block at every point is its whole array. -/
theorem iblk4_apply (c : Dev nD) (t : Fin cfg0.N) (p : Fin 512) :
    (iblk m c 4 t : Vec Ideal S512 .f32) (ix1 p) = (V m c main_v7 : S512.Idx → EReal) (ix1 p) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 4).blk t).view.emb (ix1 p) = ix1 p := by
    funext a; apply Fin.ext
    match a with
    | ⟨0, _⟩ => show win0_4.index t (0 : Fin 1) * 512 + 1 * p.val = p.val; omega
  show V m c main_v7 (((cfg0.win 4).blk t).view.emb (ix1 p)) = V m c main_v7 (ix1 p)
  rw [h]

/-- Window 5's block at every point is its whole array. -/
theorem iblk5_apply (c : Dev nD) (t : Fin cfg0.N) (p : Fin 512) (q : Fin 512) :
    (iblk m c 5 t : Vec Ideal S512x512 .f32) (ix2 p q) = (V m c main_v5 : S512x512.Idx → EReal) (ix2 p q) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 5).blk t).view.emb (ix2 p q) = ix2 p q := by
    funext a; apply Fin.ext
    match a with
    | ⟨0, _⟩ => show win0_5.index t (0 : Fin 2) * 512 + 1 * p.val = p.val; omega
    | ⟨1, _⟩ => show win0_5.index t (1 : Fin 2) * 512 + 1 * q.val = q.val; omega
  show V m c main_v5 (((cfg0.win 5).blk t).view.emb (ix2 p q)) = V m c main_v5 (ix2 p q)
  rw [h]

/-- Window 6's block at every point is its whole array. -/
theorem iblk6_apply (c : Dev nD) (t : Fin cfg0.N) (p : Fin 512) :
    (iblk m c 6 t : Vec Ideal S512 .f32) (ix1 p) = (V m c main_v8 : S512.Idx → EReal) (ix1 p) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 6).blk t).view.emb (ix1 p) = ix1 p := by
    funext a; apply Fin.ext
    match a with
    | ⟨0, _⟩ => show win0_6.index t (0 : Fin 1) * 512 + 1 * p.val = p.val; omega
  show V m c main_v8 (((cfg0.win 6).blk t).view.emb (ix1 p)) = V m c main_v8 (ix1 p)
  rw [h]

/-- Window 7's block at every point is its whole array. -/
theorem iblk7_apply (c : Dev nD) (t : Fin cfg0.N) (p : Fin 512) (q : Fin 512) :
    (iblk m c 7 t : Vec Ideal S512x512 .f32) (ix2 p q) = (V m c main_v9 : S512x512.Idx → EReal) (ix2 p q) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 7).blk t).view.emb (ix2 p q) = ix2 p q := by
    funext a; apply Fin.ext
    match a with
    | ⟨0, _⟩ => show win0_7.index t (0 : Fin 2) * 512 + 1 * p.val = p.val; omega
    | ⟨1, _⟩ => show win0_7.index t (1 : Fin 2) * 512 + 1 * q.val = q.val; omega
  show V m c main_v9 (((cfg0.win 7).blk t).view.emb (ix2 p q)) = V m c main_v9 (ix2 p q)
  rw [h]

/-- Window 8's block at every point is its whole array. -/
theorem iblk8_apply (c : Dev nD) (t : Fin cfg0.N) (p : Fin 512) :
    (iblk m c 8 t : Vec Ideal S512 .f32) (ix1 p) = (V m c main_arg8 : S512.Idx → EReal) (ix1 p) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 8).blk t).view.emb (ix1 p) = ix1 p := by
    funext a; apply Fin.ext
    match a with
    | ⟨0, _⟩ => show win0_8.index t (0 : Fin 1) * 512 + 1 * p.val = p.val; omega
  show V m c main_arg8 (((cfg0.win 8).blk t).view.emb (ix1 p)) = V m c main_arg8 (ix1 p)
  rw [h]

/-- Window 9's block at every point is its whole array. -/
theorem iblk9_apply (c : Dev nD) (t : Fin cfg0.N) (p : Fin 512) (q : Fin 256) :
    (iblk m c 9 t : Vec Ideal S512x256 .f32) (ix2 p q) = (V m c main_v15 : S512x256.Idx → EReal) (ix2 p q) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 9).blk t).view.emb (ix2 p q) = ix2 p q := by
    funext a; apply Fin.ext
    match a with
    | ⟨0, _⟩ => show win0_9.index t (0 : Fin 2) * 512 + 1 * p.val = p.val; omega
    | ⟨1, _⟩ => show win0_9.index t (1 : Fin 2) * 256 + 1 * q.val = q.val; omega
  show V m c main_v15 (((cfg0.win 9).blk t).view.emb (ix2 p q)) = V m c main_v15 (ix2 p q)
  rw [h]

/-- Window 10's block at every point is its whole array. -/
theorem iblk10_apply (c : Dev nD) (t : Fin cfg0.N) (p : Fin 256) :
    (iblk m c 10 t : Vec Ideal S256 .f32) (ix1 p) = (V m c main_v11 : S256.Idx → EReal) (ix1 p) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 10).blk t).view.emb (ix1 p) = ix1 p := by
    funext a; apply Fin.ext
    match a with
    | ⟨0, _⟩ => show win0_10.index t (0 : Fin 1) * 256 + 1 * p.val = p.val; omega
  show V m c main_v11 (((cfg0.win 10).blk t).view.emb (ix1 p)) = V m c main_v11 (ix1 p)
  rw [h]

/-- Window 11's block at every point is its whole array. -/
theorem iblk11_apply (c : Dev nD) (t : Fin cfg0.N) (p : Fin 256) (q : Fin 256) :
    (iblk m c 11 t : Vec Ideal S256x256 .f32) (ix2 p q) = (V m c main_v16 : S256x256.Idx → EReal) (ix2 p q) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 11).blk t).view.emb (ix2 p q) = ix2 p q := by
    funext a; apply Fin.ext
    match a with
    | ⟨0, _⟩ => show win0_11.index t (0 : Fin 2) * 256 + 1 * p.val = p.val; omega
    | ⟨1, _⟩ => show win0_11.index t (1 : Fin 2) * 256 + 1 * q.val = q.val; omega
  show V m c main_v16 (((cfg0.win 11).blk t).view.emb (ix2 p q)) = V m c main_v16 (ix2 p q)
  rw [h]

/-- Window 12's block at every point is its whole array. -/
theorem iblk12_apply (c : Dev nD) (t : Fin cfg0.N) (p : Fin 256) :
    (iblk m c 12 t : Vec Ideal S256 .f32) (ix1 p) = (V m c main_v13 : S256.Idx → EReal) (ix1 p) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 12).blk t).view.emb (ix1 p) = ix1 p := by
    funext a; apply Fin.ext
    match a with
    | ⟨0, _⟩ => show win0_12.index t (0 : Fin 1) * 256 + 1 * p.val = p.val; omega
  show V m c main_v13 (((cfg0.win 12).blk t).view.emb (ix1 p)) = V m c main_v13 (ix1 p)
  rw [h]

/-- Window 13's block at every point is its whole array. -/
theorem iblk13_apply (c : Dev nD) (t : Fin cfg0.N) (p : Fin 256) (q : Fin 512) :
    (iblk m c 13 t : Vec Ideal S256x512 .f32) (ix2 p q) = (V m c main_v17 : S256x512.Idx → EReal) (ix2 p q) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 13).blk t).view.emb (ix2 p q) = ix2 p q := by
    funext a; apply Fin.ext
    match a with
    | ⟨0, _⟩ => show win0_13.index t (0 : Fin 2) * 256 + 1 * p.val = p.val; omega
    | ⟨1, _⟩ => show win0_13.index t (1 : Fin 2) * 512 + 1 * q.val = q.val; omega
  show V m c main_v17 (((cfg0.win 13).blk t).view.emb (ix2 p q)) = V m c main_v17 (ix2 p q)
  rw [h]

/-- Window 14's block at every point is its whole array. -/
theorem iblk14_apply (c : Dev nD) (t : Fin cfg0.N) (p : Fin 512) :
    (iblk m c 14 t : Vec Ideal S512 .f32) (ix1 p) = (V m c main_arg14 : S512.Idx → EReal) (ix1 p) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 14).blk t).view.emb (ix1 p) = ix1 p := by
    funext a; apply Fin.ext
    match a with
    | ⟨0, _⟩ => show win0_14.index t (0 : Fin 1) * 512 + 1 * p.val = p.val; omega
  show V m c main_arg14 (((cfg0.win 14).blk t).view.emb (ix1 p)) = V m c main_arg14 (ix1 p)
  rw [h]

/-- Window 15's block at every point is its whole array. -/
theorem iblk15_apply (c : Dev nD) (t : Fin cfg0.N) (p : Fin 512) (q : Fin 512) :
    (iblk m c 15 t : Vec Ideal S512x512 .f32) (ix2 p q) = (V m c main_arg15 : S512x512.Idx → EReal) (ix2 p q) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 15).blk t).view.emb (ix2 p q) = ix2 p q := by
    funext a; apply Fin.ext
    match a with
    | ⟨0, _⟩ => show win0_15.index t (0 : Fin 2) * 512 + 1 * p.val = p.val; omega
    | ⟨1, _⟩ => show win0_15.index t (1 : Fin 2) * 512 + 1 * q.val = q.val; omega
  show V m c main_arg15 (((cfg0.win 15).blk t).view.emb (ix2 p q)) = V m c main_arg15 (ix2 p q)
  rw [h]

/-- Window 16's block at every point is its whole array. -/
theorem iblk16_apply (c : Dev nD) (t : Fin cfg0.N) (p : Fin 512) (q : Fin 512) :
    (iblk m c 16 t : Vec Ideal S512x512 .f32) (ix2 p q) = (V m c main_arg16 : S512x512.Idx → EReal) (ix2 p q) := by
  obtain ⟨f0, f1, f2, f3, f4, f5, f6, f7, f8, f9, f10, f11, f12, f13, f14, f15, f16, f17, f18, f19, f20, f21, f22, f23, f24, f25, f26, f27, f28, f29, f30⟩ := idx_facts t
  have h : ((cfg0.win 16).blk t).view.emb (ix2 p q) = ix2 p q := by
    funext a; apply Fin.ext
    match a with
    | ⟨0, _⟩ => show win0_16.index t (0 : Fin 2) * 512 + 1 * p.val = p.val; omega
    | ⟨1, _⟩ => show win0_16.index t (1 : Fin 2) * 512 + 1 * q.val = q.val; omega
  show V m c main_arg16 (((cfg0.win 16).blk t).view.emb (ix2 p q)) = V m c main_arg16 (ix2 p q)
  rw [h]

/-- What the body leaves in the result window's buffer, from what its operands' blocks hold. -/
theorem body_value (x0 : Vec Ideal S1x512x512 .f32) (x1 : Vec Ideal S512x512 .f32) (x2 : Vec Ideal S512 .f32)
    (x3 : Vec Ideal S512x512 .f32) (x4 : Vec Ideal S512 .f32) (x5 : Vec Ideal S512x512 .f32) (x6 : Vec Ideal S512 .f32)
    (x7 : Vec Ideal S512x512 .f32) (x8 : Vec Ideal S512 .f32) (x9 : Vec Ideal S512x256 .f32) (x10 : Vec Ideal S256 .f32)
    (x11 : Vec Ideal S256x256 .f32) (x12 : Vec Ideal S256 .f32) (x13 : Vec Ideal S256x512 .f32) (x14 : Vec Ideal S512 .f32)
    (x15 x16 : Vec Ideal S512x512 .f32)
    (X : Mat 512 512) (Wq Wk Wv : Fin 8 → Fin 64 → Fin 512 → EReal) (bq bk bv : Fin 8 → Fin 64 → EReal)
    (Wo : Mat 512 512) (bo : Fin 512 → EReal) (W1 : Mat 200 512) (b1 : Fin 200 → EReal) (W2 : Mat 200 200)
    (b2 : Fin 200 → EReal) (W3 : Mat 512 200) (b3 : Fin 512 → EReal) (g b : Mat 512 512)
    (h0 : ∀ (s d : Fin 512), x0 (ix3 (0 : Fin 1) s d) = X s d)
    (h1 : ∀ (h : Fin 8) (k : Fin 64) (d : Fin 512), x1 (ix2 d (hk h k)) = Wq h k d)
    (h2 : ∀ (h : Fin 8) (k : Fin 64), x2 (ix1 (hk h k)) = bq h k)
    (h3 : ∀ (h : Fin 8) (k : Fin 64) (d : Fin 512), x3 (ix2 d (hk h k)) = Wk h k d)
    (h4 : ∀ (h : Fin 8) (k : Fin 64), x4 (ix1 (hk h k)) = bk h k)
    (h5 : ∀ (h : Fin 8) (k : Fin 64) (d : Fin 512), x5 (ix2 d (hk h k)) = Wv h k d)
    (h6 : ∀ (h : Fin 8) (k : Fin 64), x6 (ix1 (hk h k)) = bv h k)
    (h7 : ∀ (j e : Fin 512), x7 (ix2 j e) = Wo e j)
    (h8 : ∀ (e : Fin 512), x8 (ix1 e) = bo e)
    (h9 : ∀ (d : Fin 512) (f : Fin 200), x9 (ix2 d (lo f)) = W1 f d)
    (h10 : ∀ f : Fin 200, x10 (ix1 (lo f)) = b1 f)
    (h11 : ∀ f g : Fin 200, x11 (ix2 (lo f) (lo g)) = W2 g f)
    (h11z : ∀ (f : Fin 56) (g : Fin 256), x11 (ix2 (hi f) g) = 0)
    (h12 : ∀ g : Fin 200, x12 (ix1 (lo g)) = b2 g)
    (h13 : ∀ (f : Fin 200) (e : Fin 512), x13 (ix2 (lo f) e) = W3 e f)
    (h13z : ∀ (f : Fin 56) (e : Fin 512), x13 (ix2 (hi f) e) = 0)
    (h14 : ∀ e : Fin 512, x14 (ix1 e) = b3 e)
    (h15 : ∀ (s e : Fin 512), x15 (ix2 s e) = g s e)
    (h16 : ∀ (s e : Fin 512), x16 (ix2 s e) = b s e)
    (s e : Fin 512) :
    out0_17 x0 x1 x2 x3 x4 x5 x6 x7 x8 x9 x10 x11 x12 x13 x14 x15 x16 (ix3 (0 : Fin 1) s e)
      = ffnHalf (attnHalf X Wq bq Wk bk Wv bv Wo bo g b) W1 b1 W2 b2 W3 b3 g b s e := by
  unfold out0_17
  rw [View.canon_unit_zero hz3]
  simp only [View.ld_unit_zero (S := S1x512x512) hz3, View.ld_unit_zero (S := S512x512) hz2,
    View.ld_unit_zero (S := S512) hz1, View.ld_unit_zero (S := S512x256) hz2, View.ld_unit_zero (S := S256) hz1,
    View.ld_unit_zero (S := S256x256) hz2, View.ld_unit_zero (S := S256x512) hz2]
  exact ffn_value _ x9 x10 x11 x12 x13 x14 x15 x16 (attnHalf X Wq bq Wk bk Wv bv Wo bo g b) W1 b1 W2 b2 W3 b3 g b
    (fun s e => Cert.KAttn.attn_value x0 x1 x2 x3 x4 x5 x6 x7 x8 x15 x16 X Wq Wk Wv bq bk bv Wo bo g b
      h0 h1 h2 h3 h4 h5 h6 h7 h8 h15 h16 s e)
    h9 h10 h11 h11z h12 h13 h13z h14 h15 h16 s e

/-- What point t writes back is block t of the layer of the argument arrays. -/
theorem flushed_eq (c : Dev nD) (t : Fin cfg0.N) :
    (dats m 0 c).flushed 17 t
      = ((cfg0.win 17).blk t).view.read (Elt Ideal) (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  show (cfg0.win 17).cut (grid0.coords t) ((dats m 0 c).after 17 t) = _
  rw [after0_17]
  obtain ⟨f0, f1, f2, f3, f4, f5, f6, f7, f8, f9, f10, f11, f12, f13, f14, f15, f16, f17, f18, f19, f20, f21, f22, f23, f24, f25, f26, f27, f28, f29, f30⟩ := idx_facts t
  funext j
  obtain ⟨z, s, e, rfl⟩ : ∃ (z : Fin 1) (s e : Fin 512), j = ix3 z s e := ⟨j 0, j 1, j 2, eq_ix3 j⟩
  obtain rfl : z = 0 := Subsingleton.elim _ _
  have hemb : ((cfg0.win 17).blk t).view.emb (ix3 (0 : Fin 1) s e) = ix3 (bt t) s e := by
    funext a; apply Fin.ext
    match a with
    | ⟨0, _⟩ => show win0_17.index t (0 : Fin 3) * 1 + 1 * 0 = t.val; omega
    | ⟨1, _⟩ => show win0_17.index t (1 : Fin 3) * 512 + 1 * s.val = s.val; omega
    | ⟨2, _⟩ => show win0_17.index t (2 : Fin 3) * 512 + 1 * e.val = e.val; omega
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 (0 : Fin 1) s e)
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (((cfg0.win 17).blk t).view.emb (ix3 (0 : Fin 1) s e))
  rw [hemb]
  show _ = ffnHalf (attnHalf (sample (m ((c : Thread nD τ).loc main_arg0)) (bt t)) (arr3 (m ((c : Thread nD τ).loc main_arg1))) (arr2 (m ((c : Thread nD τ).loc main_arg2))) (arr3 (m ((c : Thread nD τ).loc main_arg3))) (arr2 (m ((c : Thread nD τ).loc main_arg4)))
      (arr3 (m ((c : Thread nD τ).loc main_arg5))) (arr2 (m ((c : Thread nD τ).loc main_arg6))) (arr2 (m ((c : Thread nD τ).loc main_arg7))) (arr1 (m ((c : Thread nD τ).loc main_arg8))) (arr2 (m ((c : Thread nD τ).loc main_arg15))) (arr2 (m ((c : Thread nD τ).loc main_arg16))))
    (arr2 (m ((c : Thread nD τ).loc main_arg9))) (arr1 (m ((c : Thread nD τ).loc main_arg10))) (arr2 (m ((c : Thread nD τ).loc main_arg11))) (arr1 (m ((c : Thread nD τ).loc main_arg12))) (arr2 (m ((c : Thread nD τ).loc main_arg13))) (arr1 (m ((c : Thread nD τ).loc main_arg14)))
    (arr2 (m ((c : Thread nD τ).loc main_arg15))) (arr2 (m ((c : Thread nD τ).loc main_arg16))) s e
  exact body_value (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _ _ _ _ _ _ _ _ _ _ _ _ _ _ _ _ _
    (fun s d => iblk0_apply m c t s d)
    (fun h k d => (iblk1_apply m c t d (hk h k)).trans (V_v1_apply m c h k d))
    (fun h k => (iblk2_apply m c t (hk h k)).trans (V_v6_apply m c h k))
    (fun h k d => (iblk3_apply m c t d (hk h k)).trans (V_v3_apply m c h k d))
    (fun h k => (iblk4_apply m c t (hk h k)).trans (V_v7_apply m c h k))
    (fun h k d => (iblk5_apply m c t d (hk h k)).trans (V_v5_apply m c h k d))
    (fun h k => (iblk6_apply m c t (hk h k)).trans (V_v8_apply m c h k))
    (fun j e => (iblk7_apply m c t j e).trans (V_v9_apply m c j e))
    (fun e => (iblk8_apply m c t e).trans (by rw [V_main_arg8]; rfl))
    (fun d f => (iblk9_apply m c t d (lo f)).trans (by rw [V_v15]; exact padRowsT_apply _ d f))
    (fun f => (iblk10_apply m c t (lo f)).trans (by rw [V_v11]; exact padVec_apply _ f))
    (fun f g => (iblk11_apply m c t (lo f) (lo g)).trans (by rw [V_v16]; exact padBothT_apply _ f g))
    (fun f g => (iblk11_apply m c t (hi f) g).trans (by rw [V_v16]; exact padBothT_zero _ f g))
    (fun g => (iblk12_apply m c t (lo g)).trans (by rw [V_v13]; exact padVec_apply _ g))
    (fun f e => (iblk13_apply m c t (lo f) e).trans (by rw [V_v17]; exact padColsT_apply _ f e))
    (fun f e => (iblk13_apply m c t (hi f) e).trans (by rw [V_v17]; exact padColsT_zero _ f e))
    (fun e => (iblk14_apply m c t e).trans (by rw [V_main_arg14]; rfl))
    (fun s e => (iblk15_apply m c t s e).trans (by rw [V_main_arg15]; rfl))
    (fun s e => (iblk16_apply m c t s e).trans (by rw [V_main_arg16]; rfl))
    s e

/-- The 32 written blocks tile the result array: sample b is point b's block. -/
theorem cover (i : S32x512x512.Idx) :
    ∃ t : Fin cfg0.N, (cfg0.win 17).flush t = true ∧ i ∈ ((cfg0.win 17).blk t).view.set := by
  have hN : cfg0.N = 32 := N_0
  have hi0 : (i 0).val < 32 := (i 0).isLt
  have hi1 : (i 1).val < 512 := (i 1).isLt
  have hi2 : (i 2).val < 512 := (i 2).isLt
  let t : Fin cfg0.N := ⟨(i 0).val, by omega⟩
  obtain ⟨f0, f1, f2, f3, f4, f5, f6, f7, f8, f9, f10, f11, f12, f13, f14, f15, f16, f17, f18, f19, f20, f21, f22, f23, f24, f25, f26, f27, f28, f29, f30⟩ := idx_facts t
  refine ⟨t, flush0_17 t, ?_⟩
  show i ∈ ((View.whole main_v18).slice (win0_17.rect t)).set
  rw [View.set_slice_whole, Rect.mem_set_unit]
  intro a
  match a with
  | ⟨0, _⟩ =>
    show win0_17.index t (0 : Fin 3) * 1 ≤ (i 0).val ∧ (i 0).val < win0_17.index t (0 : Fin 3) * 1 + 1
    have ht : t.val = (i 0).val := rfl
    omega
  | ⟨1, _⟩ =>
    show win0_17.index t (1 : Fin 3) * 512 ≤ (i 1).val ∧ (i 1).val < win0_17.index t (1 : Fin 3) * 512 + 512
    omega
  | ⟨2, _⟩ =>
    show win0_17.index t (2 : Fin 3) * 512 ≤ (i 2).val ∧ (i 2).val < win0_17.index t (2 : Fin 3) * 512 + 512
    omega

/-- After the run the result array is the layer of the argument arrays. -/
theorem final (c : Dev nD) :
    (dats m 0 c).arrAt 17 cfg0.N = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (dats m 0 c).arrAt_eq_of_cover 17 _ (fun t _ => flushed_eq m c t) cover

end Cert.KBlocks

end
-- ==== Proof.RefAttnSum.lean ====
/-
  A sum over the last two axes of a 32 × 512 × 512 array, read entry by entry.

  The reference takes such a sum twice in each normalisation (the mean, then the mean of the squared
  deviations).  The operation keeps, at each sample `b`, the initial value plus every entry whose first coordinate
  is `b`; those entries are exactly the entries (b, s, e), each met once, so the sum is the double sum over the
  position `s` and the feature `e`.
-/
import Idealize.ShloMosaic.PureOps.Ideal
import Idealize.ShloMosaic.PureOps.Ideal.Laws
import Idealize.ShloMosaic.Lib.ValueIdx
import Idealize.ShloMosaic.Lib.IdealHost

noncomputable section

namespace Cert.RefSum

open Idealize.ShloMosaic Idealize.ShloMosaic.ValueIdx

/-- Dropping the last two coordinates of an index of a 32 × 512 × 512 array leaves its first coordinate. -/
theorem drop_d1_2 (h : (⟨3, ![32, 512, 512]⟩ : Shape).ReducesTo [1, 2] ⟨1, ![32]⟩)
    (i : (⟨3, ![32, 512, 512]⟩ : Shape).Idx) : h.drop i = ix1 (i 0) := by
  funext d
  match d with
  | ⟨0, _⟩ => exact Fin.ext (Shape.ReducesTo.drop_apply_val_of_eq h i 0 0)

/-- The exact sum over the last two axes of a 32 × 512 × 512 array, at sample `b`: the initial value plus the double
    sum, over the position `s` and the feature `e`, of the entry (b, s, e).  It holds for every array of extended reals
    (no finiteness is used): the entries kept at `b` are the image of the pairs (s, e) under an injection. -/
theorem hostReduceAdd_d1_2 (h : (⟨3, ![32, 512, 512]⟩ : Shape).ReducesTo [1, 2] ⟨1, ![32]⟩)
    (x : (⟨3, ![32, 512, 512]⟩ : Shape).Idx → EReal) (init : EReal) (b : Fin 32) :
    Ideal.hostReduceAdd h x init (ix1 b) = init + ∑ s : Fin 512, ∑ e : Fin 512, x (ix3 b s e) := by
  unfold Ideal.hostReduceAdd
  congr 1
  rw [← Finset.sum_product' Finset.univ Finset.univ (fun s e => x (ix3 b s e))]
  symm
  refine Finset.sum_bij (fun p _ => ix3 b p.1 p.2) ?_ ?_ ?_ ?_
  · intro p _
    rw [Finset.mem_filter]
    exact ⟨Finset.mem_univ _, drop_d1_2 h _⟩
  · intro p _ q _ hpq
    exact Prod.ext (congrFun hpq 1) (congrFun hpq 2)
  · intro i hi
    rw [Finset.mem_filter] at hi
    have hb : i 0 = b := by
      have h0 := hi.2
      rw [drop_d1_2] at h0
      exact congrFun h0 0
    refine ⟨(i 1, i 2), Finset.mem_product.mpr ⟨Finset.mem_univ _, Finset.mem_univ _⟩, ?_⟩
    rw [← hb]
    exact (eq_ix3 i).symm
  · intro p _
    rfl

/-- The reference's own spelling of that sum — a reduction with an addition body over axes 1 and 2 from a rank-zero
    initial array — at sample `b`: the initial array's one element plus the double sum of the entries (b, s, e). -/
theorem reduceAdd_d1_2_apply (h : (⟨3, ![32, 512, 512]⟩ : Shape).ReducesTo [1, 2] ⟨1, ![32]⟩)
    (hu : 0 < (⟨0, ![]⟩ : Shape).numel) (x : FVec Ideal ⟨3, ![32, 512, 512]⟩ .f32)
    (init : (⟨0, ![]⟩ : Shape).Idx → Ideal .f32) (b : Fin 32) :
    Host.reduceAdd x init h hu (ix1 b) = init (Shape.Idx.first hu) + ∑ s : Fin 512, ∑ e : Fin 512, x (ix3 b s e) := by
  rw [hostReduceAdd_apply]
  exact hostReduceAdd_d1_2 h x _ b

end Cert.RefSum

end
-- ==== Proof.RefAttnConst.lean ====
/-
  The reference's literal constants as extended reals, and the two places where it divides where the
  specification multiplies.

  The reference scales the query–key products by dividing by √64, and takes a mean by dividing by 262144 = 512 · 512;
  the specification multiplies by 1/8 and by 2⁻¹⁸.  A quotient by a real that is not zero is the product with its
  reciprocal, on every extended real.  A running maximum that starts from −∞ is not below −∞, so taking its maximum
  with −∞ once more changes nothing.
-/
import proofs.«106087_j22016002360042_1_alg».proof.Proof.Spec
import Mathlib.Data.Finset.Fold
import Idealize.ShloMosaic.PureOps.Reduce

noncomputable section

namespace Cert.RefAttn

open Idealize.ShloMosaic Idealize.ShloMosaic.ValueIdx Cert.Encoder

/-- The binary32 word 0x42800000 is 64. -/
theorem ofBits_64 : Ideal.ofBits .f32 0x42800000#32 = ((64 : ℝ) : EReal) := by
  simp [Ideal.ofBits, Ideal.ieee, -EReal.coe_mul]; norm_num

/-- The binary32 word 0x3E000000 is 1/8. -/
theorem c8_eq : c8 = (((1 : ℝ) / 8 : ℝ) : EReal) := by
  simp [c8, Ideal.ofBits, Ideal.ieee, -EReal.coe_mul]; norm_num

/-- The binary32 word 0x48800000 is 262144 = 2¹⁸. -/
theorem ofBits_262144 : Ideal.ofBits .f32 0x48800000#32 = ((262144 : ℝ) : EReal) := by
  simp [Ideal.ofBits, Ideal.ieee, -EReal.coe_mul]; norm_num

/-- The binary32 word 0x36800000 is 2⁻¹⁸ = 1/262144. -/
theorem c18_eq : c18 = (((1 : ℝ) / 262144 : ℝ) : EReal) := by
  simp [c18, Ideal.ofBits, Ideal.ieee, -EReal.coe_mul]; norm_num

/-- The square root of the word for 64 is 8. -/
theorem sqrt_64 : Ideal.sqrt (Ideal.ofBits .f32 0x42800000#32) = ((8 : ℝ) : EReal) := by
  rw [ofBits_64, Ideal.sqrt_coe, if_neg (by norm_num), show (64 : ℝ) = 8 ^ 2 by norm_num,
    Real.sqrt_sq (by norm_num)]

/-- Dividing by √64 is multiplying by the word for 1/8. -/
theorem div_sqrt_64 (x : EReal) : Ideal.div x (Ideal.sqrt (Ideal.ofBits .f32 0x42800000#32)) = x * c8 := by
  rw [sqrt_64, c8_eq, Ideal.div_coe (by norm_num)]

/-- Dividing by the word for 262144 is multiplying by the word for 2⁻¹⁸. -/
theorem div_262144 (x : EReal) : Ideal.div x (Ideal.ofBits .f32 0x48800000#32) = x * c18 := by
  rw [ofBits_262144, c18_eq, Ideal.div_coe (by norm_num)]

/-- A maximum folded from `c` is at least `c`: one more maximum with `c` leaves it as it is. -/
theorem max_fold_max {n : ℕ} (c : EReal) (r : Fin n → EReal) :
    max c ((Finset.univ : Finset (Fin n)).fold max c r) = (Finset.univ : Finset (Fin n)).fold max c r :=
  max_eq_right ((Finset.le_fold_max c).mpr (Or.inl le_rfl))

/-- The reference's running maximum along the last axis of a 32 × 8 × 512 × 512 array, at (b, h, s): the maximum,
    folded from the initial array's one element, of the entries (b, h, s, t) over the key position `t`. -/
theorem reduceMax_d3_apply (h' : (⟨4, ![32, 8, 512, 512]⟩ : Shape).ReducesTo [3] ⟨3, ![32, 8, 512]⟩)
    (hu : 0 < (⟨0, ![]⟩ : Shape).numel) (x : FVec Ideal ⟨4, ![32, 8, 512, 512]⟩ .f32)
    (init : (⟨0, ![]⟩ : Shape).Idx → Ideal .f32) (b : Fin 32) (h : Fin 8) (s : Fin 512) :
    Host.reduce FloatOps.maximumf x init h' hu (ix3 b h s)
      = (Finset.univ : Finset (Fin 512)).fold max (init (Shape.Idx.first hu)) (fun t => x (ix4 b h s t)) := by
  have hr : (⟨4, ![32, 8, 512, 512]⟩ : Shape).Reduces [3] ⟨3, ![32, 8, 512]⟩ := ⟨h'.1, by decide, h'.2⟩
  rw [Host.reduce_eq_fold_single FloatOps.maximumf x _ h' hr hu]
  have hf : (x ∘ hr.lift (ix3 b h s)) = fun t : Fin 512 => x (ix4 b h s t) :=
    funext fun t => congrArg x (by funext c; apply Fin.ext; fin_cases c <;> rfl)
  exact congrArg (fun f => Finset.fold max (init (Shape.Idx.first hu)) f (Finset.univ : Finset (Fin 512))) hf

end Cert.RefAttn

end
-- ==== Proof.RefAttnProj.lean ====
/-
  The reference's three projections and its scaled query–key products, read entry by entry.

  Each projection is a contraction of the weights with the sample over the feature axis, transposed so that the
  head comes before the position, plus the bias spread over samples and positions.  The products of queries and keys
  are then divided by √64, which is the multiplication by 1/8 the specification has.
-/
import proofs.«106087_j22016002360042_1_alg».proof.Proof.RefRead
import proofs.«106087_j22016002360042_1_alg».proof.Proof.Spec
import proofs.«106087_j22016002360042_1_alg».proof.Proof.RefAttnConst

noncomputable section

namespace Cert.RefAttn

open Idealize.ShloMosaic Idealize.ShloMosaic.ValueIdx Cert.ReferenceIdeal Cert.ReferenceIdeal.Read Cert.Encoder

/-- Two indices of a literal shape with the same coordinates are equal: coordinate by coordinate. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))
local macro "idx4" : tactic =>
  `(tactic| (funext a; match a with | ⟨0, _⟩ => rfl | ⟨1, _⟩ => rfl | ⟨2, _⟩ => rfl | ⟨3, _⟩ => rfl))

variable (x0 : (⟨S32x512x512, .f32⟩ : BufTy).Contents (Elt Ideal)) (x1 : (⟨S8x64x512, .f32⟩ : BufTy).Contents (Elt Ideal))
  (x2 : (⟨S8x64, .f32⟩ : BufTy).Contents (Elt Ideal)) (x3 : (⟨S8x64x512, .f32⟩ : BufTy).Contents (Elt Ideal))
  (x4 : (⟨S8x64, .f32⟩ : BufTy).Contents (Elt Ideal)) (x5 : (⟨S8x64x512, .f32⟩ : BufTy).Contents (Elt Ideal))
  (x6 : (⟨S8x64, .f32⟩ : BufTy).Contents (Elt Ideal)) (x7 : (⟨S512x512, .f32⟩ : BufTy).Contents (Elt Ideal))
  (x8 : (⟨S512, .f32⟩ : BufTy).Contents (Elt Ideal)) (x15 : (⟨S512x512, .f32⟩ : BufTy).Contents (Elt Ideal))
  (x16 : (⟨S512x512, .f32⟩ : BufTy).Contents (Elt Ideal))

/-- The reference's query projection, at sample `b`, head `h`, position `s`, lane `k`: the weights stand on the left of each
    product where the specification has them on the right. -/
theorem v4_eq (b : Fin 32) (h : Fin 8) (s : Fin 512) (k : Fin 64) :
    val_main_v4 (F := Ideal) x0 x1 x2 (ix4 b h s k) = proj (sample x0 b) (arr3 x1) (arr2 x2) s h k := by
  rw [val_main_v4_apply, val_main_v1_apply, val_main_v0_apply, val_main_v3_apply, val_main_v2_apply]
  have e1 : ∀ d : Fin 512, lidx_main_v0 (idx_main_v1 (ix4 b h s k)) d = ix3 h k d := fun d => by idx3
  have e2 : ∀ d : Fin 512, ridx_main_v0 (idx_main_v1 (ix4 b h s k)) d = ix3 b s d := fun d => by idx3
  have e3 : idx_main_v2 (idx_main_v3 (ix4 b h s k)) = ix2 h k := by idx2
  simp only [e1, e2, e3]
  show (∑ d : Fin 512, x1 (ix3 h k d) * x0 (ix3 b s d)) + x2 (ix2 h k)
    = (∑ d : Fin 512, x0 (ix3 b s d) * x1 (ix3 h k d)) + x2 (ix2 h k)
  congr 1
  exact Finset.sum_congr rfl fun d _ => mul_comm _ _

/-- The reference's key projection, at sample `b`, head `h`, position `s`, lane `k`: the weights stand on the left of each
    product where the specification has them on the right. -/
theorem v9_eq (b : Fin 32) (h : Fin 8) (s : Fin 512) (k : Fin 64) :
    val_main_v9 (F := Ideal) x0 x3 x4 (ix4 b h s k) = proj (sample x0 b) (arr3 x3) (arr2 x4) s h k := by
  rw [val_main_v9_apply, val_main_v6_apply, val_main_v5_apply, val_main_v8_apply, val_main_v7_apply]
  have e1 : ∀ d : Fin 512, lidx_main_v5 (idx_main_v6 (ix4 b h s k)) d = ix3 h k d := fun d => by idx3
  have e2 : ∀ d : Fin 512, ridx_main_v5 (idx_main_v6 (ix4 b h s k)) d = ix3 b s d := fun d => by idx3
  have e3 : idx_main_v7 (idx_main_v8 (ix4 b h s k)) = ix2 h k := by idx2
  simp only [e1, e2, e3]
  show (∑ d : Fin 512, x3 (ix3 h k d) * x0 (ix3 b s d)) + x4 (ix2 h k)
    = (∑ d : Fin 512, x0 (ix3 b s d) * x3 (ix3 h k d)) + x4 (ix2 h k)
  congr 1
  exact Finset.sum_congr rfl fun d _ => mul_comm _ _

/-- The reference's value projection, at sample `b`, head `h`, position `s`, lane `k`: the weights stand on the left of each
    product where the specification has them on the right. -/
theorem v14_eq (b : Fin 32) (h : Fin 8) (s : Fin 512) (k : Fin 64) :
    val_main_v14 (F := Ideal) x0 x5 x6 (ix4 b h s k) = proj (sample x0 b) (arr3 x5) (arr2 x6) s h k := by
  rw [val_main_v14_apply, val_main_v11_apply, val_main_v10_apply, val_main_v13_apply, val_main_v12_apply]
  have e1 : ∀ d : Fin 512, lidx_main_v10 (idx_main_v11 (ix4 b h s k)) d = ix3 h k d := fun d => by idx3
  have e2 : ∀ d : Fin 512, ridx_main_v10 (idx_main_v11 (ix4 b h s k)) d = ix3 b s d := fun d => by idx3
  have e3 : idx_main_v12 (idx_main_v13 (ix4 b h s k)) = ix2 h k := by idx2
  simp only [e1, e2, e3]
  show (∑ d : Fin 512, x5 (ix3 h k d) * x0 (ix3 b s d)) + x6 (ix2 h k)
    = (∑ d : Fin 512, x0 (ix3 b s d) * x5 (ix3 h k d)) + x6 (ix2 h k)
  congr 1
  exact Finset.sum_congr rfl fun d _ => mul_comm _ _

/-- The reference's scaled product of query position `s` with key position `t` in head `h` of sample `b`. -/
theorem v18_eq (b : Fin 32) (h : Fin 8) (s t : Fin 512) :
    val_main_v18 (F := Ideal) x0 x1 x2 x3 x4 (ix4 b h s t)
      = score (proj (sample x0 b) (arr3 x1) (arr2 x2)) (proj (sample x0 b) (arr3 x3) (arr2 x4)) h s t := by
  rw [val_main_v18_apply, val_main_v15_apply, val_main_v17_apply, val_main_v16_apply, val_main_cst_apply]
  have e1 : ∀ k : Fin 64, lidx_main_v15 (ix4 b h s t) k = ix4 b h s k := fun k => by idx4
  have e2 : ∀ k : Fin 64, ridx_main_v15 (ix4 b h s t) k = ix4 b h t k := fun k => by idx4
  simp only [e1, e2, v4_eq, v9_eq]
  exact div_sqrt_64 _

end Cert.RefAttn

end
-- ==== Proof.RefAttnSoftmax.lean ====
/-
  The reference's softmax along the key position and the weighted sum of the values, read entry by entry.

  The row maximum is a running maximum from −∞ over the key positions, followed by one more maximum with −∞, which
  changes nothing.  The exponentials of the scores less that maximum are summed from zero along the row and each is
  divided by the sum; the weights so obtained are contracted with the values over the key position.
-/
import proofs.«106087_j22016002360042_1_alg».proof.Proof.RefRead
import proofs.«106087_j22016002360042_1_alg».proof.Proof.Spec
import proofs.«106087_j22016002360042_1_alg».proof.Proof.RefAttnConst
import proofs.«106087_j22016002360042_1_alg».proof.Proof.RefAttnProj

noncomputable section

namespace Cert.RefAttn

open Idealize.ShloMosaic Idealize.ShloMosaic.ValueIdx Cert.ReferenceIdeal Cert.ReferenceIdeal.Read Cert.Encoder

/-- Two indices of a literal shape with the same coordinates are equal: coordinate by coordinate. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))
local macro "idx4" : tactic =>
  `(tactic| (funext a; match a with | ⟨0, _⟩ => rfl | ⟨1, _⟩ => rfl | ⟨2, _⟩ => rfl | ⟨3, _⟩ => rfl))

variable (x0 : (⟨S32x512x512, .f32⟩ : BufTy).Contents (Elt Ideal)) (x1 : (⟨S8x64x512, .f32⟩ : BufTy).Contents (Elt Ideal))
  (x2 : (⟨S8x64, .f32⟩ : BufTy).Contents (Elt Ideal)) (x3 : (⟨S8x64x512, .f32⟩ : BufTy).Contents (Elt Ideal))
  (x4 : (⟨S8x64, .f32⟩ : BufTy).Contents (Elt Ideal)) (x5 : (⟨S8x64x512, .f32⟩ : BufTy).Contents (Elt Ideal))
  (x6 : (⟨S8x64, .f32⟩ : BufTy).Contents (Elt Ideal)) (x7 : (⟨S512x512, .f32⟩ : BufTy).Contents (Elt Ideal))
  (x8 : (⟨S512, .f32⟩ : BufTy).Contents (Elt Ideal)) (x15 : (⟨S512x512, .f32⟩ : BufTy).Contents (Elt Ideal))
  (x16 : (⟨S512x512, .f32⟩ : BufTy).Contents (Elt Ideal))

/-- The reference's row maximum of the scores of head `h` of sample `b` at query position `s`. -/
theorem v21_eq (b : Fin 32) (h : Fin 8) (s : Fin 512) :
    val_main_v21 (F := Ideal) x0 x1 x2 x3 x4 (ix3 b h s) = rowMax ((score (proj (sample x0 b) (arr3 x1) (arr2 x2)) (proj (sample x0 b) (arr3 x3) (arr2 x4))) h s) := by
  rw [val_main_v21_apply, val_main_v20_apply, val_main_cst_1_apply]
  unfold val_main_v19
  rw [reduceMax_d3_apply, val_main_cst_0_apply]
  simp only [v18_eq]
  exact max_fold_max _ _

/-- The exponential of a score less its row's maximum. -/
theorem v25_eq (b : Fin 32) (h : Fin 8) (s t : Fin 512) :
    val_main_v25 (F := Ideal) x0 x1 x2 x3 x4 (ix4 b h s t)
      = Ideal.exp ((score (proj (sample x0 b) (arr3 x1) (arr2 x2)) (proj (sample x0 b) (arr3 x3) (arr2 x4))) h s t - rowMax ((score (proj (sample x0 b) (arr3 x1) (arr2 x2)) (proj (sample x0 b) (arr3 x3) (arr2 x4))) h s)) := by
  rw [val_main_v25_apply, val_main_v24_apply, val_main_v23_apply, val_main_v22_apply]
  have e : idx_main_v22 (idx_main_v23 (ix4 b h s t)) = ix3 b h s := by idx3
  rw [e, v21_eq, v18_eq]
  rfl

/-- The sum of those exponentials along the row: the reference starts it from the word for zero. -/
theorem v26_eq (b : Fin 32) (h : Fin 8) (s : Fin 512) :
    val_main_v26 (F := Ideal) x0 x1 x2 x3 x4 (ix3 b h s)
      = ∑ u : Fin 512, Ideal.exp ((score (proj (sample x0 b) (arr3 x1) (arr2 x2)) (proj (sample x0 b) (arr3 x3) (arr2 x4))) h s u - rowMax ((score (proj (sample x0 b) (arr3 x1) (arr2 x2)) (proj (sample x0 b) (arr3 x3) (arr2 x4))) h s)) := by
  rw [val_main_v26_apply, val_main_cst_2_apply]
  have e : ∀ u : Fin 512, idx_main_v26 (ix3 b h s) u = ix4 b h s u := fun u => by idx4
  simp only [e, v25_eq]
  show Ideal.ofBits .f32 0x00000000#32 + _ = _
  rw [Ideal.ofBits_zero_f32, zero_add]

/-- The reference's attention weight of key position `t` for query position `s`. -/
theorem v29_eq (b : Fin 32) (h : Fin 8) (s t : Fin 512) :
    val_main_v29 (F := Ideal) x0 x1 x2 x3 x4 (ix4 b h s t) = softmax ((score (proj (sample x0 b) (arr3 x1) (arr2 x2)) (proj (sample x0 b) (arr3 x3) (arr2 x4))) h s) t := by
  rw [val_main_v29_apply, val_main_v28_apply, val_main_v27_apply]
  have e : idx_main_v27 (idx_main_v28 (ix4 b h s t)) = ix3 b h s := by idx3
  rw [e, v25_eq, v26_eq]
  rfl

/-- The reference's weighted values: lane `k` of head `h` at position `s` of sample `b`. -/
theorem v30_eq (b : Fin 32) (h : Fin 8) (s : Fin 512) (k : Fin 64) :
    val_main_v30 (F := Ideal) x0 x1 x2 x3 x4 x5 x6 (ix4 b h s k) = mix (score (proj (sample x0 b) (arr3 x1) (arr2 x2)) (proj (sample x0 b) (arr3 x3) (arr2 x4))) (proj (sample x0 b) (arr3 x5) (arr2 x6)) s h k := by
  rw [val_main_v30_apply]
  have e1 : ∀ t : Fin 512, lidx_main_v30 (ix4 b h s k) t = ix4 b h s t := fun t => by idx4
  have e2 : ∀ t : Fin 512, ridx_main_v30 (ix4 b h s k) t = ix4 b h t k := fun t => by idx4
  simp only [e1, e2, v29_eq, v14_eq]
  rfl

end Cert.RefAttn

end
-- ==== Proof.RefAttnOut.lean ====
/-
  The heads laid side by side, the output projection, its bias and the residual, read entry by entry.

  The reference transposes the weighted values so that the position comes before the head and then flattens head and
  lane into one feature axis of length 512 = 8 · 64: feature `j` is lane `j % 64` of head `j / 64`.  The flattening is
  row-major, so the flat offset ((b · 512 + s) · 512 + j) of entry (b, s, j) is read back as (b, s, j / 64, j % 64).
-/
import proofs.«106087_j22016002360042_1_alg».proof.Proof.RefRead
import proofs.«106087_j22016002360042_1_alg».proof.Proof.Spec
import proofs.«106087_j22016002360042_1_alg».proof.Proof.RefAttnConst
import proofs.«106087_j22016002360042_1_alg».proof.Proof.RefAttnProj
import proofs.«106087_j22016002360042_1_alg».proof.Proof.RefAttnSoftmax

noncomputable section

namespace Cert.RefAttn

open Idealize.ShloMosaic Idealize.ShloMosaic.ValueIdx Cert.ReferenceIdeal Cert.ReferenceIdeal.Read Cert.Encoder

/-- Two indices of a literal shape with the same coordinates are equal: coordinate by coordinate. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))
local macro "idx4" : tactic =>
  `(tactic| (funext a; match a with | ⟨0, _⟩ => rfl | ⟨1, _⟩ => rfl | ⟨2, _⟩ => rfl | ⟨3, _⟩ => rfl))

variable (x0 : (⟨S32x512x512, .f32⟩ : BufTy).Contents (Elt Ideal)) (x1 : (⟨S8x64x512, .f32⟩ : BufTy).Contents (Elt Ideal))
  (x2 : (⟨S8x64, .f32⟩ : BufTy).Contents (Elt Ideal)) (x3 : (⟨S8x64x512, .f32⟩ : BufTy).Contents (Elt Ideal))
  (x4 : (⟨S8x64, .f32⟩ : BufTy).Contents (Elt Ideal)) (x5 : (⟨S8x64x512, .f32⟩ : BufTy).Contents (Elt Ideal))
  (x6 : (⟨S8x64, .f32⟩ : BufTy).Contents (Elt Ideal)) (x7 : (⟨S512x512, .f32⟩ : BufTy).Contents (Elt Ideal))
  (x8 : (⟨S512, .f32⟩ : BufTy).Contents (Elt Ideal)) (x15 : (⟨S512x512, .f32⟩ : BufTy).Contents (Elt Ideal))
  (x16 : (⟨S512x512, .f32⟩ : BufTy).Contents (Elt Ideal))

/-- Entry (b, s, j) of the reference's flattened heads: lane `j % 64` of head `j / 64` at position `s`. -/
theorem v32_eq (b : Fin 32) (s j : Fin 512) :
    val_main_v32 (F := Ideal) x0 x1 x2 x3 x4 x5 x6 (ix3 b s j) = cat (mix (score (proj (sample x0 b) (arr3 x1) (arr2 x2)) (proj (sample x0 b) (arr3 x3) (arr2 x4))) (proj (sample x0 b) (arr3 x5) (arr2 x6))) s j := by
  rw [val_main_v32_apply, val_main_v31_apply]
  have hb := b.isLt
  have hs := s.isLt
  have hj := j.isLt
  have e : idx_main_v31 (idx_main_v32 (ix3 b s j)) = ix4 b (hd j) s (ln j) := by
    funext a
    apply Fin.ext
    match a with
    | ⟨0, _⟩ => show ((b.val * 512 + s.val) * 512 + j.val) / 262144 = b.val; omega
    | ⟨1, _⟩ => show ((b.val * 512 + s.val) * 512 + j.val) / 64 % 8 = j.val / 64; omega
    | ⟨2, _⟩ => show ((b.val * 512 + s.val) * 512 + j.val) / 512 % 512 = s.val; omega
    | ⟨3, _⟩ => show ((b.val * 512 + s.val) * 512 + j.val) % 64 = j.val % 64; omega
  rw [e, v30_eq]
  rfl

/-- The reference's output projection plus its bias plus the sample, at (b, s, e). -/
theorem v37_eq (b : Fin 32) (s e : Fin 512) :
    val_main_v37 (F := Ideal) x0 x1 x2 x3 x4 x5 x6 x7 x8 (ix3 b s e)
      = outProj (cat (mix (score (proj (sample x0 b) (arr3 x1) (arr2 x2)) (proj (sample x0 b) (arr3 x3) (arr2 x4))) (proj (sample x0 b) (arr3 x5) (arr2 x6)))) (arr2 x7) (arr1 x8) (sample x0 b) s e := by
  rw [val_main_v37_apply, val_main_v36_apply, val_main_v33_apply, val_main_v35_apply, val_main_v34_apply]
  have e1 : ∀ j : Fin 512, lidx_main_v33 (ix3 b s e) j = ix3 b s j := fun j => by idx3
  have e2 : ∀ j : Fin 512, ridx_main_v33 (ix3 b s e) j = ix2 e j := fun j => by idx2
  have e3 : idx_main_v34 (idx_main_v35 (ix3 b s e)) = ix1 e := by idx1
  simp only [e1, e2, e3, v32_eq]
  rfl

end Cert.RefAttn

end
-- ==== Proof.RefAttnNorm.lean ====
/-
  The reference's normalisation over all 512 · 512 entries of a sample, read entry by entry.

  The mean is the sum of all entries (taken from the word for zero) divided by 262144, which is the multiplication by
  2⁻¹⁸ the specification has; the variance is the mean of the squared deviations, taken the same way.  Each deviation is
  multiplied by the reciprocal square root of the variance plus the offset, then by the gain, and the shift is added.
-/
import proofs.«106087_j22016002360042_1_alg».proof.Proof.RefRead
import proofs.«106087_j22016002360042_1_alg».proof.Proof.Spec
import proofs.«106087_j22016002360042_1_alg».proof.Proof.RefAttnSum
import proofs.«106087_j22016002360042_1_alg».proof.Proof.RefAttnConst
import proofs.«106087_j22016002360042_1_alg».proof.Proof.RefAttnProj
import proofs.«106087_j22016002360042_1_alg».proof.Proof.RefAttnSoftmax
import proofs.«106087_j22016002360042_1_alg».proof.Proof.RefAttnOut

noncomputable section

namespace Cert.RefAttn

open Idealize.ShloMosaic Idealize.ShloMosaic.ValueIdx Cert.ReferenceIdeal Cert.ReferenceIdeal.Read Cert.Encoder

/-- Two indices of a literal shape with the same coordinates are equal: coordinate by coordinate. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))
local macro "idx4" : tactic =>
  `(tactic| (funext a; match a with | ⟨0, _⟩ => rfl | ⟨1, _⟩ => rfl | ⟨2, _⟩ => rfl | ⟨3, _⟩ => rfl))

variable (x0 : (⟨S32x512x512, .f32⟩ : BufTy).Contents (Elt Ideal)) (x1 : (⟨S8x64x512, .f32⟩ : BufTy).Contents (Elt Ideal))
  (x2 : (⟨S8x64, .f32⟩ : BufTy).Contents (Elt Ideal)) (x3 : (⟨S8x64x512, .f32⟩ : BufTy).Contents (Elt Ideal))
  (x4 : (⟨S8x64, .f32⟩ : BufTy).Contents (Elt Ideal)) (x5 : (⟨S8x64x512, .f32⟩ : BufTy).Contents (Elt Ideal))
  (x6 : (⟨S8x64, .f32⟩ : BufTy).Contents (Elt Ideal)) (x7 : (⟨S512x512, .f32⟩ : BufTy).Contents (Elt Ideal))
  (x8 : (⟨S512, .f32⟩ : BufTy).Contents (Elt Ideal)) (x15 : (⟨S512x512, .f32⟩ : BufTy).Contents (Elt Ideal))
  (x16 : (⟨S512x512, .f32⟩ : BufTy).Contents (Elt Ideal))

/-- What the normalisation of sample `b` is applied to: the output projection with its bias and the residual. -/
def preNorm (b : Fin 32) : Mat 512 512 :=
  outProj (cat (mix (score (proj (sample x0 b) (arr3 x1) (arr2 x2)) (proj (sample x0 b) (arr3 x3) (arr2 x4))) (proj (sample x0 b) (arr3 x5) (arr2 x6)))) (arr2 x7) (arr1 x8) (sample x0 b)

theorem v37_eq' (b : Fin 32) (s e : Fin 512) :
    val_main_v37 (F := Ideal) x0 x1 x2 x3 x4 x5 x6 x7 x8 (ix3 b s e) = preNorm x0 x1 x2 x3 x4 x5 x6 x7 x8 b s e :=
  v37_eq x0 x1 x2 x3 x4 x5 x6 x7 x8 b s e

/-- The sum of all entries of sample `b`. -/
theorem v38_eq (b : Fin 32) :
    val_main_v38 (F := Ideal) x0 x1 x2 x3 x4 x5 x6 x7 x8 (ix1 b) = total (preNorm x0 x1 x2 x3 x4 x5 x6 x7 x8 b) := by
  unfold val_main_v38
  rw [Cert.RefSum.reduceAdd_d1_2_apply, val_main_cst_3_apply]
  simp only [v37_eq']
  show Ideal.ofBits .f32 0x00000000#32 + total (preNorm x0 x1 x2 x3 x4 x5 x6 x7 x8 b) = _
  rw [Ideal.ofBits_zero_f32, zero_add]

/-- The mean of all entries of sample `b`. -/
theorem v41_eq (b : Fin 32) :
    val_main_v41 (F := Ideal) x0 x1 x2 x3 x4 x5 x6 x7 x8 (ix3 b (0 : Fin 1) (0 : Fin 1))
      = total (preNorm x0 x1 x2 x3 x4 x5 x6 x7 x8 b) * c18 := by
  rw [val_main_v41_apply, val_main_v39_apply, val_main_v40_apply, val_main_cst_4_apply]
  have e : idx_main_v39 (ix3 b (0 : Fin 1) (0 : Fin 1)) = ix1 b := by idx1
  rw [e, v38_eq]
  exact div_262144 _

/-- An entry less the mean (the reference computes it twice: once for the variance, once for the result). -/
theorem v43_eq (b : Fin 32) (s e : Fin 512) :
    val_main_v43 (F := Ideal) x0 x1 x2 x3 x4 x5 x6 x7 x8 (ix3 b s e)
      = centred (preNorm x0 x1 x2 x3 x4 x5 x6 x7 x8 b) s e := by
  rw [val_main_v43_apply, val_main_v42_apply]
  have e0 : idx_main_v42 (ix3 b s e) = ix3 b (0 : Fin 1) (0 : Fin 1) := by idx3
  rw [e0, v41_eq, v37_eq']
  rfl

theorem v50_eq (b : Fin 32) (s e : Fin 512) :
    val_main_v50 (F := Ideal) x0 x1 x2 x3 x4 x5 x6 x7 x8 (ix3 b s e)
      = centred (preNorm x0 x1 x2 x3 x4 x5 x6 x7 x8 b) s e := by
  rw [val_main_v50_apply, val_main_v49_apply]
  have e0 : idx_main_v49 (ix3 b s e) = ix3 b (0 : Fin 1) (0 : Fin 1) := by idx3
  rw [e0, v41_eq, v37_eq']
  rfl

/-- The sum of the squared deviations of sample `b`. -/
theorem v45_eq (b : Fin 32) :
    val_main_v45 (F := Ideal) x0 x1 x2 x3 x4 x5 x6 x7 x8 (ix1 b)
      = total (fun s e => centred (preNorm x0 x1 x2 x3 x4 x5 x6 x7 x8 b) s e
          * centred (preNorm x0 x1 x2 x3 x4 x5 x6 x7 x8 b) s e) := by
  unfold val_main_v45
  rw [Cert.RefSum.reduceAdd_d1_2_apply, val_main_cst_5_apply]
  simp only [val_main_v44_apply, v43_eq]
  show Ideal.ofBits .f32 0x00000000#32 + total (fun s e => centred (preNorm x0 x1 x2 x3 x4 x5 x6 x7 x8 b) s e
          * centred (preNorm x0 x1 x2 x3 x4 x5 x6 x7 x8 b) s e) = _
  rw [Ideal.ofBits_zero_f32, zero_add]

/-- The reciprocal square root of the variance plus the offset. -/
theorem v53_eq (b : Fin 32) :
    val_main_v53 (F := Ideal) x0 x1 x2 x3 x4 x5 x6 x7 x8 (ix3 b (0 : Fin 1) (0 : Fin 1))
      = Ideal.rsqrt (total (fun s e => centred (preNorm x0 x1 x2 x3 x4 x5 x6 x7 x8 b) s e
          * centred (preNorm x0 x1 x2 x3 x4 x5 x6 x7 x8 b) s e) * c18 + eps) := by
  rw [val_main_v53_apply, val_main_v52_apply, val_main_v51_apply, val_main_cst_7_apply, val_main_v48_apply,
    val_main_v46_apply, val_main_v47_apply, val_main_cst_6_apply]
  have e : idx_main_v46 (ix3 b (0 : Fin 1) (0 : Fin 1)) = ix1 b := by idx1
  rw [e, v45_eq]
  show Ideal.rsqrt (Ideal.div _ (Ideal.ofBits .f32 0x48800000#32) + eps) = _
  rw [div_262144]

/-- Entry (b, s, e) of the reference's first normalised array. -/
theorem v61_eq (b : Fin 32) (s e : Fin 512) :
    val_main_v61 (F := Ideal) x0 x1 x2 x3 x4 x5 x6 x7 x8 x15 x16 (ix3 b s e)
      = norm (preNorm x0 x1 x2 x3 x4 x5 x6 x7 x8 b) (arr2 x15) (arr2 x16) s e := by
  rw [val_main_v61_apply, val_main_v58_apply, val_main_v55_apply, val_main_v54_apply, val_main_v57_apply,
    val_main_v56_apply, val_main_v60_apply, val_main_v59_apply]
  have e1 : idx_main_v54 (ix3 b s e) = ix3 b (0 : Fin 1) (0 : Fin 1) := by idx3
  have e2 : idx_main_v56 (idx_main_v57 (ix3 b s e)) = ix2 s e := by idx2
  have e3 : idx_main_v59 (idx_main_v60 (ix3 b s e)) = ix2 s e := by idx2
  rw [e1, e2, e3, v50_eq, v53_eq]
  rfl

end Cert.RefAttn

end
-- ==== Proof.RefAttn.lean ====
/-
  The reference's attention half, read entry by entry.

  The chain: the three projections and the scaled query–key products; the softmax along the key position and the
  weighted values; the heads side by side, the output projection, bias and residual; the normalisation over the whole
  sample.  Each link is a lemma of one of the modules imported here; this module joins the last one to the
  specification's `attnHalf`, which is those same functions composed.
-/
import proofs.«106087_j22016002360042_1_alg».proof.Proof.RefRead
import proofs.«106087_j22016002360042_1_alg».proof.Proof.Spec
import proofs.«106087_j22016002360042_1_alg».proof.Proof.RefAttnNorm

noncomputable section

namespace Cert.RefAttn

open Idealize.ShloMosaic Idealize.ShloMosaic.ValueIdx Cert.ReferenceIdeal Cert.ReferenceIdeal.Read Cert.Encoder

/-- Entry (b, s, e) of the reference's first normalised array is the attention half of sample b at (s, e). -/
theorem attn_value (x0 : (⟨S32x512x512, .f32⟩ : BufTy).Contents (Elt Ideal)) (x1 : (⟨S8x64x512, .f32⟩ : BufTy).Contents (Elt Ideal)) (x2 : (⟨S8x64, .f32⟩ : BufTy).Contents (Elt Ideal)) (x3 : (⟨S8x64x512, .f32⟩ : BufTy).Contents (Elt Ideal)) (x4 : (⟨S8x64, .f32⟩ : BufTy).Contents (Elt Ideal)) (x5 : (⟨S8x64x512, .f32⟩ : BufTy).Contents (Elt Ideal)) (x6 : (⟨S8x64, .f32⟩ : BufTy).Contents (Elt Ideal)) (x7 : (⟨S512x512, .f32⟩ : BufTy).Contents (Elt Ideal)) (x8 : (⟨S512, .f32⟩ : BufTy).Contents (Elt Ideal)) (x15 : (⟨S512x512, .f32⟩ : BufTy).Contents (Elt Ideal)) (x16 : (⟨S512x512, .f32⟩ : BufTy).Contents (Elt Ideal))
    (b : Fin 32) (s e : Fin 512) :
    val_main_v61 (F := Ideal) x0 x1 x2 x3 x4 x5 x6 x7 x8 x15 x16 (ix3 b s e)
      = attnHalf (sample x0 b) (arr3 x1) (arr2 x2) (arr3 x3) (arr2 x4) (arr3 x5) (arr2 x6) (arr2 x7) (arr1 x8)
          (arr2 x15) (arr2 x16) s e := by
  rw [v61_eq]
  unfold attnHalf preNorm
  rfl

end Cert.RefAttn

end
-- ==== Proof.RefFfnDense.lean ====
/-
  The reference's three dense layers, read entry by entry.

  The first normalised array holds one 512 × 512 sample per batch entry.  A dense layer is a contraction of the
  sample's rows with the rows of a weight matrix, plus a bias broadcast along batch and position; the first two are
  followed by a maximum with the zero array, the third by adding the sample back.
-/
import proofs.«106087_j22016002360042_1_alg».proof.Proof.RefRead
import proofs.«106087_j22016002360042_1_alg».proof.Proof.Spec

noncomputable section

namespace Cert.RefFfn

open Idealize.ShloMosaic Idealize.ShloMosaic.ValueIdx Cert.ReferenceIdeal Cert.ReferenceIdeal.Gen Cert.ReferenceIdeal.Read Cert.Encoder

variable (x0 : (⟨S32x512x512, .f32⟩ : BufTy).Contents (Elt Ideal))
  (x1 : (⟨S8x64x512, .f32⟩ : BufTy).Contents (Elt Ideal))
  (x2 : (⟨S8x64, .f32⟩ : BufTy).Contents (Elt Ideal))
  (x3 : (⟨S8x64x512, .f32⟩ : BufTy).Contents (Elt Ideal))
  (x4 : (⟨S8x64, .f32⟩ : BufTy).Contents (Elt Ideal))
  (x5 : (⟨S8x64x512, .f32⟩ : BufTy).Contents (Elt Ideal))
  (x6 : (⟨S8x64, .f32⟩ : BufTy).Contents (Elt Ideal))
  (x7 : (⟨S512x512, .f32⟩ : BufTy).Contents (Elt Ideal))
  (x8 : (⟨S512, .f32⟩ : BufTy).Contents (Elt Ideal))
  (x9 : (⟨S200x512, .f32⟩ : BufTy).Contents (Elt Ideal))
  (x10 : (⟨S200, .f32⟩ : BufTy).Contents (Elt Ideal))
  (x11 : (⟨S200x200, .f32⟩ : BufTy).Contents (Elt Ideal))
  (x12 : (⟨S200, .f32⟩ : BufTy).Contents (Elt Ideal))
  (x13 : (⟨S512x200, .f32⟩ : BufTy).Contents (Elt Ideal))
  (x14 : (⟨S512, .f32⟩ : BufTy).Contents (Elt Ideal))
  (x15 : (⟨S512x512, .f32⟩ : BufTy).Contents (Elt Ideal))
  (x16 : (⟨S512x512, .f32⟩ : BufTy).Contents (Elt Ideal))
variable (Y : Fin 32 → Mat 512 512)

local notation "V61" => val_main_v61 (F := Ideal) x0 x1 x2 x3 x4 x5 x6 x7 x8 x15 x16
local notation "V66" => val_main_v66 (F := Ideal) x0 x1 x2 x3 x4 x5 x6 x7 x8 x9 x10 x15 x16
local notation "V71" => val_main_v71 (F := Ideal) x0 x1 x2 x3 x4 x5 x6 x7 x8 x9 x10 x11 x12 x15 x16
local notation "V76" => val_main_v76 (F := Ideal) x0 x1 x2 x3 x4 x5 x6 x7 x8 x9 x10 x11 x12 x13 x14 x15 x16

/-- The first hidden layer: entry (b, s, f) is the larger of 0 and row s of sample b against row f of the first
    weight matrix, plus the bias at f. -/
theorem v66_value (hY : ∀ (b : Fin 32) (s e : Fin 512), V61 (ix3 b s e) = Y b s e)
    (b : Fin 32) (s : Fin 512) (f : Fin 200) :
    V66 (ix3 b s f) = relu (dense (Y b) (arr2 x9) (arr1 x10)) s f := by
  rw [val_main_v66_apply, val_main_v65_apply, val_main_v62_apply, val_main_v64_apply, val_main_v63_apply,
    val_main_call0_v0_apply, val_main_call0_cst_apply]
  have hl : ∀ k : Fin 512, lidx_main_v62 (ix3 b s f) k = ix3 b s k := fun k => funext fun a =>
    match a with | ⟨0, _⟩ => rfl | ⟨1, _⟩ => rfl | ⟨2, _⟩ => rfl
  have hr : ∀ k : Fin 512, ridx_main_v62 (ix3 b s f) k = ix2 f k := fun k => funext fun a =>
    match a with | ⟨0, _⟩ => rfl | ⟨1, _⟩ => rfl
  have hb : idx_main_v63 (idx_main_v64 (ix3 b s f)) = ix1 f := funext fun a =>
    match a with | ⟨0, _⟩ => rfl
  simp only [hl, hr, hb, hY]
  show max (_ + _) (Ideal.ofBits .f32 0x00000000#32) = _
  rw [Ideal.ofBits_zero_f32]
  rfl

/-- The second hidden layer, from the first. -/
theorem v71_value (hY : ∀ (b : Fin 32) (s e : Fin 512), V61 (ix3 b s e) = Y b s e)
    (b : Fin 32) (s : Fin 512) (f : Fin 200) :
    V71 (ix3 b s f)
      = relu (dense (relu (dense (Y b) (arr2 x9) (arr1 x10))) (arr2 x11) (arr1 x12)) s f := by
  rw [val_main_v71_apply, val_main_v70_apply, val_main_v67_apply, val_main_v69_apply, val_main_v68_apply,
    val_main_call1_v0_apply, val_main_call1_cst_apply]
  have hl : ∀ k : Fin 200, lidx_main_v67 (ix3 b s f) k = ix3 b s k := fun k => funext fun a =>
    match a with | ⟨0, _⟩ => rfl | ⟨1, _⟩ => rfl | ⟨2, _⟩ => rfl
  have hr : ∀ k : Fin 200, ridx_main_v67 (ix3 b s f) k = ix2 f k := fun k => funext fun a =>
    match a with | ⟨0, _⟩ => rfl | ⟨1, _⟩ => rfl
  have hb : idx_main_v68 (idx_main_v69 (ix3 b s f)) = ix1 f := funext fun a =>
    match a with | ⟨0, _⟩ => rfl
  simp only [hl, hr, hb, v66_value x0 x1 x2 x3 x4 x5 x6 x7 x8 x9 x10 x15 x16 Y hY]
  show max (_ + _) (Ideal.ofBits .f32 0x00000000#32) = _
  rw [Ideal.ofBits_zero_f32]
  rfl

/-- The output layer plus the sample: the array the first of the two closing normalisations is applied to. -/
theorem v76_value (hY : ∀ (b : Fin 32) (s e : Fin 512), V61 (ix3 b s e) = Y b s e)
    (b : Fin 32) (s e : Fin 512) :
    V76 (ix3 b s e)
      = dense (relu (dense (relu (dense (Y b) (arr2 x9) (arr1 x10))) (arr2 x11) (arr1 x12))) (arr2 x13) (arr1 x14) s e
        + Y b s e := by
  rw [val_main_v76_apply, val_main_v75_apply, val_main_v72_apply, val_main_v74_apply, val_main_v73_apply]
  have hl : ∀ k : Fin 200, lidx_main_v72 (ix3 b s e) k = ix3 b s k := fun k => funext fun a =>
    match a with | ⟨0, _⟩ => rfl | ⟨1, _⟩ => rfl | ⟨2, _⟩ => rfl
  have hr : ∀ k : Fin 200, ridx_main_v72 (ix3 b s e) k = ix2 e k := fun k => funext fun a =>
    match a with | ⟨0, _⟩ => rfl | ⟨1, _⟩ => rfl
  have hb : idx_main_v73 (idx_main_v74 (ix3 b s e)) = ix1 e := funext fun a =>
    match a with | ⟨0, _⟩ => rfl
  simp only [hl, hr, hb, hY, v71_value x0 x1 x2 x3 x4 x5 x6 x7 x8 x9 x10 x11 x12 x15 x16 Y hY]
  rfl

end Cert.RefFfn

end
-- ==== Proof.RefFfnNorm.lean ====
/-
  The reference's normalisation of a batch of samples, read entry by entry.

  The reference normalises an array of 32 samples, each 512 × 512, in one chain of whole-array operations: the sum
  over positions and features (one number per sample), divided by 262144 = 512 · 512; the deviations from that
  mean; the sum of their squares, divided by 262144 again; the variance offset; the reciprocal square root; the
  product of deviation and reciprocal root; the gain and the shift, the same for every sample.  Here the chain is a
  function of the array it is applied to, and its entry (b, s, e) is the specification's normalisation of sample b
  at (s, e).  Dividing by 262144 is multiplying by 2⁻¹⁸, a law of the extended reals for every nonzero real divisor.
-/
import proofs.«106087_j22016002360042_1_alg».proof.Proof.Gen.ReferenceIdeal
import proofs.«106087_j22016002360042_1_alg».proof.Proof.RefAttnSum
import proofs.«106087_j22016002360042_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.RefFfn

open Cert.ReferenceIdeal Cert.ReferenceIdeal.Gen Idealize.ShloMosaic Idealize.ShloMosaic.TcCoe Idealize.SL.Sem
  Idealize.ShloMosaic.StableHlo Idealize.ShloMosaic.ValueIdx Cert.Encoder

/-- A batch of samples. -/
abbrev Batch : Type := (⟨S32x512x512, .f32⟩ : BufTy).Contents (Elt Ideal)
/-- One number per sample, kept with two unit axes. -/
abbrev PerSample : Type := (⟨S32x1x1, .f32⟩ : BufTy).Contents (Elt Ideal)
/-- A 512 × 512 parameter array. -/
abbrev Param : Type := (⟨S512x512, .f32⟩ : BufTy).Contents (Elt Ideal)

/-! ### The two constant words -/

/-- The word 0x48800000 is 262144 = 2¹⁸. -/
theorem word_262144 : Ideal.ofBits .f32 0x48800000#32 = ((262144 : ℝ) : EReal) := by
  simp [Ideal.ofBits, Ideal.ieee]
  rw [← EReal.coe_mul]
  norm_num

/-- The word 0x36800000 is 2⁻¹⁸ = 1 / 262144. -/
theorem word_inv_262144 : Ideal.ofBits .f32 0x36800000#32 = ((1 / 262144 : ℝ) : EReal) := by
  simp [Ideal.ofBits, Ideal.ieee]
  rw [← EReal.coe_mul]
  norm_num

/-- Dividing by the first word is multiplying by the second. -/
theorem div_word (x : EReal) : Ideal.div x (Ideal.ofBits .f32 0x48800000#32) = x * c18 := by
  show Ideal.div x (Ideal.ofBits .f32 0x48800000#32) = x * Ideal.ofBits .f32 0x36800000#32
  rw [word_262144, word_inv_262144, Ideal.div_coe (by norm_num)]

/-! ### The broadcasts at an index -/

/-- One number per sample, given two unit axes. -/
theorem bc_col (y : (⟨S32, .f32⟩ : BufTy).Contents (Elt Ideal)) (b : Fin 32) :
    broadcastInDim S32x1x1 ![0] bcast_S32_S32x1x1_0 y (ix3 b 0 0) = y (ix1 b) :=
  broadcastInDim_apply _ bcast_S32_S32x1x1_0 y (ix3 b 0 0) (ix1 b) (fun a => match a with
    | ⟨0, _⟩ => by show b.val = if (32 : Nat) = 1 then 0 else b.val; rw [if_neg (by decide)])

/-- A scalar spread over the samples. -/
theorem bc_scalar (y : (⟨S_, .f32⟩ : BufTy).Contents (Elt Ideal)) (i : S32x1x1.Idx) :
    broadcastInDim S32x1x1 ![] bcast_S_S32x1x1 y i = y ix0 :=
  broadcastInDim_apply _ bcast_S_S32x1x1 y i ix0 (fun a => a.elim0)

/-- A per-sample number spread over the sample's positions and features. -/
theorem bc_sample (y : PerSample) (b : Fin 32) (s e : Fin 512) :
    broadcastInDim S32x512x512 ![0, 1, 2] bcast_S32x1x1_S32x512x512_0_1_2 y (ix3 b s e) = y (ix3 b 0 0) :=
  broadcastInDim_apply _ bcast_S32x1x1_S32x512x512_0_1_2 y (ix3 b s e) (ix3 b 0 0) (fun a => match a with
    | ⟨0, _⟩ => by show b.val = if (32 : Nat) = 1 then 0 else b.val; rw [if_neg (by decide)]
    | ⟨1, _⟩ => by show 0 = if (1 : Nat) = 1 then 0 else s.val; rw [if_pos rfl]
    | ⟨2, _⟩ => by show 0 = if (1 : Nat) = 1 then 0 else e.val; rw [if_pos rfl])

/-- A parameter array given a unit batch axis and spread over the samples. -/
theorem bc_param (g : Param) (b : Fin 32) (s e : Fin 512) :
    broadcastInDim S32x512x512 ![0, 1, 2] bcast_S1x512x512_S32x512x512_0_1_2
        (broadcastInDim S1x512x512 ![1, 2] bcast_S512x512_S1x512x512_1_2 g) (ix3 b s e) = g (ix2 s e) := by
  rw [broadcastInDim_apply _ bcast_S1x512x512_S32x512x512_0_1_2 _ (ix3 b s e) (ix3 0 s e) (fun a => match a with
    | ⟨0, _⟩ => by show 0 = if (1 : Nat) = 1 then 0 else b.val; rw [if_pos rfl]
    | ⟨1, _⟩ => by show s.val = if (512 : Nat) = 1 then 0 else s.val; rw [if_neg (by decide)]
    | ⟨2, _⟩ => by show e.val = if (512 : Nat) = 1 then 0 else e.val; rw [if_neg (by decide)])]
  exact broadcastInDim_apply _ bcast_S512x512_S1x512x512_1_2 g (ix3 0 s e) (ix2 s e) (fun a => match a with
    | ⟨0, _⟩ => by show s.val = if (512 : Nat) = 1 then 0 else s.val; rw [if_neg (by decide)]
    | ⟨1, _⟩ => by show e.val = if (512 : Nat) = 1 then 0 else e.val; rw [if_neg (by decide)])

/-! ### The chain -/

section Chain
variable {F : FTy → Type} [FloatOps F]

/-- Per sample, the sum of all entries over 262144. -/
def meanOf (Z : (⟨S32x512x512, .f32⟩ : BufTy).Contents (Elt F)) : (⟨S32x1x1, .f32⟩ : BufTy).Contents (Elt F) :=
  Host.divf (broadcastInDim S32x1x1 ![0] bcast_S32_S32x1x1_0
      (Host.reduceAdd Z (constant (F := F) S_ .f32 0x00000000#32) reducesTo_S32x512x512_S32_d1_2 h_S_))
    (broadcastInDim S32x1x1 ![] bcast_S_S32x1x1 (constant (F := F) S_ .f32 0x48800000#32))

/-- The deviations from the sample's mean. -/
def cenOf (Z : (⟨S32x512x512, .f32⟩ : BufTy).Contents (Elt F)) : (⟨S32x512x512, .f32⟩ : BufTy).Contents (Elt F) :=
  subf Z (broadcastInDim S32x512x512 ![0, 1, 2] bcast_S32x1x1_S32x512x512_0_1_2 (meanOf Z))

/-- Per sample, the reciprocal root of the mean squared deviation plus the offset. -/
def rsOf (Z : (⟨S32x512x512, .f32⟩ : BufTy).Contents (Elt F)) : (⟨S32x1x1, .f32⟩ : BufTy).Contents (Elt F) :=
  Host.rsqrt (addf (meanOf (mulf (cenOf Z) (cenOf Z)))
    (broadcastInDim S32x1x1 ![] bcast_S_S32x1x1 (constant (F := F) S_ .f32 0x3727C5AC#32)))

/-- The whole normalisation: deviation times reciprocal root, times the gain, plus the shift. -/
def normChain (Z : (⟨S32x512x512, .f32⟩ : BufTy).Contents (Elt F)) (g bb : (⟨S512x512, .f32⟩ : BufTy).Contents (Elt F)) :
    (⟨S32x512x512, .f32⟩ : BufTy).Contents (Elt F) :=
  addf (mulf (mulf (cenOf Z) (broadcastInDim S32x512x512 ![0, 1, 2] bcast_S32x1x1_S32x512x512_0_1_2 (rsOf Z)))
      (broadcastInDim S32x512x512 ![0, 1, 2] bcast_S1x512x512_S32x512x512_0_1_2
        (broadcastInDim S1x512x512 ![1, 2] bcast_S512x512_S1x512x512_1_2 g)))
    (broadcastInDim S32x512x512 ![0, 1, 2] bcast_S1x512x512_S32x512x512_0_1_2
      (broadcastInDim S1x512x512 ![1, 2] bcast_S512x512_S1x512x512_1_2 bb))

end Chain

/-- A quotient of per-sample numbers at an index. -/
theorem divf_at (x y : FVec Ideal S32x1x1 .f32) (i : S32x1x1.Idx) : Host.divf (F := Ideal) x y i = Ideal.div (x i) (y i) := rfl
/-- A reciprocal root of per-sample numbers at an index. -/
theorem rsqrt_at (x : FVec Ideal S32x1x1 .f32) (i : S32x1x1.Idx) : Host.rsqrt (F := Ideal) x i = Ideal.rsqrt (x i) := rfl
/-- The constant scalar array holds the extended real its word encodes. -/
theorem const_at (w : BitVec 32) (i : S_.Idx) : constant (F := Ideal) S_ .f32 w i = Ideal.ofBits .f32 w := rfl

/-- The mean of sample b: the sum of its entries times 2⁻¹⁸. -/
theorem meanOf_apply (Z : Batch) (b : Fin 32) : meanOf (F := Ideal) Z (ix3 b 0 0) = total (sample Z b) * c18 := by
  unfold meanOf
  rw [divf_at, bc_col, bc_scalar, Cert.RefSum.reduceAdd_d1_2_apply, const_at, const_at, Ideal.ofBits_zero_f32, zero_add,
    div_word]
  rfl

/-- The deviation of entry (b, s, e) is the specification's. -/
theorem cenOf_apply (Z : Batch) (b : Fin 32) (s e : Fin 512) :
    cenOf (F := Ideal) Z (ix3 b s e) = centred (sample Z b) s e := by
  unfold cenOf
  rw [subf_apply, bc_sample, meanOf_apply]
  rfl

/-- The squared deviations of sample b. -/
theorem sample_sq (Z : Batch) (b : Fin 32) :
    sample (mulf (F := Ideal) (s := S32x512x512) (φ := .f32) (cenOf (F := Ideal) Z) (cenOf (F := Ideal) Z)) b
      = fun s e => centred (sample Z b) s e * centred (sample Z b) s e := by
  funext s e
  show cenOf (F := Ideal) Z (ix3 b s e) * cenOf (F := Ideal) Z (ix3 b s e) = _
  rw [cenOf_apply]

/-- The reciprocal root of sample b is the specification's. -/
theorem rsOf_apply (Z : Batch) (b : Fin 32) :
    rsOf (F := Ideal) Z (ix3 b 0 0)
      = Ideal.rsqrt (total (fun s e => centred (sample Z b) s e * centred (sample Z b) s e) * c18 + eps) := by
  unfold rsOf
  rw [rsqrt_at, addf_apply, bc_scalar, const_at, meanOf_apply, sample_sq]

/-- Entry (b, s, e) of the normalised batch is the specification's normalisation of sample b at (s, e). -/
theorem normChain_apply (Z : Batch) (g bb : Param) (b : Fin 32) (s e : Fin 512) :
    normChain (F := Ideal) Z g bb (ix3 b s e) = norm (sample Z b) (arr2 g) (arr2 bb) s e := by
  unfold normChain
  rw [addf_apply, mulf_apply, mulf_apply, bc_sample, bc_param, bc_param, cenOf_apply, rsOf_apply]
  rfl

end Cert.RefFfn

end
-- ==== Proof.RefFfn.lean ====
/-
  The reference's feed-forward half, read entry by entry, from the entries of its first normalised array.

  Three dense layers with the sample added back give the array the first closing normalisation is applied to; the
  reference then runs the same chain of whole-array operations twice, each time with the gain and the shift.  Each
  run is the general chain applied to the array before it, so its entries are the specification's normalisation of
  the sample that array holds.
-/
import proofs.«106087_j22016002360042_1_alg».proof.Proof.RefRead
import proofs.«106087_j22016002360042_1_alg».proof.Proof.Spec
import proofs.«106087_j22016002360042_1_alg».proof.Proof.RefFfnDense
import proofs.«106087_j22016002360042_1_alg».proof.Proof.RefFfnNorm

noncomputable section

namespace Cert.RefFfn

open Idealize.ShloMosaic Idealize.ShloMosaic.ValueIdx Cert.ReferenceIdeal Cert.ReferenceIdeal.Read Cert.Encoder

/-- If the first normalised array holds `Y b` for each sample b, entry (b, s, e) of the result is the feed-forward
    half of `Y b` at (s, e). -/
theorem ffn_value (x0 : (⟨S32x512x512, .f32⟩ : BufTy).Contents (Elt Ideal)) (x1 : (⟨S8x64x512, .f32⟩ : BufTy).Contents (Elt Ideal)) (x2 : (⟨S8x64, .f32⟩ : BufTy).Contents (Elt Ideal)) (x3 : (⟨S8x64x512, .f32⟩ : BufTy).Contents (Elt Ideal)) (x4 : (⟨S8x64, .f32⟩ : BufTy).Contents (Elt Ideal)) (x5 : (⟨S8x64x512, .f32⟩ : BufTy).Contents (Elt Ideal)) (x6 : (⟨S8x64, .f32⟩ : BufTy).Contents (Elt Ideal)) (x7 : (⟨S512x512, .f32⟩ : BufTy).Contents (Elt Ideal)) (x8 : (⟨S512, .f32⟩ : BufTy).Contents (Elt Ideal)) (x9 : (⟨S200x512, .f32⟩ : BufTy).Contents (Elt Ideal)) (x10 : (⟨S200, .f32⟩ : BufTy).Contents (Elt Ideal)) (x11 : (⟨S200x200, .f32⟩ : BufTy).Contents (Elt Ideal)) (x12 : (⟨S200, .f32⟩ : BufTy).Contents (Elt Ideal)) (x13 : (⟨S512x200, .f32⟩ : BufTy).Contents (Elt Ideal)) (x14 : (⟨S512, .f32⟩ : BufTy).Contents (Elt Ideal)) (x15 : (⟨S512x512, .f32⟩ : BufTy).Contents (Elt Ideal)) (x16 : (⟨S512x512, .f32⟩ : BufTy).Contents (Elt Ideal))
    (Y : Fin 32 → Mat 512 512)
    (hY : ∀ (b : Fin 32) (s e : Fin 512), val_main_v61 (F := Ideal) x0 x1 x2 x3 x4 x5 x6 x7 x8 x15 x16 (ix3 b s e) = Y b s e)
    (b : Fin 32) (s e : Fin 512) :
    val_main_v124 (F := Ideal) x0 x1 x2 x3 x4 x5 x6 x7 x8 x9 x10 x11 x12 x13 x14 x15 x16 (ix3 b s e)
      = ffnHalf (Y b) (arr2 x9) (arr1 x10) (arr2 x11) (arr1 x12) (arr2 x13) (arr1 x14) (arr2 x15) (arr2 x16) s e := by
  -- each closing normalisation is the general chain applied to the array before it
  have h100 : val_main_v100 (F := Ideal) x0 x1 x2 x3 x4 x5 x6 x7 x8 x9 x10 x11 x12 x13 x14 x15 x16
      = normChain (val_main_v76 (F := Ideal) x0 x1 x2 x3 x4 x5 x6 x7 x8 x9 x10 x11 x12 x13 x14 x15 x16) x15 x16 := rfl
  have h124 : val_main_v124 (F := Ideal) x0 x1 x2 x3 x4 x5 x6 x7 x8 x9 x10 x11 x12 x13 x14 x15 x16
      = normChain (val_main_v100 (F := Ideal) x0 x1 x2 x3 x4 x5 x6 x7 x8 x9 x10 x11 x12 x13 x14 x15 x16) x15 x16 := rfl
  -- the sample each of the two arrays holds
  have s76 : sample (val_main_v76 (F := Ideal) x0 x1 x2 x3 x4 x5 x6 x7 x8 x9 x10 x11 x12 x13 x14 x15 x16) b
      = fun s e => dense (relu (dense (relu (dense (Y b) (arr2 x9) (arr1 x10))) (arr2 x11) (arr1 x12))) (arr2 x13) (arr1 x14) s e
          + Y b s e := by
    funext s' e'
    exact v76_value x0 x1 x2 x3 x4 x5 x6 x7 x8 x9 x10 x11 x12 x13 x14 x15 x16 Y hY b s' e'
  have s100 : sample (val_main_v100 (F := Ideal) x0 x1 x2 x3 x4 x5 x6 x7 x8 x9 x10 x11 x12 x13 x14 x15 x16) b
      = norm (sample (val_main_v76 (F := Ideal) x0 x1 x2 x3 x4 x5 x6 x7 x8 x9 x10 x11 x12 x13 x14 x15 x16) b) (arr2 x15) (arr2 x16) := by
    funext s' e'
    show val_main_v100 (F := Ideal) x0 x1 x2 x3 x4 x5 x6 x7 x8 x9 x10 x11 x12 x13 x14 x15 x16 (ix3 b s' e') = _
    rw [h100, normChain_apply]
  rw [h124, normChain_apply, s100, s76]
  rfl

end Cert.RefFfn

end
-- ==== Proof.lean ====
/-
  The certificate of one transformer encoder layer: a kernel that runs the whole layer on one sample per grid point,
  against the plain reference on the whole batch.

  Both programs, read over the extended reals, compute the same function of the seventeen argument arrays, the layer
  of `Proof/Spec.lean`: per sample, eight heads of softmax attention over projected queries, keys and values, an
  output projection with a residual, a normalisation over all 512 · 512 entries, a feed-forward network
  512 → 200 → 200 → 512 with a residual, and two more normalisations.  The two programs differ only in arrangement:
  the kernel keeps the eight heads side by side in 512 columns and slices them out, multiplies by 1/8 and by 2⁻¹⁸ where
  the reference divides by √64 and by 512 · 512, sums rows and then the row sums where the reference sums both axes at
  once, and pads the hidden width 200 to 256 with zero weights.  None of these needs the inputs to be finite: sums over
  finite index sets may be taken in any order on the extended reals, dividing by a nonzero real is multiplying by its
  reciprocal there, and a zero weight annihilates whatever it multiplies.

  The kernel's side: `Proof/KAttn*.lean` and `Proof/KFfn.lean` read the body's stored value entry by entry,
  `Proof/KHost*.lean` the arrays the host operations before the call leave for it, `Proof/KBlocks.lean` the result array
  after the 32 grid points.  The reference's side: `Proof/RefAttn*.lean` and `Proof/RefFfn*.lean` read its result entry
  by entry.  Here the five claims are assembled.
-/
import proofs.«106087_j22016002360042_1_alg».proof.Defs
import proofs.«106087_j22016002360042_1_alg».proof.Proof.Gen.Kernel
import proofs.«106087_j22016002360042_1_alg».proof.Proof.Gen.Kernel.Frame
import proofs.«106087_j22016002360042_1_alg».proof.Proof.Gen.KernelIdeal
import proofs.«106087_j22016002360042_1_alg».proof.Proof.Gen.KernelIdeal.Frame
import proofs.«106087_j22016002360042_1_alg».proof.Proof.Gen.KernelIdeal.Value
import proofs.«106087_j22016002360042_1_alg».proof.Proof.Gen.ReferenceIdeal
import proofs.«106087_j22016002360042_1_alg».proof.Proof.Gen.Pre_finite_inputs
import proofs.«106087_j22016002360042_1_alg».proof.Proof.RefRun
import proofs.«106087_j22016002360042_1_alg».proof.Proof.RefRead
import proofs.«106087_j22016002360042_1_alg».proof.Proof.Spec
import proofs.«106087_j22016002360042_1_alg».proof.Proof.KBlocks
import proofs.«106087_j22016002360042_1_alg».proof.Proof.RefAttn
import proofs.«106087_j22016002360042_1_alg».proof.Proof.RefFfn
import Idealize.ShloMosaic.Adequacy
import Idealize.ShloMosaic.Init

noncomputable section

namespace Cert.Proof

open Idealize.ShloMosaic Idealize.ShloMosaic.ValueIdx Idealize.SL.Sem Cert.Encoder

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

open Cert.ReferenceIdeal (S32x512x512 S8x64x512 S8x64 S512x512 S512 S200x512 S200 S200x200 S512x200) in
/-- Entry (b, s, e) of the reference's result is the layer of sample b at (s, e). -/
theorem ref_value (x0 : S32x512x512.Idx → EReal) (x1 : S8x64x512.Idx → EReal) (x2 : S8x64.Idx → EReal)
    (x3 : S8x64x512.Idx → EReal) (x4 : S8x64.Idx → EReal) (x5 : S8x64x512.Idx → EReal) (x6 : S8x64.Idx → EReal)
    (x7 : S512x512.Idx → EReal) (x8 : S512.Idx → EReal) (x9 : S200x512.Idx → EReal) (x10 : S200.Idx → EReal)
    (x11 : S200x200.Idx → EReal) (x12 : S200.Idx → EReal) (x13 : S512x200.Idx → EReal) (x14 : S512.Idx → EReal)
    (x15 x16 : S512x512.Idx → EReal) :
    Cert.ReferenceIdeal.Read.val_main_v124 (F := Ideal) x0 x1 x2 x3 x4 x5 x6 x7 x8 x9 x10 x11 x12 x13 x14 x15 x16
      = layer x0 x1 x2 x3 x4 x5 x6 x7 x8 x9 x10 x11 x12 x13 x14 x15 x16 := by
  funext i
  obtain ⟨b, s, e, rfl⟩ : ∃ (b : Fin 32) (s e : Fin 512), i = ix3 b s e := ⟨i 0, i 1, i 2, eq_ix3 i⟩
  exact Cert.RefFfn.ffn_value x0 x1 x2 x3 x4 x5 x6 x7 x8 x9 x10 x11 x12 x13 x14 x15 x16
    (fun b => attnHalf (sample x0 b) (arr3 x1) (arr2 x2) (arr3 x3) (arr2 x4) (arr3 x5) (arr2 x6) (arr2 x7) (arr1 x8)
      (arr2 x15) (arr2 x16))
    (fun b s e => Cert.RefAttn.attn_value x0 x1 x2 x3 x4 x5 x6 x7 x8 x15 x16 b s e) b s e

/-- From memories agreeing on the arguments both programs end with the layer of the argument arrays. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KBlocks.final m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16⟩ := hagree c
    show Cert.ReferenceIdeal.Read.val_main_v124 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    rw [a0, a1, a2, a3, a4, a5, a6, a7, a8, a9, a10, a11, a12, a13, a14, a15, a16]
    exact ref_value _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
